-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  IdealRules.truncf_extf.Statement Cert.KernelIdeal.S512x896 .f32 .bf16
  ∧ IdealRules.truncf_extf.Statement Cert.KernelIdeal.S512x448 .f32 .bf16
  ∧ IdealRules.truncf_extf.Statement Cert.KernelIdeal.S512x448 .f32 .bf16
  ∧ IdealRules.truncf_extf.Statement Cert.KernelIdeal.S512x448 .f32 .bf16
  ∧ IdealRules.truncf_extf.Statement Cert.KernelIdeal.S512x448 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2 : Shape := ⟨2, ![8192, 2]⟩
abbrev S8192x896 : Shape := ⟨2, ![8192, 896]⟩
abbrev S8192x1 : Shape := ⟨2, ![8192, 1]⟩
abbrev S896x896 : Shape := ⟨2, ![896, 896]⟩
abbrev S1344x2 : Shape := ⟨2, ![1344, 2]⟩
abbrev S1344x3 : Shape := ⟨2, ![1344, 3]⟩
abbrev S448x448 : Shape := ⟨2, ![448, 448]⟩
abbrev S448 : Shape := ⟨1, ![448]⟩
abbrev S256x448 : Shape := ⟨2, ![256, 448]⟩
abbrev S256 : Shape := ⟨1, ![256]⟩
abbrev S896 : Shape := ⟨1, ![896]⟩
abbrev S_ : Shape := ⟨0, ![]⟩

class Facts : Prop where
  bcast_S_S8192x2 : S_.BroadcastsInDim S8192x2 (![] : Fin 0 → Fin S8192x2.rank)
  reducesTo_S8192x2_S_d0_1 : S8192x2.ReducesTo [0, 1] S_
  h_S_ : 0 < S_.numel
  bcast_S_S8192x896 : S_.BroadcastsInDim S8192x896 (![] : Fin 0 → Fin S8192x896.rank)
  reducesTo_S8192x896_S_d0_1 : S8192x896.ReducesTo [0, 1] S_
  bcast_S_S8192x1 : S_.BroadcastsInDim S8192x1 (![] : Fin 0 → Fin S8192x1.rank)
  reducesTo_S8192x1_S_d0_1 : S8192x1.ReducesTo [0, 1] S_
  bcast_S_S896x896 : S_.BroadcastsInDim S896x896 (![] : Fin 0 → Fin S896x896.rank)
  reducesTo_S896x896_S_d0_1 : S896x896.ReducesTo [0, 1] S_
  bcast_S_S1344x2 : S_.BroadcastsInDim S1344x2 (![] : Fin 0 → Fin S1344x2.rank)
  reducesTo_S1344x2_S_d0_1 : S1344x2.ReducesTo [0, 1] S_
  bcast_S_S1344x3 : S_.BroadcastsInDim S1344x3 (![] : Fin 0 → Fin S1344x3.rank)
  reducesTo_S1344x3_S_d0_1 : S1344x3.ReducesTo [0, 1] S_
  bcast_S_S448x448 : S_.BroadcastsInDim S448x448 (![] : Fin 0 → Fin S448x448.rank)
  reducesTo_S448x448_S_d0_1 : S448x448.ReducesTo [0, 1] S_
  bcast_S_S448 : S_.BroadcastsInDim S448 (![] : Fin 0 → Fin S448.rank)
  reducesTo_S448_S_d0 : S448.ReducesTo [0] S_
  bcast_S_S256x448 : S_.BroadcastsInDim S256x448 (![] : Fin 0 → Fin S256x448.rank)
  reducesTo_S256x448_S_d0_1 : S256x448.ReducesTo [0, 1] S_
  bcast_S_S256 : S_.BroadcastsInDim S256 (![] : Fin 0 → Fin S256.rank)
  reducesTo_S256_S_d0 : S256.ReducesTo [0] S_
  bcast_S_S896 : S_.BroadcastsInDim S896 (![] : Fin 0 → Fin S896.rank)
  reducesTo_S896_S_d0 : S896.ReducesTo [0] S_

variable [Facts]

def fn_part5 {F : FTy → Type} [FloatOps F] (main_arg18 : FVec F S896 .f32) (main_v83 : IVec S_ 1) (main_v84 : FVec F S896 .f32) (main_cst_32 : FVec F S_ .f32) : IVec S_ 1 :=
  let main_v85 : FVec F S896 .f32 := broadcastInDim S896 ![] bcast_S_S896 main_cst_32
  let main_v86 : IVec S896 1 := cmpf .olt main_v84 main_v85
  let main_c_33 : IVec S_ 1 := constantI S_ 1 1#1
  let main_v87 : IVec S_ 1 := (fun x v => Host.reduce IntOp.andi x v reducesTo_S896_S_d0 h_S_) main_v86 main_c_33
  let main_v88 : IVec S_ 1 := andi main_v83 main_v87
  let main_v89 : FVec F S896 .f32 := Host.absf main_arg18
  let main_cst_34 : FVec F S_ .f32 := constant S_ .f32 0x7F800000#32
  let main_v90 : FVec F S896 .f32 := broadcastInDim S896 ![] bcast_S_S896 main_cst_34
  let main_v91 : IVec S896 1 := cmpf .olt main_v89 main_v90
  let main_c_35 : IVec S_ 1 := constantI S_ 1 1#1
  let main_v92 : IVec S_ 1 := (fun x v => Host.reduce IntOp.andi x v reducesTo_S896_S_d0 h_S_) main_v91 main_c_35
  let main_v93 : IVec S_ 1 := andi main_v88 main_v92
  main_v93

def fn_part4 {F : FTy → Type} [FloatOps F] (main_arg14 : FVec F S256x448 .f32) (main_arg15 : FVec F S256 .f32) (main_arg16 : FVec F S896 .f32) (main_arg17 : FVec F S896 .f32) (main_arg18 : FVec F S896 .f32) (main_v63 : IVec S_ 1) (main_v67 : IVec S_ 1) : IVec S_ 1 :=
  let main_v68 : IVec S_ 1 := andi main_v63 main_v67
  let main_v69 : FVec F S256x448 .f32 := Host.absf main_arg14
  let main_cst_26 : FVec F S_ .f32 := constant S_ .f32 0x7F800000#32
  let main_v70 : FVec F S256x448 .f32 := broadcastInDim S256x448 ![] bcast_S_S256x448 main_cst_26
  let main_v71 : IVec S256x448 1 := cmpf .olt main_v69 main_v70
  let main_c_27 : IVec S_ 1 := constantI S_ 1 1#1
  let main_v72 : IVec S_ 1 := (fun x v => Host.reduce IntOp.andi x v reducesTo_S256x448_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S896 .f32 := Host.absf main_arg16
  let main_cst_30 : FVec F S_ .f32 := constant S_ .f32 0x7F800000#32
  let main_v80 : FVec F S896 .f32 := broadcastInDim S896 ![] bcast_S_S896 main_cst_30
  let main_v81 : IVec S896 1 := cmpf .olt main_v79 main_v80
  let main_c_31 : IVec S_ 1 := constantI S_ 1 1#1
  let main_v82 : IVec S_ 1 := (fun x v => Host.reduce IntOp.andi x v reducesTo_S896_S_d0 h_S_) main_v81 main_c_31
  let main_v83 : IVec S_ 1 := andi main_v78 main_v82
  let main_v84 : FVec F S896 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S256 .f32) (main_arg12 : FVec F S448x448 .f32) (main_arg13 : FVec F S448 .f32) (main_arg14 : FVec F S256x448 .f32) (main_arg15 : FVec F S256 .f32) (main_arg16 : FVec F S896 .f32) (main_arg17 : FVec F S896 .f32) (main_arg18 : FVec F S896 .f32) (main_v48 : IVec S_ 1) (main_v49 : FVec F S256x448 .f32) (main_v50 : FVec F S256x448 .f32) : IVec S_ 1 :=
  let main_v51 : IVec S256x448 1 := cmpf .olt main_v49 main_v50
  let main_c_19 : IVec S_ 1 := constantI S_ 1 1#1
  let main_v52 : IVec S_ 1 := (fun x v => Host.reduce IntOp.andi x v reducesTo_S256x448_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S448x448 .f32 := Host.absf main_arg12
  let main_cst_22 : FVec F S_ .f32 := constant S_ .f32 0x7F800000#32
  let main_v60 : FVec F S448x448 .f32 := broadcastInDim S448x448 ![] bcast_S_S448x448 main_cst_22
  let main_v61 : IVec S448x448 1 := cmpf .olt main_v59 main_v60
  let main_c_23 : IVec S_ 1 := constantI S_ 1 1#1
  let main_v62 : IVec S_ 1 := (fun x v => Host.reduce IntOp.andi x v reducesTo_S448x448_S_d0_1 h_S_) main_v61 main_c_23
  let main_v63 : IVec S_ 1 := andi main_v58 main_v62
  let main_v64 : FVec F S448 .f32 := Host.absf main_arg13
  let main_cst_24 : FVec F S_ .f32 := constant S_ .f32 0x7F800000#32
  let main_v65 : FVec F S448 .f32 := broadcastInDim S448 ![] bcast_S_S448 main_cst_24
  let main_v66 : IVec S448 1 := cmpf .olt main_v64 main_v65
  let main_c_25 : IVec S_ 1 := constantI S_ 1 1#1
  let main_v67 : IVec S_ 1 := (fun x v => Host.reduce IntOp.andi x v reducesTo_S448_S_d0 h_S_) main_v66 main_c_25
  fn_part4 (F := F) main_arg14 main_arg15 main_arg16 main_arg17 main_arg18 main_v63 main_v67

def fn_part2 {F : FTy → Type} [FloatOps F] (main_arg7 : FVec F S1344x3 .f32) (main_arg8 : FVec F S448x448 .f32) (main_arg9 : FVec F S448 .f32) (main_arg10 : FVec F S256x448 .f32) (main_arg11 : FVec F S256 .f32) (main_arg12 : FVec F S448x448 .f32) (main_arg13 : FVec F S448 .f32) (main_arg14 : FVec F S256x448 .f32) (main_arg15 : FVec F S256 .f32) (main_arg16 : FVec F S896 .f32) (main_arg17 : FVec F S896 .f32) (main_arg18 : FVec F S896 .f32) (main_v33 : IVec S_ 1) : IVec S_ 1 :=
  let main_v34 : FVec F S1344x3 .f32 := Host.absf main_arg7
  let main_cst_12 : FVec F S_ .f32 := constant S_ .f32 0x7F800000#32
  let main_v35 : FVec F S1344x3 .f32 := broadcastInDim S1344x3 ![] bcast_S_S1344x3 main_cst_12
  let main_v36 : IVec S1344x3 1 := cmpf .olt main_v34 main_v35
  let main_c_13 : IVec S_ 1 := constantI S_ 1 1#1
  let main_v37 : IVec S_ 1 := (fun x v => Host.reduce IntOp.andi x v reducesTo_S1344x3_S_d0_1 h_S_) main_v36 main_c_13
  let main_v38 : IVec S_ 1 := andi main_v33 main_v37
  let main_v39 : FVec F S448x448 .f32 := Host.absf main_arg8
  let main_cst_14 : FVec F S_ .f32 := constant S_ .f32 0x7F800000#32
  let main_v40 : FVec F S448x448 .f32 := broadcastInDim S448x448 ![] bcast_S_S448x448 main_cst_14
  let main_v41 : IVec S448x448 1 := cmpf .olt main_v39 main_v40
  let main_c_15 : IVec S_ 1 := constantI S_ 1 1#1
  let main_v42 : IVec S_ 1 := (fun x v => Host.reduce IntOp.andi x v reducesTo_S448x448_S_d0_1 h_S_) main_v41 main_c_15
  let main_v43 : IVec S_ 1 := andi main_v38 main_v42
  let main_v44 : FVec F S448 .f32 := Host.absf main_arg9
  let main_cst_16 : FVec F S_ .f32 := constant S_ .f32 0x7F800000#32
  let main_v45 : FVec F S448 .f32 := broadcastInDim S448 ![] bcast_S_S448 main_cst_16
  let main_v46 : IVec S448 1 := cmpf .olt main_v44 main_v45
  let main_c_17 : IVec S_ 1 := constantI S_ 1 1#1
  let main_v47 : IVec S_ 1 := (fun x v => Host.reduce IntOp.andi x v reducesTo_S448_S_d0 h_S_) main_v46 main_c_17
  let main_v48 : IVec S_ 1 := andi main_v43 main_v47
  let main_v49 : FVec F S256x448 .f32 := Host.absf main_arg10
  let main_cst_18 : FVec F S_ .f32 := constant S_ .f32 0x7F800000#32
  let main_v50 : FVec F S256x448 .f32 := broadcastInDim S256x448 ![] bcast_S_S256x448 main_cst_18
  fn_part3 (F := F) main_arg11 main_arg12 main_arg13 main_arg14 main_arg15 main_arg16 main_arg17 main_arg18 main_v48 main_v49 main_v50

def fn_part1 {F : FTy → Type} [FloatOps F] (main_arg4 : FVec F S896x896 .f32) (main_arg5 : FVec F S896x896 .f32) (main_arg6 : FVec F S1344x2 .f32) (main_arg7 : FVec F S1344x3 .f32) (main_arg8 : FVec F S448x448 .f32) (main_arg9 : FVec F S448 .f32) (main_arg10 : FVec F S256x448 .f32) (main_arg11 : FVec F S256 .f32) (main_arg12 : FVec F S448x448 .f32) (main_arg13 : FVec F S448 .f32) (main_arg14 : FVec F S256x448 .f32) (main_arg15 : FVec F S256 .f32) (main_arg16 : FVec F S896 .f32) (main_arg17 : FVec F S896 .f32) (main_arg18 : FVec F S896 .f32) (main_v13 : IVec S_ 1) (main_v16 : IVec S896x896 1) : IVec S_ 1 :=
  let main_c_5 : IVec S_ 1 := constantI S_ 1 1#1
  let main_v17 : IVec S_ 1 := (fun x v => Host.reduce IntOp.andi x v reducesTo_S896x896_S_d0_1 h_S_) main_v16 main_c_5
  let main_v18 : IVec S_ 1 := andi main_v13 main_v17
  let main_v19 : FVec F S896x896 .f32 := Host.absf main_arg4
  let main_cst_6 : FVec F S_ .f32 := constant S_ .f32 0x7F800000#32
  let main_v20 : FVec F S896x896 .f32 := broadcastInDim S896x896 ![] bcast_S_S896x896 main_cst_6
  let main_v21 : IVec S896x896 1 := cmpf .olt main_v19 main_v20
  let main_c_7 : IVec S_ 1 := constantI S_ 1 1#1
  let main_v22 : IVec S_ 1 := (fun x v => Host.reduce IntOp.andi x v reducesTo_S896x896_S_d0_1 h_S_) main_v21 main_c_7
  let main_v23 : IVec S_ 1 := andi main_v18 main_v22
  let main_v24 : FVec F S896x896 .f32 := Host.absf main_arg5
  let main_cst_8 : FVec F S_ .f32 := constant S_ .f32 0x7F800000#32
  let main_v25 : FVec F S896x896 .f32 := broadcastInDim S896x896 ![] bcast_S_S896x896 main_cst_8
  let main_v26 : IVec S896x896 1 := cmpf .olt main_v24 main_v25
  let main_c_9 : IVec S_ 1 := constantI S_ 1 1#1
  let main_v27 : IVec S_ 1 := (fun x v => Host.reduce IntOp.andi x v reducesTo_S896x896_S_d0_1 h_S_) main_v26 main_c_9
  let main_v28 : IVec S_ 1 := andi main_v23 main_v27
  let main_v29 : FVec F S1344x2 .f32 := Host.absf main_arg6
  let main_cst_10 : FVec F S_ .f32 := constant S_ .f32 0x7F800000#32
  let main_v30 : FVec F S1344x2 .f32 := broadcastInDim S1344x2 ![] bcast_S_S1344x2 main_cst_10
  let main_v31 : IVec S1344x2 1 := cmpf .olt main_v29 main_v30
  let main_c_11 : IVec S_ 1 := constantI S_ 1 1#1
  let main_v32 : IVec S_ 1 := (fun x v => Host.reduce IntOp.andi x v reducesTo_S1344x2_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x2 .f32) (main_arg1 : FVec F S8192x896 .f32) (main_arg2 : FVec F S8192x1 .f32) (main_arg3 : FVec F S896x896 .f32) (main_arg4 : FVec F S896x896 .f32) (main_arg5 : FVec F S896x896 .f32) (main_arg6 : FVec F S1344x2 .f32) (main_arg7 : FVec F S1344x3 .f32) (main_arg8 : FVec F S448x448 .f32) (main_arg9 : FVec F S448 .f32) (main_arg10 : FVec F S256x448 .f32) (main_arg11 : FVec F S256 .f32) (main_arg12 : FVec F S448x448 .f32) (main_arg13 : FVec F S448 .f32) (main_arg14 : FVec F S256x448 .f32) (main_arg15 : FVec F S256 .f32) (main_arg16 : FVec F S896 .f32) (main_arg17 : FVec F S896 .f32) (main_arg18 : FVec F S896 .f32) : IVec S_ 1 :=
  let main_v0 : FVec F S8192x2 .f32 := Host.absf main_arg0
  let main_cst : FVec F S_ .f32 := constant S_ .f32 0x7F800000#32
  let main_v1 : FVec F S8192x2 .f32 := broadcastInDim S8192x2 ![] bcast_S_S8192x2 main_cst
  let main_v2 : IVec S8192x2 1 := cmpf .olt main_v0 main_v1
  let main_c : IVec S_ 1 := constantI S_ 1 1#1
  let main_v3 : IVec S_ 1 := (fun x v => Host.reduce IntOp.andi x v reducesTo_S8192x2_S_d0_1 h_S_) main_v2 main_c
  let main_v4 : FVec F S8192x896 .f32 := Host.absf main_arg1
  let main_cst_0 : FVec F S_ .f32 := constant S_ .f32 0x7F800000#32
  let main_v5 : FVec F S8192x896 .f32 := broadcastInDim S8192x896 ![] bcast_S_S8192x896 main_cst_0
  let main_v6 : IVec S8192x896 1 := cmpf .olt main_v4 main_v5
  let main_c_1 : IVec S_ 1 := constantI S_ 1 1#1
  let main_v7 : IVec S_ 1 := (fun x v => Host.reduce IntOp.andi x v reducesTo_S8192x896_S_d0_1 h_S_) main_v6 main_c_1
  let main_v8 : IVec S_ 1 := andi main_v3 main_v7
  let main_v9 : FVec F S8192x1 .f32 := Host.absf main_arg2
  let main_cst_2 : FVec F S_ .f32 := constant S_ .f32 0x7F800000#32
  let main_v10 : FVec F S8192x1 .f32 := broadcastInDim S8192x1 ![] bcast_S_S8192x1 main_cst_2
  let main_v11 : IVec S8192x1 1 := cmpf .olt main_v9 main_v10
  let main_c_3 : IVec S_ 1 := constantI S_ 1 1#1
  let main_v12 : IVec S_ 1 := (fun x v => Host.reduce IntOp.andi x v reducesTo_S8192x1_S_d0_1 h_S_) main_v11 main_c_3
  let main_v13 : IVec S_ 1 := andi main_v8 main_v12
  let main_v14 : FVec F S896x896 .f32 := Host.absf main_arg3
  let main_cst_4 : FVec F S_ .f32 := constant S_ .f32 0x7F800000#32
  let main_v15 : FVec F S896x896 .f32 := broadcastInDim S896x896 ![] bcast_S_S896x896 main_cst_4
  let main_v16 : IVec S896x896 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x2 : Shape := ⟨2, ![8192, 2]⟩
abbrev S8192x896 : Shape := ⟨2, ![8192, 896]⟩
abbrev S8192x1 : Shape := ⟨2, ![8192, 1]⟩
abbrev S896x896 : Shape := ⟨2, ![896, 896]⟩
abbrev S1344x2 : Shape := ⟨2, ![1344, 2]⟩
abbrev S1344x3 : Shape := ⟨2, ![1344, 3]⟩
abbrev S448x448 : Shape := ⟨2, ![448, 448]⟩
abbrev S448 : Shape := ⟨1, ![448]⟩
abbrev S256x448 : Shape := ⟨2, ![256, 448]⟩
abbrev S256 : Shape := ⟨1, ![256]⟩
abbrev S896 : Shape := ⟨1, ![896]⟩
abbrev S896x2688 : Shape := ⟨2, ![896, 2688]⟩
abbrev S2x1344 : Shape := ⟨2, ![2, 1344]⟩
abbrev S2x448 : Shape := ⟨2, ![2, 448]⟩
abbrev S3x1344 : Shape := ⟨2, ![3, 1344]⟩
abbrev S1x1344 : Shape := ⟨2, ![1, 1344]⟩
abbrev S1x448 : Shape := ⟨2, ![1, 448]⟩
abbrev S2x896 : Shape := ⟨2, ![2, 896]⟩
abbrev S2x2688 : Shape := ⟨2, ![2, 2688]⟩
abbrev S_ : Shape := ⟨0, ![]⟩
abbrev S1x896 : Shape := ⟨2, ![1, 896]⟩
abbrev S1x2688 : Shape := ⟨2, ![1, 2688]⟩
abbrev S448x256 : Shape := ⟨2, ![448, 256]⟩
abbrev S8192x256 : Shape := ⟨2, ![8192, 256]⟩
abbrev S512x2 : Shape := ⟨2, ![512, 2]⟩
abbrev S512x896 : Shape := ⟨2, ![512, 896]⟩
abbrev S512x1 : Shape := ⟨2, ![512, 1]⟩
abbrev S512x256 : Shape := ⟨2, ![512, 256]⟩
abbrev S512x2688 : Shape := ⟨2, ![512, 2688]⟩
abbrev S512x448 : Shape := ⟨2, ![512, 448]⟩
abbrev S1x256 : Shape := ⟨2, ![1, 256]⟩

abbrev nBuf : Space → Nat
  | .hbm => 73
  | .vmem => 31
  | .smem => 0
  | _ => 0

abbrev bufTy : (tb : Table) → Fin (tcTables nBuf tb) → BufTy
  | .hbm, ⟨0, _⟩ => ⟨S8192x2, .f32⟩
  | .hbm, ⟨1, _⟩ => ⟨S8192x896, .f32⟩
  | .hbm, ⟨2, _⟩ => ⟨S8192x1, .f32⟩
  | .hbm, ⟨3, _⟩ => ⟨S896x896, .f32⟩
  | .hbm, ⟨4, _⟩ => ⟨S896x896, .f32⟩
  | .hbm, ⟨5, _⟩ => ⟨S896x896, .f32⟩
  | .hbm, ⟨6, _⟩ => ⟨S1344x2, .f32⟩
  | .hbm, ⟨7, _⟩ => ⟨S1344x3, .f32⟩
  | .hbm, ⟨8, _⟩ => ⟨S448x448, .f32⟩
  | .hbm, ⟨9, _⟩ => ⟨S448, .f32⟩
  | .hbm, ⟨10, _⟩ => ⟨S256x448, .f32⟩
  | .hbm, ⟨11, _⟩ => ⟨S256, .f32⟩
  | .hbm, ⟨12, _⟩ => ⟨S448x448, .f32⟩
  | .hbm, ⟨13, _⟩ => ⟨S448, .f32⟩
  | .hbm, ⟨14, _⟩ => ⟨S256x448, .f32⟩
  | .hbm, ⟨15, _⟩ => ⟨S256, .f32⟩
  | .hbm, ⟨16, _⟩ => ⟨S896, .f32⟩
  | .hbm, ⟨17, _⟩ => ⟨S896, .f32⟩
  | .hbm, ⟨18, _⟩ => ⟨S896, .f32⟩
  | .hbm, ⟨19, _⟩ => ⟨S896x896, .f32⟩
  | .hbm, ⟨20, _⟩ => ⟨S896x896, .f32⟩
  | .hbm, ⟨21, _⟩ => ⟨S896x896, .f32⟩
  | .hbm, ⟨22, _⟩ => ⟨S896x2688, .f32⟩
  | .hbm, ⟨23, _⟩ => ⟨S896x2688, .bf16⟩
  | .hbm, ⟨24, _⟩ => ⟨S896x2688, .f32⟩
  | .hbm, ⟨25, _⟩ => ⟨S896x2688, .f32⟩
  | .hbm, ⟨26, _⟩ => ⟨S896x2688, .bf16⟩
  | .hbm, ⟨27, _⟩ => ⟨S2x1344, .f32⟩
  | .hbm, ⟨28, _⟩ => ⟨S2x448, .f32⟩
  | .hbm, ⟨29, _⟩ => ⟨S2x448, .f32⟩
  | .hbm, ⟨30, _⟩ => ⟨S2x448, .f32⟩
  | .hbm, ⟨31, _⟩ => ⟨S3x1344, .f32⟩
  | .hbm, ⟨32, _⟩ => ⟨S2x1344, .f32⟩
  | .hbm, ⟨33, _⟩ => ⟨S1x1344, .f32⟩
  | .hbm, ⟨34, _⟩ => ⟨S2x448, .f32⟩
  | .hbm, ⟨35, _⟩ => ⟨S2x448, .f32⟩
  | .hbm, ⟨36, _⟩ => ⟨S2x448, .f32⟩
  | .hbm, ⟨37, _⟩ => ⟨S1x448, .f32⟩
  | .hbm, ⟨38, _⟩ => ⟨S1x448, .f32⟩
  | .hbm, ⟨39, _⟩ => ⟨S1x448, .f32⟩
  | .hbm, ⟨40, _⟩ => ⟨S2x896, .f32⟩
  | .hbm, ⟨41, _⟩ => ⟨S2x896, .f32⟩
  | .hbm, ⟨42, _⟩ => ⟨S2x896, .f32⟩
  | .hbm, ⟨43, _⟩ => ⟨S2x2688, .f32⟩
  | .hbm, ⟨44, _⟩ => ⟨S_, .f32⟩
  | .hbm, ⟨45, _⟩ => ⟨S1x448, .f32⟩
  | .hbm, ⟨46, _⟩ => ⟨S1x896, .f32⟩
  | .hbm, ⟨47, _⟩ => ⟨S1x896, .f32⟩
  | .hbm, ⟨48, _⟩ => ⟨S1x896, .f32⟩
  | .hbm, ⟨49, _⟩ => ⟨S1x2688, .f32⟩
  | .hbm, ⟨50, _⟩ => ⟨S448x448, .f32⟩
  | .hbm, ⟨51, _⟩ => ⟨S448x448, .bf16⟩
  | .hbm, ⟨52, _⟩ => ⟨S448x448, .f32⟩
  | .hbm, ⟨53, _⟩ => ⟨S448x448, .f32⟩
  | .hbm, ⟨54, _⟩ => ⟨S448x448, .bf16⟩
  | .hbm, ⟨55, _⟩ => ⟨S448x256, .f32⟩
  | .hbm, ⟨56, _⟩ => ⟨S448x256, .bf16⟩
  | .hbm, ⟨57, _⟩ => ⟨S448x256, .f32⟩
  | .hbm, ⟨58, _⟩ => ⟨S448x256, .f32⟩
  | .hbm, ⟨59, _⟩ => ⟨S448x256, .bf16⟩
  | .hbm, ⟨60, _⟩ => ⟨S448x448, .f32⟩
  | .hbm, ⟨61, _⟩ => ⟨S448x448, .bf16⟩
  | .hbm, ⟨62, _⟩ => ⟨S448x448, .f32⟩
  | .hbm, ⟨63, _⟩ => ⟨S448x448, .f32⟩
  | .hbm, ⟨64, _⟩ => ⟨S448x448, .bf16⟩
  | .hbm, ⟨65, _⟩ => ⟨S448x256, .f32⟩
  | .hbm, ⟨66, _⟩ => ⟨S448x256, .bf16⟩
  | .hbm, ⟨67, _⟩ => ⟨S448x256, .f32⟩
  | .hbm, ⟨68, _⟩ => ⟨S448x256, .f32⟩
  | .hbm, ⟨69, _⟩ => ⟨S448x256, .bf16⟩
  | .hbm, ⟨70, _⟩ => ⟨S8192x256, .f32⟩
  | .hbm, ⟨71, _⟩ => ⟨S8192x256, .f32⟩
  | .hbm, ⟨72, _⟩ => ⟨S8192x896, .f32⟩
  | .local _ .vmem, ⟨0, _⟩ => ⟨S512x2, .f32⟩
  | .local _ .vmem, ⟨1, _⟩ => ⟨S512x2, .f32⟩
  | .local _ .vmem, ⟨2, _⟩ => ⟨S512x896, .f32⟩
  | .local _ .vmem, ⟨3, _⟩ => ⟨S512x896, .f32⟩
  | .local _ .vmem, ⟨4, _⟩ => ⟨S512x1, .f32⟩
  | .local _ .vmem, ⟨5, _⟩ => ⟨S512x1, .f32⟩
  | .local _ .vmem, ⟨6, _⟩ => ⟨S896x2688, .bf16⟩
  | .local _ .vmem, ⟨7, _⟩ => ⟨S896x2688, .bf16⟩
  | .local _ .vmem, ⟨8, _⟩ => ⟨S2x2688, .f32⟩
  | .local _ .vmem, ⟨9, _⟩ => ⟨S1x2688, .f32⟩
  | .local _ .vmem, ⟨10, _⟩ => ⟨S896, .f32⟩
  | .local _ .vmem, ⟨11, _⟩ => ⟨S896, .f32⟩
  | .local _ .vmem, ⟨12, _⟩ => ⟨S896, .f32⟩
  | .local _ .vmem, ⟨13, _⟩ => ⟨S448x448, .bf16⟩
  | .local _ .vmem, ⟨14, _⟩ => ⟨S448x448, .bf16⟩
  | .local _ .vmem, ⟨15, _⟩ => ⟨S448, .f32⟩
  | .local _ .vmem, ⟨16, _⟩ => ⟨S448x256, .bf16⟩
  | .local _ .vmem, ⟨17, _⟩ => ⟨S448x256, .bf16⟩
  | .local _ .vmem, ⟨18, _⟩ => ⟨S256, .f32⟩
  | .local _ .vmem, ⟨19, _⟩ => ⟨S448x448, .bf16⟩
  | .local _ .vmem, ⟨20, _⟩ => ⟨S448x448, .bf16⟩
  | .local _ .vmem, ⟨21, _⟩ => ⟨S448, .f32⟩
  | .local _ .vmem, ⟨22, _⟩ => ⟨S448x256, .bf16⟩
  | .local _ .vmem, ⟨23, _⟩ => ⟨S448x256, .bf16⟩
  | .local _ .vmem, ⟨24, _⟩ => ⟨S256, .f32⟩
  | .local _ .vmem, ⟨25, _⟩ => ⟨S512x256, .f32⟩
  | .local _ .vmem, ⟨26, _⟩ => ⟨S512x256, .f32⟩
  | .local _ .vmem, ⟨27, _⟩ => ⟨S512x256, .f32⟩
  | .local _ .vmem, ⟨28, _⟩ => ⟨S512x256, .f32⟩
  | .local _ .vmem, ⟨29, _⟩ => ⟨S512x896, .f32⟩
  | .local _ .vmem, ⟨30, _⟩ => ⟨S512x896, .f32⟩
  | _, _ => ⟨S8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50_0 : Ref sig .tc := ⟨.hbm, 70, rfl⟩
abbrev main_v50_1 : Ref sig .tc := ⟨.hbm, 71, rfl⟩
abbrev main_v50_2 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg22_1 : Ref sig .tc := ⟨.vmem, 26, rfl⟩
abbrev cc0_stg23_0 : Ref sig .tc := ⟨.vmem, 27, rfl⟩
abbrev cc0_stg23_1 : Ref sig .tc := ⟨.vmem, 28, rfl⟩
abbrev cc0_stg24_0 : Ref sig .tc := ⟨.vmem, 29, rfl⟩
abbrev cc0_stg24_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem22_1 : DmaSem sig := 26
abbrev cc0_sem23_0 : DmaSem sig := 27
abbrev cc0_sem23_1 : DmaSem sig := 28
abbrev cc0_sem24_0 : DmaSem sig := 29
abbrev cc0_sem24_1 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S896x2688 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S896x2688 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2688 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2688 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S896 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S896 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S896 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S448x448 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S448x448 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S448 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S448x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S448x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S448x448 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S448x448 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S448 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S448x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S448x256 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S512x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x896 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

class Facts₀ : Prop where
  transposes_S896x896_S896x896_1_0 : S896x896.Transposes [1, 0] S896x896
  concatenates_S896x896_S896x896_S896x896_S896x2688_d1 : Shape.Concatenates [S896x896, S896x896, S896x896] S896x2688 1
  bitsLt_bf16_f32 : FTy.bits .bf16 < FTy.bits .f32
  transposes_S1344x2_S2x1344_1_0 : S1344x2.Transposes [1, 0] S2x1344
  slices_S2x1344_S2x448_0_0 : S2x1344.Slices ![0, 0] S2x448
  slices_S2x1344_S2x448_0_448 : S2x1344.Slices ![0, 448] S2x448
  slices_S2x1344_S2x448_0_896 : S2x1344.Slices ![0, 896] S2x448
  transposes_S1344x3_S3x1344_1_0 : S1344x3.Transposes [1, 0] S3x1344
  slices_S3x1344_S2x1344_0_0 : S3x1344.Slices ![0, 0] S2x1344
  slices_S3x1344_S1x1344_2_0 : S3x1344.Slices ![2, 0] S1x1344
  slices_S1x1344_S1x448_0_0 : S1x1344.Slices ![0, 0] S1x448
  slices_S1x1344_S1x448_0_448 : S1x1344.Slices ![0, 448] S1x448
  slices_S1x1344_S1x448_0_896 : S1x1344.Slices ![0, 896] S1x448
  concatenates_S2x448_S2x448_S2x896_d1 : Shape.Concatenates [S2x448, S2x448] S2x896 1
  concatenates_S2x896_S2x896_S2x896_S2x2688_d1 : Shape.Concatenates [S2x896, S2x896, S2x896] S2x2688 1
  bcast_S_S1x448 : S_.BroadcastsInDim S1x448 (![] : Fin 0 → Fin S1x448.rank)
  concatenates_S1x448_S1x448_S1x896_d1 : Shape.Concatenates [S1x448, S1x448] S1x896 1
  concatenates_S1x896_S1x896_S1x896_S1x2688_d1 : Shape.Concatenates [S1x896, S1x896, S1x896] S1x2688 1
  transposes_S448x448_S448x448_1_0 : S448x448.Transposes [1, 0] S448x448
  transposes_S256x448_S448x256_1_0 : S256x448.Transposes [1, 0] S448x256
  inb_S512x896_S512x896_0_0 : ∀ a, (![0, 0] : Fin 2 → Nat) a + S512x896.size a ≤ S512x896.size a
  h_S512x896 : 0 < S512x896.numel
  inb_S512x2_S512x2_0_0 : ∀ a, (![0, 0] : Fin 2 → Nat) a + S512x2.size a ≤ S512x2.size a
  h_S512x2 : 0 < S512x2.numel
  inb_S512x1_S512x1_0_0 : ∀ a, (![0, 0] : Fin 2 → Nat) a + S512x1.size a ≤ S512x1.size a
  h_S512x1 : 0 < S512x1.numel
  inb_S896x2688_S896x2688_0_0 : ∀ a, (![0, 0] : Fin 2 → Nat) a + S896x2688.size a ≤ S896x2688.size a
  h_S896x2688 : 0 < S896x2688.numel
  shapeCasts_S896x2688_S896x2688 : S896x2688.ShapeCasts S896x2688
  inb_S2x2688_S2x2688_0_0 : ∀ a, (![0, 0] : Fin 2 → Nat) a + S2x2688.size a ≤ S2x2688.size a
  h_S2x2688 : 0 < S2x2688.numel
  shapeCasts_S2x2688_S2x2688 : S2x2688.ShapeCasts S2x2688
  inb_S1x2688_S1x2688_0_0 : ∀ a, (![0, 0] : Fin 2 → Nat) a + S1x2688.size a ≤ S1x2688.size a
  h_S1x2688 : 0 < S1x2688.numel
  shapeCasts_S1x2688_S1x2688 : S1x2688.ShapeCasts S1x2688
  slices_S512x2_o0_0_S512x1 : S512x2.Slices ![0, 0] S512x1
  slices_S2x2688_o0_0_S1x2688 : S2x2688.Slices ![0, 0] S1x2688
  broadcasts_S512x1_S512x2688 : S512x1.Broadcasts S512x2688
  broadcasts_S1x2688_S512x2688 : S1x2688.Broadcasts S512x2688
  slices_S512x2_o0_1_S512x1 : S512x2.Slices ![0, 1] S512x1
  slices_S2x2688_o1_0_S1x2688 : S2x2688.Slices ![1, 0] S1x2688
  slices_S512x2688_o0_0_S512x896 : S512x2688.Slices ![0, 0] S512x896
  slices_S512x2688_o0_896_S512x896 : S512x2688.Slices ![0, 896] S512x896
  slices_S512x2688_o0_1792_S512x896 : S512x2688.Slices ![0, 1792] S512x896
  inb_S896_S896_0 : ∀ a, (![0] : Fin 1 → Nat) a + S896.size a ≤ S896.size a
  h_S896 : 0 < S896.numel
  shapeCasts_S896_S1x896 : S896.ShapeCasts S1x896
  broadcasts_S1x896_S512x896 : S1x896.Broadcasts S512x896
  slices_S512x896_o0_0_S512x448 : S512x896.Slices ![0, 0] S512x448
  slices_S512x896_o0_448_S512x448 : S512x896.Slices ![0, 448] S512x448
  inb_S448x448_S448x448_0_0 : ∀ a, (![0, 0] : Fin 2 → Nat) a + S448x448.size a ≤ S448x448.size a
  h_S448x448 : 0 < S448x448.numel
  shapeCasts_S448x448_S448x448 : S448x448.ShapeCasts S448x448
  inb_S448_S448_0 : ∀ a, (![0] : Fin 1 → Nat) a + S448.size a ≤ S448.size a
  h_S448 : 0 < S448.numel
  shapeCasts_S448_S1x448 : S448.ShapeCasts S1x448
  broadcasts_S1x448_S512x448 : S1x448.Broadcasts S512x448
  inb_S448x256_S448x256_0_0 : ∀ a, (![0, 0] : Fin 2 → Nat) a + S448x256.size a ≤ S448x256.size a
  h_S448x256 : 0 < S448x256.numel
  shapeCasts_S448x256_S448x256 : S448x256.ShapeCasts S448x256
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x896_S896x2688_S512x2688_1_0_0_1_n_n_wf : DotDims.WF S512x896 S896x2688 S512x2688 [1] [0] [0] [1] [] []
  dot_S512x448_S448x448_S512x448_1_0_0_1_n_n_wf : DotDims.WF S512x448 S448x448 S512x448 [1] [0] [0] [1] [] []
  dot_S512x448_S448x256_S512x256_1_0_0_1_n_n_wf : DotDims.WF S512x448 S448x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2.size a ≤ S8192x2.size a
  hwx0_0 : ∀ i : grid0.Coords, EltTy.bits .f32 = 32 ∨ (Rect.block (s := S8192x2) S512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x896.size a ≤ S8192x896.size a
  hwx0_1 : ∀ i : grid0.Coords, EltTy.bits .f32 = 32 ∨ (Rect.block (s := S8192x896) S512x896.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S896x2688.size a ≤ S896x2688.size a
  hwx0_3 : ∀ i : grid0.Coords, EltTy.bits .bf16 = 32 ∨ (Rect.block (s := S896x2688) S896x2688.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S896x2688.size a ≤ S896x2688.size a
  hwx0_4 : ∀ i : grid0.Coords, EltTy.bits .bf16 = 32 ∨ (Rect.block (s := S896x2688) S896x2688.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x2688.size a ≤ S2x2688.size a
  hwx0_5 : ∀ i : grid0.Coords, EltTy.bits .f32 = 32 ∨ (Rect.block (s := S2x2688) S2x2688.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2688.size a ≤ S1x2688.size a
  hwx0_6 : ∀ i : grid0.Coords, EltTy.bits .f32 = 32 ∨ (Rect.block (s := S1x2688) S1x2688.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S896.size a ≤ S896.size a
  hwx0_7 : ∀ i : grid0.Coords, EltTy.bits .f32 = 32 ∨ (Rect.block (s := S896) S896.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S896.size a ≤ S896.size a
  hwx0_8 : ∀ i : grid0.Coords, EltTy.bits .f32 = 32 ∨ (Rect.block (s := S896) S896.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S896.size a ≤ S896.size a
  hwx0_9 : ∀ i : grid0.Coords, EltTy.bits .f32 = 32 ∨ (Rect.block (s := S896) S896.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S448x448.size a ≤ S448x448.size a
  hwx0_10 : ∀ i : grid0.Coords, EltTy.bits .bf16 = 32 ∨ (Rect.block (s := S448x448) S448x448.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S448x448.size a ≤ S448x448.size a
  hwx0_11 : ∀ i : grid0.Coords, EltTy.bits .bf16 = 32 ∨ (Rect.block (s := S448x448) S448x448.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S448.size a ≤ S448.size a
  hwx0_12 : ∀ i : grid0.Coords, EltTy.bits .f32 = 32 ∨ (Rect.block (s := S448) S448.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S448x256.size a ≤ S448x256.size a
  hwx0_13 : ∀ i : grid0.Coords, EltTy.bits .bf16 = 32 ∨ (Rect.block (s := S448x256) S448x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S448x256.size a ≤ S448x256.size a
  hwx0_14 : ∀ i : grid0.Coords, EltTy.bits .bf16 = 32 ∨ (Rect.block (s := S448x256) S448x256.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S256.size a
  hwx0_15 : ∀ i : grid0.Coords, EltTy.bits .f32 = 32 ∨ (Rect.block (s := S256) S256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S448x448.size a ≤ S448x448.size a
  hwx0_16 : ∀ i : grid0.Coords, EltTy.bits .bf16 = 32 ∨ (Rect.block (s := S448x448) S448x448.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S448x448.size a ≤ S448x448.size a
  hwx0_17 : ∀ i : grid0.Coords, EltTy.bits .bf16 = 32 ∨ (Rect.block (s := S448x448) S448x448.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S448.size a ≤ S448.size a
  hwx0_18 : ∀ i : grid0.Coords, EltTy.bits .f32 = 32 ∨ (Rect.block (s := S448) S448.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S448x256.size a ≤ S448x256.size a
  hwx0_19 : ∀ i : grid0.Coords, EltTy.bits .bf16 = 32 ∨ (Rect.block (s := S448x256) S448x256.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S448x256.size a ≤ S448x256.size a
  hwx0_20 : ∀ i : grid0.Coords, EltTy.bits .bf16 = 32 ∨ (Rect.block (s := S448x256) S448x256.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S256.size a ≤ S256.size a
  hwx0_21 : ∀ i : grid0.Coords, EltTy.bits .f32 = 32 ∨ (Rect.block (s := S256) S256.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S512x256.size a ≤ S8192x256.size a
  hwx0_22 : ∀ i : grid0.Coords, EltTy.bits .f32 = 32 ∨ (Rect.block (s := S8192x256) S512x256.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S512x256.size a ≤ S8192x256.size a
  hwx0_23 : ∀ i : grid0.Coords, EltTy.bits .f32 = 32 ∨ (Rect.block (s := S8192x256) S512x256.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S512x896.size a ≤ S8192x896.size a
  hwx0_24 : ∀ i : grid0.Coords, EltTy.bits .f32 = 32 ∨ (Rect.block (s := S8192x896) S512x896.size (cc0_transform_24 i) (hinb0_24 i)).WholeWords (EltTy.packing .f32)

variable [Facts₀]

def dot_S512x896_S896x2688_S512x2688_1_0_0_1_n_n : DotDims S512x896 S896x2688 S512x2688 where
  lhsContracting := [1]
  rhsContracting := [0]
  lhsNonContracting := [0]
  rhsNonContracting := [1]
  lhsBatch := []
  rhsBatch := []
  wf := dot_S512x896_S896x2688_S512x2688_1_0_0_1_n_n_wf
def dot_S512x448_S448x448_S512x448_1_0_0_1_n_n : DotDims S512x448 S448x448 S512x448 where
  lhsContracting := [1]
  rhsContracting := [0]
  lhsNonContracting := [0]
  rhsNonContracting := [1]
  lhsBatch := []
  rhsBatch := []
  wf := dot_S512x448_S448x448_S512x448_1_0_0_1_n_n_wf
def dot_S512x448_S448x256_S512x256_1_0_0_1_n_n : DotDims S512x448 S448x256 S512x256 where
  lhsContracting := [1]
  rhsContracting := [0]
  lhsNonContracting := [0]
  rhsNonContracting := [1]
  lhsBatch := []
  rhsBatch := []
  wf := dot_S512x448_S448x256_S512x256_1_0_0_1_n_n_wf

abbrev win0_0 : Pipeline.Window sig grid0 :=
  Pipeline.Window.ofSpec (Memref.whole main_arg0) S512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x896.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S896x2688.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S896x2688.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2x2688.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S1x2688.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg16) S896.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg17) S896.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg18) S896.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v31) S448x448.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v34) S448x448.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg9) S448.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v36) S448x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v39) S448x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg11) S256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v41) S448x448.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v44) S448x448.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg13) S448.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v46) S448x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v49) S448x256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg15) S256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v50_0) S512x256.size cc0_transform_22 reads0_22 true false 2 stage0_22 sem0_22
    hrank0 hreads0_22 hinb0_22 nbuf0_22 (Memref.isWhole_whole _) hwx0_22 hstage0_22

abbrev win0_23 : Pipeline.Window sig grid0 :=
  Pipeline.Window.ofSpec (Memref.whole main_v50_1) S512x256.size cc0_transform_23 reads0_23 true false 2 stage0_23 sem0_23
    hrank0 hreads0_23 hinb0_23 nbuf0_23 (Memref.isWhole_whole _) hwx0_23 hstage0_23

abbrev win0_24 : Pipeline.Window sig grid0 :=
  Pipeline.Window.ofSpec (Memref.whole main_v50_2) S512x896.size cc0_transform_24 reads0_24 true false 2 stage0_24 sem0_24
    hrank0 hreads0_24 hinb0_24 nbuf0_24 (Memref.isWhole_whole _) hwx0_24 hstage0_24

abbrev win0 : Fin 25 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | ⟨_ + 25, h⟩ => absurd h (Nat.not_lt.2 (Nat.le_add_left _ _))
abbrev spec0 : Fin 25 → Pipeline.WinSpec sig grid0.rank := fun w => (win0 w).toWinSpec

class Facts : Prop extends Facts₀ where

variable [Facts]
-- ==== ReferenceIdeal.lean ====
abbrev S8192x2 : Shape := ⟨2, ![8192, 2]⟩
abbrev S8192x896 : Shape := ⟨2, ![8192, 896]⟩
abbrev S8192x1 : Shape := ⟨2, ![8192, 1]⟩
abbrev S896x896 : Shape := ⟨2, ![896, 896]⟩
abbrev S1344x2 : Shape := ⟨2, ![1344, 2]⟩
abbrev S1344x3 : Shape := ⟨2, ![1344, 3]⟩
abbrev S448x448 : Shape := ⟨2, ![448, 448]⟩
abbrev S448 : Shape := ⟨1, ![448]⟩
abbrev S256x448 : Shape := ⟨2, ![256, 448]⟩
abbrev S256 : Shape := ⟨1, ![256]⟩
abbrev S896 : Shape := ⟨1, ![896]⟩
abbrev S2x1344 : Shape := ⟨2, ![2, 1344]⟩
abbrev S8192x1344 : Shape := ⟨2, ![8192, 1344]⟩
abbrev S8192x448 : Shape := ⟨2, ![8192, 448]⟩
abbrev S8192x3 : Shape := ⟨2, ![8192, 3]⟩
abbrev S3x1344 : Shape := ⟨2, ![3, 1344]⟩
abbrev S1x896 : Shape := ⟨2, ![1, 896]⟩
abbrev S_ : Shape := ⟨0, ![]⟩
abbrev S1x448 : Shape := ⟨2, ![1, 448]⟩
abbrev S448x256 : Shape := ⟨2, ![448, 256]⟩
abbrev S8192x256 : Shape := ⟨2, ![8192, 256]⟩
abbrev S1x256 : Shape := ⟨2, ![1, 256]⟩

abbrev nBuf : Space → Nat
  | .hbm => 103
  | .vmem => 0
  | .smem => 0
  | _ => 0

abbrev bufTy : (tb : Table) → Fin (tcTables nBuf tb) → BufTy
  | .hbm, ⟨0, _⟩ => ⟨S8192x2, .f32⟩
  | .hbm, ⟨1, _⟩ => ⟨S8192x896, .f32⟩
  | .hbm, ⟨2, _⟩ => ⟨S8192x1, .f32⟩
  | .hbm, ⟨3, _⟩ => ⟨S896x896, .f32⟩
  | .hbm, ⟨4, _⟩ => ⟨S896x896, .f32⟩
  | .hbm, ⟨5, _⟩ => ⟨S896x896, .f32⟩
  | .hbm, ⟨6, _⟩ => ⟨S1344x2, .f32⟩
  | .hbm, ⟨7, _⟩ => ⟨S1344x3, .f32⟩
  | .hbm, ⟨8, _⟩ => ⟨S448x448, .f32⟩
  | .hbm, ⟨9, _⟩ => ⟨S448, .f32⟩
  | .hbm, ⟨10, _⟩ => ⟨S256x448, .f32⟩
  | .hbm, ⟨11, _⟩ => ⟨S256, .f32⟩
  | .hbm, ⟨12, _⟩ => ⟨S448x448, .f32⟩
  | .hbm, ⟨13, _⟩ => ⟨S448, .f32⟩
  | .hbm, ⟨14, _⟩ => ⟨S256x448, .f32⟩
  | .hbm, ⟨15, _⟩ => ⟨S256, .f32⟩
  | .hbm, ⟨16, _⟩ => ⟨S896, .f32⟩
  | .hbm, ⟨17, _⟩ => ⟨S896, .f32⟩
  | .hbm, ⟨18, _⟩ => ⟨S896, .f32⟩
  | .hbm, ⟨19, _⟩ => ⟨S896x896, .f32⟩
  | .hbm, ⟨20, _⟩ => ⟨S8192x896, .f32⟩
  | .hbm, ⟨21, _⟩ => ⟨S896x896, .f32⟩
  | .hbm, ⟨22, _⟩ => ⟨S8192x896, .f32⟩
  | .hbm, ⟨23, _⟩ => ⟨S896x896, .f32⟩
  | .hbm, ⟨24, _⟩ => ⟨S8192x896, .f32⟩
  | .hbm, ⟨25, _⟩ => ⟨S2x1344, .f32⟩
  | .hbm, ⟨26, _⟩ => ⟨S8192x1344, .f32⟩
  | .hbm, ⟨27, _⟩ => ⟨S8192x448, .f32⟩
  | .hbm, ⟨28, _⟩ => ⟨S8192x448, .f32⟩
  | .hbm, ⟨29, _⟩ => ⟨S8192x448, .f32⟩
  | .hbm, ⟨30, _⟩ => ⟨S8192x3, .f32⟩
  | .hbm, ⟨31, _⟩ => ⟨S3x1344, .f32⟩
  | .hbm, ⟨32, _⟩ => ⟨S8192x1344, .f32⟩
  | .hbm, ⟨33, _⟩ => ⟨S8192x448, .f32⟩
  | .hbm, ⟨34, _⟩ => ⟨S8192x448, .f32⟩
  | .hbm, ⟨35, _⟩ => ⟨S8192x448, .f32⟩
  | .hbm, ⟨36, _⟩ => ⟨S8192x896, .f32⟩
  | .hbm, ⟨37, _⟩ => ⟨S8192x896, .f32⟩
  | .hbm, ⟨38, _⟩ => ⟨S8192x896, .f32⟩
  | .hbm, ⟨39, _⟩ => ⟨S8192x896, .f32⟩
  | .hbm, ⟨40, _⟩ => ⟨S1x896, .f32⟩
  | .hbm, ⟨41, _⟩ => ⟨S8192x896, .f32⟩
  | .hbm, ⟨42, _⟩ => ⟨S8192x896, .f32⟩
  | .hbm, ⟨43, _⟩ => ⟨S8192x896, .f32⟩
  | .hbm, ⟨44, _⟩ => ⟨S8192x896, .f32⟩
  | .hbm, ⟨45, _⟩ => ⟨S_, .f32⟩
  | .hbm, ⟨46, _⟩ => ⟨S8192x896, .f32⟩
  | .hbm, ⟨47, _⟩ => ⟨S8192x896, .f32⟩
  | .hbm, ⟨48, _⟩ => ⟨S_, .f32⟩
  | .hbm, ⟨49, _⟩ => ⟨S8192x896, .f32⟩
  | .hbm, ⟨50, _⟩ => ⟨S8192x896, .f32⟩
  | .hbm, ⟨51, _⟩ => ⟨S8192x896, .f32⟩
  | .hbm, ⟨52, _⟩ => ⟨S1x896, .f32⟩
  | .hbm, ⟨53, _⟩ => ⟨S8192x896, .f32⟩
  | .hbm, ⟨54, _⟩ => ⟨S8192x896, .f32⟩
  | .hbm, ⟨55, _⟩ => ⟨S8192x896, .f32⟩
  | .hbm, ⟨56, _⟩ => ⟨S8192x896, .f32⟩
  | .hbm, ⟨57, _⟩ => ⟨S_, .f32⟩
  | .hbm, ⟨58, _⟩ => ⟨S8192x896, .f32⟩
  | .hbm, ⟨59, _⟩ => ⟨S8192x896, .f32⟩
  | .hbm, ⟨60, _⟩ => ⟨S_, .f32⟩
  | .hbm, ⟨61, _⟩ => ⟨S8192x896, .f32⟩
  | .hbm, ⟨62, _⟩ => ⟨S8192x896, .f32⟩
  | .hbm, ⟨63, _⟩ => ⟨S8192x896, .f32⟩
  | .hbm, ⟨64, _⟩ => ⟨S8192x896, .f32⟩
  | .hbm, ⟨65, _⟩ => ⟨S1x896, .f32⟩
  | .hbm, ⟨66, _⟩ => ⟨S8192x896, .f32⟩
  | .hbm, ⟨67, _⟩ => ⟨S8192x896, .f32⟩
  | .hbm, ⟨68, _⟩ => ⟨S8192x896, .f32⟩
  | .hbm, ⟨69, _⟩ => ⟨S8192x896, .f32⟩
  | .hbm, ⟨70, _⟩ => ⟨S_, .f32⟩
  | .hbm, ⟨71, _⟩ => ⟨S8192x896, .f32⟩
  | .hbm, ⟨72, _⟩ => ⟨S8192x896, .f32⟩
  | .hbm, ⟨73, _⟩ => ⟨S8192x896, .f32⟩
  | .hbm, ⟨74, _⟩ => ⟨S8192x896, .f32⟩
  | .hbm, ⟨75, _⟩ => ⟨S8192x448, .f32⟩
  | .hbm, ⟨76, _⟩ => ⟨S8192x448, .f32⟩
  | .hbm, ⟨77, _⟩ => ⟨S448x448, .f32⟩
  | .hbm, ⟨78, _⟩ => ⟨S8192x448, .f32⟩
  | .hbm, ⟨79, _⟩ => ⟨S1x448, .f32⟩
  | .hbm, ⟨80, _⟩ => ⟨S8192x448, .f32⟩
  | .hbm, ⟨81, _⟩ => ⟨S8192x448, .f32⟩
  | .hbm, ⟨82, _⟩ => ⟨S_, .f32⟩
  | .hbm, ⟨83, _⟩ => ⟨S8192x448, .f32⟩
  | .hbm, ⟨84, _⟩ => ⟨S8192x448, .f32⟩
  | .hbm, ⟨85, _⟩ => ⟨S448x256, .f32⟩
  | .hbm, ⟨86, _⟩ => ⟨S8192x256, .f32⟩
  | .hbm, ⟨87, _⟩ => ⟨S1x256, .f32⟩
  | .hbm, ⟨88, _⟩ => ⟨S8192x256, .f32⟩
  | .hbm, ⟨89, _⟩ => ⟨S8192x256, .f32⟩
  | .hbm, ⟨90, _⟩ => ⟨S448x448, .f32⟩
  | .hbm, ⟨91, _⟩ => ⟨S8192x448, .f32⟩
  | .hbm, ⟨92, _⟩ => ⟨S1x448, .f32⟩
  | .hbm, ⟨93, _⟩ => ⟨S8192x448, .f32⟩
  | .hbm, ⟨94, _⟩ => ⟨S8192x448, .f32⟩
  | .hbm, ⟨95, _⟩ => ⟨S_, .f32⟩
  | .hbm, ⟨96, _⟩ => ⟨S8192x448, .f32⟩
  | .hbm, ⟨97, _⟩ => ⟨S8192x448, .f32⟩
  | .hbm, ⟨98, _⟩ => ⟨S448x256, .f32⟩
  | .hbm, ⟨99, _⟩ => ⟨S8192x256, .f32⟩
  | .hbm, ⟨100, _⟩ => ⟨S1x256, .f32⟩
  | .hbm, ⟨101, _⟩ => ⟨S8192x256, .f32⟩
  | .hbm, ⟨102, _⟩ => ⟨S8192x256, .f32⟩
  | _, _ => ⟨S8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst : Ref sig .tc := ⟨.hbm, 45, rfl⟩
abbrev main_v26 : Ref sig .tc := ⟨.hbm, 46, rfl⟩
abbrev main_v27 : Ref sig .tc := ⟨.hbm, 47, rfl⟩
abbrev main_cst_0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_1 : Ref sig .tc := ⟨.hbm, 57, rfl⟩
abbrev main_v36 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_3 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_call0_cst : Ref sig .tc := ⟨.hbm, 82, rfl⟩
abbrev main_call0_v0 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call1_cst : Ref sig .tc := ⟨.hbm, 95, rfl⟩
abbrev main_call1_v0 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]

class Facts₀ : Prop where
  transposes_S896x896_S896x896_1_0 : S896x896.Transposes [1, 0] S896x896
  transposes_S1344x2_S2x1344_1_0 : S1344x2.Transposes [1, 0] S2x1344
  slices_S8192x1344_S8192x448_0_0 : S8192x1344.Slices ![0, 0] S8192x448
  slices_S8192x1344_S8192x448_0_448 : S8192x1344.Slices ![0, 448] S8192x448
  slices_S8192x1344_S8192x448_0_896 : S8192x1344.Slices ![0, 896] S8192x448
  concatenates_S8192x2_S8192x1_S8192x3_d1 : Shape.Concatenates [S8192x2, S8192x1] S8192x3 1
  transposes_S1344x3_S3x1344_1_0 : S1344x3.Transposes [1, 0] S3x1344
  concatenates_S8192x448_S8192x448_S8192x896_d1 : Shape.Concatenates [S8192x448, S8192x448] S8192x896 1
  bcast_S896_S1x896_1 : S896.BroadcastsInDim S1x896 (![1] : Fin 1 → Fin S1x896.rank)
  bcast_S1x896_S8192x896_0_1 : S1x896.BroadcastsInDim S8192x896 (![0, 1] : Fin 2 → Fin S8192x896.rank)
  bcast_S_S8192x896 : S_.BroadcastsInDim S8192x896 (![] : Fin 0 → Fin S8192x896.rank)
  slices_S8192x896_S8192x448_0_0 : S8192x896.Slices ![0, 0] S8192x448
  slices_S8192x896_S8192x448_0_448 : S8192x896.Slices ![0, 448] S8192x448
  transposes_S448x448_S448x448_1_0 : S448x448.Transposes [1, 0] S448x448
  bcast_S448_S1x448_1 : S448.BroadcastsInDim S1x448 (![1] : Fin 1 → Fin S1x448.rank)
  bcast_S1x448_S8192x448_0_1 : S1x448.BroadcastsInDim S8192x448 (![0, 1] : Fin 2 → Fin S8192x448.rank)
  bcast_S_S8192x448 : S_.BroadcastsInDim S8192x448 (![] : Fin 0 → Fin S8192x448.rank)
  transposes_S256x448_S448x256_1_0 : S256x448.Transposes [1, 0] S448x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  dot_S8192x896_S896x896_S8192x896_1_0_0_1_n_n_wf : DotDims.WF S8192x896 S896x896 S8192x896 [1] [0] [0] [1] [] []
  dot_S8192x2_S2x1344_S8192x1344_1_0_0_1_n_n_wf : DotDims.WF S8192x2 S2x1344 S8192x1344 [1] [0] [0] [1] [] []
  dot_S8192x3_S3x1344_S8192x1344_1_0_0_1_n_n_wf : DotDims.WF S8192x3 S3x1344 S8192x1344 [1] [0] [0] [1] [] []
  dot_S8192x448_S448x448_S8192x448_1_0_0_1_n_n_wf : DotDims.WF S8192x448 S448x448 S8192x448 [1] [0] [0] [1] [] []
  dot_S8192x448_S448x256_S8192x256_1_0_0_1_n_n_wf : DotDims.WF S8192x448 S448x256 S8192x256 [1] [0] [0] [1] [] []

variable [Facts₀]

def dot_S8192x896_S896x896_S8192x896_1_0_0_1_n_n : DotDims S8192x896 S896x896 S8192x896 where
  lhsContracting := [1]
  rhsContracting := [0]
  lhsNonContracting := [0]
  rhsNonContracting := [1]
  lhsBatch := []
  rhsBatch := []
  wf := dot_S8192x896_S896x896_S8192x896_1_0_0_1_n_n_wf
def dot_S8192x2_S2x1344_S8192x1344_1_0_0_1_n_n : DotDims S8192x2 S2x1344 S8192x1344 where
  lhsContracting := [1]
  rhsContracting := [0]
  lhsNonContracting := [0]
  rhsNonContracting := [1]
  lhsBatch := []
  rhsBatch := []
  wf := dot_S8192x2_S2x1344_S8192x1344_1_0_0_1_n_n_wf
def dot_S8192x3_S3x1344_S8192x1344_1_0_0_1_n_n : DotDims S8192x3 S3x1344 S8192x1344 where
  lhsContracting := [1]
  rhsContracting := [0]
  lhsNonContracting := [0]
  rhsNonContracting := [1]
  lhsBatch := []
  rhsBatch := []
  wf := dot_S8192x3_S3x1344_S8192x1344_1_0_0_1_n_n_wf
def dot_S8192x448_S448x448_S8192x448_1_0_0_1_n_n : DotDims S8192x448 S448x448 S8192x448 where
  lhsContracting := [1]
  rhsContracting := [0]
  lhsNonContracting := [0]
  rhsNonContracting := [1]
  lhsBatch := []
  rhsBatch := []
  wf := dot_S8192x448_S448x448_S8192x448_1_0_0_1_n_n_wf
def dot_S8192x448_S448x256_S8192x256_1_0_0_1_n_n : DotDims S8192x448 S448x256 S8192x256 where
  lhsContracting := [1]
  rhsContracting := [0]
  lhsNonContracting := [0]
  rhsNonContracting := [1]
  lhsBatch := []
  rhsBatch := []
  wf := dot_S8192x448_S448x256_S8192x256_1_0_0_1_n_n_wf

class Facts : Prop extends Facts₀ where

variable [Facts]
-- ==== Proof.BitsEntry.lean ====
/-
  The frame of the program's one pallas_call, and what each result block holds after the body.

  @main is fifty-one host operations (transposes, slices, concatenations, format changes and the subtractions that
  form the low halves of the weight splits) followed by one region over a grid of sixteen points. Every operand is a
  window whose block the body reads whole, and each of the three results is stored whole, once, at every point. So the
  contents of a result's staging buffer after the body at a point are one function of the twenty-two input blocks
  there: the stored value, named through the skeleton's payloads. The body's triple is obtained by symbolic execution
  through its three printed parts; the proof data gives every input buffer its block (a block whose index does not
  move between points is kept from the point before) and every output buffer that function of the blocks; the launch
  theorem then yields a run in which every array of the pipeline is what the library computes from the proof data and
  every other buffer is as the region found it, and the argument arrays, which no host operation writes, end as
  launched.
-/
import proofs.«145113_j80083960201384_2_alg».proof.Proof.Gen.Kernel.Launch
import proofs.«145113_j80083960201384_2_alg».proof.Proof.Gen.Kernel.Skeleton
import proofs.«145113_j80083960201384_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- A core's TensorCore buffers when the region is entered: the launch memory after the host operations. -/
abbrev V (c : Dev nD) (b : Ref sig .tc) : Buf (Elt F) ((c : Thread nD τ).loc b) :=
  StableHlo.after (List.flatten [hostOps0]) (fun b => m (c, b)) b

/-- The host operations allocate nothing. -/
theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- A window's block at a point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or kept from the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or kept from the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or kept from the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or kept from the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or kept from the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or kept from the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or kept from the point before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or kept from the point before. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or kept from the point before. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or kept from the point before. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or kept from the point before. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or kept from the point before. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or kept from the point before. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or kept from the point before. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or kept from the point before. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or kept from the point before. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or kept from the point before. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or kept from the point before. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or kept from the point before. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or kept from the point before. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or kept from the point before. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or kept from the point before. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

set_option maxHeartbeats 1000000 in
/-- Argument 0 after a frame run: its window is an input, so its array is kept, and the region found it as launched. -/
theorem kept_arg0 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg0) = m ((c.tc : Thread nD τ).loc main_arg0) :=
  ((h c).1 0).trans (((dats 0 c).arrAt_in 0 rfl _).trans ((hA c 0).trans (V_main_arg0 m c)))
set_option maxHeartbeats 1000000 in
/-- Argument 1 after a frame run: its window is an input, so its array is kept, and the region found it as launched. -/
theorem kept_arg1 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg1) = m ((c.tc : Thread nD τ).loc main_arg1) :=
  ((h c).1 1).trans (((dats 0 c).arrAt_in 1 rfl _).trans ((hA c 1).trans (V_main_arg1 m c)))
set_option maxHeartbeats 1000000 in
/-- Argument 2 after a frame run: its window is an input, so its array is kept, and the region found it as launched. -/
theorem kept_arg2 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg2) = m ((c.tc : Thread nD τ).loc main_arg2) :=
  ((h c).1 2).trans (((dats 0 c).arrAt_in 2 rfl _).trans ((hA c 2).trans (V_main_arg2 m c)))
set_option maxHeartbeats 1000000 in
/-- Argument 3 after a frame run: no window stages it, so it is as the region found it, and the region found it as launched. -/
theorem kept_arg3 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)
set_option maxHeartbeats 1000000 in
/-- Argument 4 after a frame run: no window stages it, so it is as the region found it, and the region found it as launched. -/
theorem kept_arg4 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_main_arg4 m c)
set_option maxHeartbeats 1000000 in
/-- Argument 5 after a frame run: no window stages it, so it is as the region found it, and the region found it as launched. -/
theorem kept_arg5 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_main_arg5 m c)
set_option maxHeartbeats 1000000 in
/-- Argument 6 after a frame run: no window stages it, so it is as the region found it, and the region found it as launched. -/
theorem kept_arg6 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg6) = m ((c.tc : Thread nD τ).loc main_arg6) :=
  ((h c).2 main_arg6 (Pipeline.mem_restRefs_of main_arg6 (by decide) (by decide))).trans (V_main_arg6 m c)
set_option maxHeartbeats 1000000 in
/-- Argument 7 after a frame run: no window stages it, so it is as the region found it, and the region found it as launched. -/
theorem kept_arg7 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg7) = m ((c.tc : Thread nD τ).loc main_arg7) :=
  ((h c).2 main_arg7 (Pipeline.mem_restRefs_of main_arg7 (by decide) (by decide))).trans (V_main_arg7 m c)
set_option maxHeartbeats 1000000 in
/-- Argument 8 after a frame run: no window stages it, so it is as the region found it, and the region found it as launched. -/
theorem kept_arg8 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg8) = m ((c.tc : Thread nD τ).loc main_arg8) :=
  ((h c).2 main_arg8 (Pipeline.mem_restRefs_of main_arg8 (by decide) (by decide))).trans (V_main_arg8 m c)
set_option maxHeartbeats 1000000 in
/-- Argument 9 after a frame run: its window is an input, so its array is kept, and the region found it as launched. -/
theorem kept_arg9 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg9) = m ((c.tc : Thread nD τ).loc main_arg9) :=
  ((h c).1 12).trans (((dats 0 c).arrAt_in 12 rfl _).trans ((hA c 12).trans (V_main_arg9 m c)))
set_option maxHeartbeats 1000000 in
/-- Argument 10 after a frame run: no window stages it, so it is as the region found it, and the region found it as launched. -/
theorem kept_arg10 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg10) = m ((c.tc : Thread nD τ).loc main_arg10) :=
  ((h c).2 main_arg10 (Pipeline.mem_restRefs_of main_arg10 (by decide) (by decide))).trans (V_main_arg10 m c)
set_option maxHeartbeats 1000000 in
/-- Argument 11 after a frame run: its window is an input, so its array is kept, and the region found it as launched. -/
theorem kept_arg11 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg11) = m ((c.tc : Thread nD τ).loc main_arg11) :=
  ((h c).1 15).trans (((dats 0 c).arrAt_in 15 rfl _).trans ((hA c 15).trans (V_main_arg11 m c)))
set_option maxHeartbeats 1000000 in
/-- Argument 12 after a frame run: no window stages it, so it is as the region found it, and the region found it as launched. -/
theorem kept_arg12 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg12) = m ((c.tc : Thread nD τ).loc main_arg12) :=
  ((h c).2 main_arg12 (Pipeline.mem_restRefs_of main_arg12 (by decide) (by decide))).trans (V_main_arg12 m c)
set_option maxHeartbeats 1000000 in
/-- Argument 13 after a frame run: its window is an input, so its array is kept, and the region found it as launched. -/
theorem kept_arg13 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg13) = m ((c.tc : Thread nD τ).loc main_arg13) :=
  ((h c).1 18).trans (((dats 0 c).arrAt_in 18 rfl _).trans ((hA c 18).trans (V_main_arg13 m c)))
set_option maxHeartbeats 1000000 in
/-- Argument 14 after a frame run: no window stages it, so it is as the region found it, and the region found it as launched. -/
theorem kept_arg14 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg14) = m ((c.tc : Thread nD τ).loc main_arg14) :=
  ((h c).2 main_arg14 (Pipeline.mem_restRefs_of main_arg14 (by decide) (by decide))).trans (V_main_arg14 m c)
set_option maxHeartbeats 1000000 in
/-- Argument 15 after a frame run: its window is an input, so its array is kept, and the region found it as launched. -/
theorem kept_arg15 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg15) = m ((c.tc : Thread nD τ).loc main_arg15) :=
  ((h c).1 21).trans (((dats 0 c).arrAt_in 21 rfl _).trans ((hA c 21).trans (V_main_arg15 m c)))
set_option maxHeartbeats 1000000 in
/-- Argument 16 after a frame run: its window is an input, so its array is kept, and the region found it as launched. -/
theorem kept_arg16 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg16) = m ((c.tc : Thread nD τ).loc main_arg16) :=
  ((h c).1 7).trans (((dats 0 c).arrAt_in 7 rfl _).trans ((hA c 7).trans (V_main_arg16 m c)))
set_option maxHeartbeats 1000000 in
/-- Argument 17 after a frame run: its window is an input, so its array is kept, and the region found it as launched. -/
theorem kept_arg17 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg17) = m ((c.tc : Thread nD τ).loc main_arg17) :=
  ((h c).1 8).trans (((dats 0 c).arrAt_in 8 rfl _).trans ((hA c 8).trans (V_main_arg17 m c)))
set_option maxHeartbeats 1000000 in
/-- Argument 18 after a frame run: its window is an input, so its array is kept, and the region found it as launched. -/
theorem kept_arg18 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg18) = m ((c.tc : Thread nD τ).loc main_arg18) :=
  ((h c).1 9).trans (((dats 0 c).arrAt_in 9 rfl _).trans ((hA c 9).trans (V_main_arg18 m c)))

/-- From a run in which every array of the pipeline is what the proof data computes and every other buffer is as the
    region found it, the argument arrays end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨kept_arg0 m dats hA h c, kept_arg1 m dats hA h c, kept_arg2 m dats hA h c, kept_arg3 m dats hA h c, kept_arg4 m dats hA h c, kept_arg5 m dats hA h c, kept_arg6 m dats hA h c, kept_arg7 m dats hA h c, kept_arg8 m dats hA h c, kept_arg9 m dats hA h c, kept_arg10 m dats hA h c, kept_arg11 m dats hA h c, kept_arg12 m dats hA h c, kept_arg13 m dats hA h c, kept_arg14 m dats hA h c, kept_arg15 m dats hA h c, kept_arg16 m dats hA h c, kept_arg17 m dats hA h c, kept_arg18 m dats hA h c⟩) h

/-! ## The body's accesses: each buffer is read and written whole -/

abbrev rc_S512x2 : Rect S512x2 := Rect.unit (s := S512x2) ![0, 0] S512x2.size inb_S512x2_S512x2_0_0
abbrev rc_S512x896 : Rect S512x896 := Rect.unit (s := S512x896) ![0, 0] S512x896.size inb_S512x896_S512x896_0_0
abbrev rc_S512x1 : Rect S512x1 := Rect.unit (s := S512x1) ![0, 0] S512x1.size inb_S512x1_S512x1_0_0
abbrev rc_S896x2688 : Rect S896x2688 := Rect.unit (s := S896x2688) ![0, 0] S896x2688.size inb_S896x2688_S896x2688_0_0
abbrev rc_S2x2688 : Rect S2x2688 := Rect.unit (s := S2x2688) ![0, 0] S2x2688.size inb_S2x2688_S2x2688_0_0
abbrev rc_S1x2688 : Rect S1x2688 := Rect.unit (s := S1x2688) ![0, 0] S1x2688.size inb_S1x2688_S1x2688_0_0
abbrev rc_S896 : Rect S896 := Rect.unit (s := S896) ![0] S896.size inb_S896_S896_0
abbrev rc_S448x448 : Rect S448x448 := Rect.unit (s := S448x448) ![0, 0] S448x448.size inb_S448x448_S448x448_0_0
abbrev rc_S448 : Rect S448 := Rect.unit (s := S448) ![0] S448.size inb_S448_S448_0
abbrev rc_S448x256 : Rect S448x256 := Rect.unit (s := S448x256) ![0, 0] S448x256.size inb_S448x256_S448x256_0_0
abbrev rc_S256 : Rect S256 := Rect.unit (s := S256) ![0] S256.size inb_S256_S256_0
abbrev rc_S512x256 : Rect S512x256 := Rect.unit (s := S512x256) ![0, 0] S512x256.size inb_S512x256_S512x256_0_0

/-! ## What the body stores -/

/-- The new hidden state of the block's rows, from the first ten input blocks. -/
def hid0 (x0 : Vec F S512x2 .f32) (x1 : Vec F S512x896 .f32) (x2 : Vec F S512x1 .f32) (x3 : Vec F S896x2688 .bf16) (x4 : Vec F S896x2688 .bf16) (x5 : Vec F S2x2688 .f32) (x6 : Vec F S1x2688 .f32) (x7 : Vec F S896 .f32) (x8 : Vec F S896 .f32) (x9 : Vec F S896 .f32) : FVec F S512x896 .f32 :=
  k0_pay9 (View.ld x1 rc_S512x896) (k0_pay4 (View.ld x1 rc_S512x896) (View.ld x3 rc_S896x2688) (View.ld x4 rc_S896x2688)) (k0_pay5 (View.ld x1 rc_S512x896) (View.ld x3 rc_S896x2688) (View.ld x4 rc_S896x2688)) (k0_pay6 (View.ld x0 rc_S512x2) (View.ld x2 rc_S512x1) (View.ld x5 rc_S2x2688) (View.ld x6 rc_S1x2688)) (k0_pay7 (View.ld x0 rc_S512x2) (View.ld x2 rc_S512x1) (View.ld x5 rc_S2x2688) (View.ld x6 rc_S1x2688)) (k0_pay8 (View.ld x1 rc_S512x896) (View.ld x0 rc_S512x2) (View.ld x2 rc_S512x1) (View.ld x3 rc_S896x2688) (View.ld x4 rc_S896x2688) (View.ld x5 rc_S2x2688) (View.ld x6 rc_S1x2688)) (View.ld x7 rc_S896) (View.ld x8 rc_S896) (View.ld x9 rc_S896)

/-- The fine half of the new hidden state. -/
def fineHalf0 (x0 : Vec F S512x2 .f32) (x1 : Vec F S512x896 .f32) (x2 : Vec F S512x1 .f32) (x3 : Vec F S896x2688 .bf16) (x4 : Vec F S896x2688 .bf16) (x5 : Vec F S2x2688 .f32) (x6 : Vec F S1x2688 .f32) (x7 : Vec F S896 .f32) (x8 : Vec F S896 .f32) (x9 : Vec F S896 .f32) : FVec F S512x448 .f32 :=
  k0_pay10 (View.ld x1 rc_S512x896) (k0_pay4 (View.ld x1 rc_S512x896) (View.ld x3 rc_S896x2688) (View.ld x4 rc_S896x2688)) (k0_pay5 (View.ld x1 rc_S512x896) (View.ld x3 rc_S896x2688) (View.ld x4 rc_S896x2688)) (k0_pay6 (View.ld x0 rc_S512x2) (View.ld x2 rc_S512x1) (View.ld x5 rc_S2x2688) (View.ld x6 rc_S1x2688)) (k0_pay7 (View.ld x0 rc_S512x2) (View.ld x2 rc_S512x1) (View.ld x5 rc_S2x2688) (View.ld x6 rc_S1x2688)) (k0_pay8 (View.ld x1 rc_S512x896) (View.ld x0 rc_S512x2) (View.ld x2 rc_S512x1) (View.ld x3 rc_S896x2688) (View.ld x4 rc_S896x2688) (View.ld x5 rc_S2x2688) (View.ld x6 rc_S1x2688)) (View.ld x7 rc_S896) (View.ld x8 rc_S896) (View.ld x9 rc_S896)

/-- The coarse logits of the block's rows. -/
def coarse0 (x0 : Vec F S512x2 .f32) (x1 : Vec F S512x896 .f32) (x2 : Vec F S512x1 .f32) (x3 : Vec F S896x2688 .bf16) (x4 : Vec F S896x2688 .bf16) (x5 : Vec F S2x2688 .f32) (x6 : Vec F S1x2688 .f32) (x7 : Vec F S896 .f32) (x8 : Vec F S896 .f32) (x9 : Vec F S896 .f32) (x10 : Vec F S448x448 .bf16) (x11 : Vec F S448x448 .bf16) (x12 : Vec F S448 .f32) (x13 : Vec F S448x256 .bf16) (x14 : Vec F S448x256 .bf16) (x15 : Vec F S256 .f32) : FVec F S512x256 .f32 :=
  k0_pay14 (k0_pay12 (View.ld x1 rc_S512x896) (k0_pay4 (View.ld x1 rc_S512x896) (View.ld x3 rc_S896x2688) (View.ld x4 rc_S896x2688)) (k0_pay5 (View.ld x1 rc_S512x896) (View.ld x3 rc_S896x2688) (View.ld x4 rc_S896x2688)) (k0_pay6 (View.ld x0 rc_S512x2) (View.ld x2 rc_S512x1) (View.ld x5 rc_S2x2688) (View.ld x6 rc_S1x2688)) (k0_pay7 (View.ld x0 rc_S512x2) (View.ld x2 rc_S512x1) (View.ld x5 rc_S2x2688) (View.ld x6 rc_S1x2688)) (k0_pay8 (View.ld x1 rc_S512x896) (View.ld x0 rc_S512x2) (View.ld x2 rc_S512x1) (View.ld x3 rc_S896x2688) (View.ld x4 rc_S896x2688) (View.ld x5 rc_S2x2688) (View.ld x6 rc_S1x2688)) (View.ld x7 rc_S896) (View.ld x8 rc_S896) (View.ld x9 rc_S896) (View.ld x10 rc_S448x448) (View.ld x11 rc_S448x448) (View.ld x12 rc_S448)) (k0_pay13 (View.ld x1 rc_S512x896) (k0_pay4 (View.ld x1 rc_S512x896) (View.ld x3 rc_S896x2688) (View.ld x4 rc_S896x2688)) (k0_pay5 (View.ld x1 rc_S512x896) (View.ld x3 rc_S896x2688) (View.ld x4 rc_S896x2688)) (k0_pay6 (View.ld x0 rc_S512x2) (View.ld x2 rc_S512x1) (View.ld x5 rc_S2x2688) (View.ld x6 rc_S1x2688)) (k0_pay7 (View.ld x0 rc_S512x2) (View.ld x2 rc_S512x1) (View.ld x5 rc_S2x2688) (View.ld x6 rc_S1x2688)) (k0_pay8 (View.ld x1 rc_S512x896) (View.ld x0 rc_S512x2) (View.ld x2 rc_S512x1) (View.ld x3 rc_S896x2688) (View.ld x4 rc_S896x2688) (View.ld x5 rc_S2x2688) (View.ld x6 rc_S1x2688)) (View.ld x7 rc_S896) (View.ld x8 rc_S896) (View.ld x9 rc_S896) (View.ld x10 rc_S448x448) (View.ld x11 rc_S448x448) (View.ld x12 rc_S448)) (View.ld x13 rc_S448x256) (View.ld x14 rc_S448x256) (View.ld x15 rc_S256)

/-- The fine logits of the block's rows. -/
def fine0 (x0 : Vec F S512x2 .f32) (x1 : Vec F S512x896 .f32) (x2 : Vec F S512x1 .f32) (x3 : Vec F S896x2688 .bf16) (x4 : Vec F S896x2688 .bf16) (x5 : Vec F S2x2688 .f32) (x6 : Vec F S1x2688 .f32) (x7 : Vec F S896 .f32) (x8 : Vec F S896 .f32) (x9 : Vec F S896 .f32) (x16 : Vec F S448x448 .bf16) (x17 : Vec F S448x448 .bf16) (x18 : Vec F S448 .f32) (x19 : Vec F S448x256 .bf16) (x20 : Vec F S448x256 .bf16) (x21 : Vec F S256 .f32) : FVec F S512x256 .f32 :=
  k0_pay1 (k0_pay16 (fineHalf0 x0 x1 x2 x3 x4 x5 x6 x7 x8 x9) (View.ld x16 rc_S448x448) (View.ld x17 rc_S448x448) (View.ld x18 rc_S448)) (k0_pay17 (fineHalf0 x0 x1 x2 x3 x4 x5 x6 x7 x8 x9) (View.ld x16 rc_S448x448) (View.ld x17 rc_S448x448) (View.ld x18 rc_S448)) (k0_pay18 (View.ld x19 rc_S448x256)) (View.ld x20 rc_S448x256) (View.ld x21 rc_S256)

/-- Window 22's staging buffer after the body: its one whole store. -/
def out0_22 (x0 : Vec F S512x2 .f32) (x1 : Vec F S512x896 .f32) (x2 : Vec F S512x1 .f32) (x3 : Vec F S896x2688 .bf16) (x4 : Vec F S896x2688 .bf16) (x5 : Vec F S2x2688 .f32) (x6 : Vec F S1x2688 .f32) (x7 : Vec F S896 .f32) (x8 : Vec F S896 .f32) (x9 : Vec F S896 .f32) (x10 : Vec F S448x448 .bf16) (x11 : Vec F S448x448 .bf16) (x12 : Vec F S448 .f32) (x13 : Vec F S448x256 .bf16) (x14 : Vec F S448x256 .bf16) (x15 : Vec F S256 .f32) : Vec F S512x256 .f32 :=
  View.canon [⟨rc_S512x256, coarse0 x0 x1 x2 x3 x4 x5 x6 x7 x8 x9 x10 x11 x12 x13 x14 x15⟩]
/-- Window 23's staging buffer after the body: its one whole store. -/
def out0_23 (x0 : Vec F S512x2 .f32) (x1 : Vec F S512x896 .f32) (x2 : Vec F S512x1 .f32) (x3 : Vec F S896x2688 .bf16) (x4 : Vec F S896x2688 .bf16) (x5 : Vec F S2x2688 .f32) (x6 : Vec F S1x2688 .f32) (x7 : Vec F S896 .f32) (x8 : Vec F S896 .f32) (x9 : Vec F S896 .f32) (x16 : Vec F S448x448 .bf16) (x17 : Vec F S448x448 .bf16) (x18 : Vec F S448 .f32) (x19 : Vec F S448x256 .bf16) (x20 : Vec F S448x256 .bf16) (x21 : Vec F S256 .f32) : Vec F S512x256 .f32 :=
  View.canon [⟨rc_S512x256, fine0 x0 x1 x2 x3 x4 x5 x6 x7 x8 x9 x16 x17 x18 x19 x20 x21⟩]
/-- Window 24's staging buffer after the body: its one whole store. -/
def out0_24 (x0 : Vec F S512x2 .f32) (x1 : Vec F S512x896 .f32) (x2 : Vec F S512x1 .f32) (x3 : Vec F S896x2688 .bf16) (x4 : Vec F S896x2688 .bf16) (x5 : Vec F S2x2688 .f32) (x6 : Vec F S1x2688 .f32) (x7 : Vec F S896 .f32) (x8 : Vec F S896 .f32) (x9 : Vec F S896 .f32) : Vec F S512x896 .f32 :=
  View.canon [⟨rc_S512x896, hid0 x0 x1 x2 x3 x4 x5 x6 x7 x8 x9⟩]

/-- A whole store covers its buffer. -/
theorem cover0_256 (p0 : Vec F S512x256 .f32) (y : S512x256.Idx) :
    ∃ pc ∈ ([⟨rc_S512x256, p0⟩] : List (View.Piece (Elt F) S512x256 .f32)), y ∈ pc.1.set :=
  View.cover_of_tiled [⟨rc_S512x256, p0⟩] S512x256.size (by rfl) y
theorem cover0_896 (p0 : Vec F S512x896 .f32) (y : S512x896.Idx) :
    ∃ pc ∈ ([⟨rc_S512x896, p0⟩] : List (View.Piece (Elt F) S512x896 .f32)), y ∈ pc.1.set :=
  View.cover_of_tiled [⟨rc_S512x896, p0⟩] S512x896.size (by rfl) y

end Cert.Kernel.Gen

end
-- ==== Proof.BitsBody.lean ====
/-
  The body's triple: run on whole staging buffers, the twenty-two inputs' at given contents and the three outputs' at
  anything, the kernel body ends with the inputs' buffers as they were and each output's buffer holding its one whole
  store, the value named in the entry module. The body is run symbolically through its three printed parts; the three
  loads of the output buffers that precede the stores read contents nothing depends on.
-/
import proofs.«145113_j80083960201384_2_alg».proof.Proof.BitsEntry

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem sound_kernel (c : Dev nD) (E : Set ℕ) (i : grid0.Coords) (arg1 : Memref sig .tc .vmem S512x2 .f32) (harg1 : arg1.IsWhole) (arg2 : Memref sig .tc .vmem S512x896 .f32) (harg2 : arg2.IsWhole) (arg3 : Memref sig .tc .vmem S512x1 .f32) (harg3 : arg3.IsWhole) (arg4 : Memref sig .tc .vmem S896x2688 .bf16) (harg4 : arg4.IsWhole) (arg5 : Memref sig .tc .vmem S896x2688 .bf16) (harg5 : arg5.IsWhole) (arg6 : Memref sig .tc .vmem S2x2688 .f32) (harg6 : arg6.IsWhole) (arg7 : Memref sig .tc .vmem S1x2688 .f32) (harg7 : arg7.IsWhole) (arg8 : Memref sig .tc .vmem S896 .f32) (harg8 : arg8.IsWhole) (arg9 : Memref sig .tc .vmem S896 .f32) (harg9 : arg9.IsWhole) (arg10 : Memref sig .tc .vmem S896 .f32) (harg10 : arg10.IsWhole) (arg11 : Memref sig .tc .vmem S448x448 .bf16) (harg11 : arg11.IsWhole) (arg12 : Memref sig .tc .vmem S448x448 .bf16) (harg12 : arg12.IsWhole) (arg13 : Memref sig .tc .vmem S448 .f32) (harg13 : arg13.IsWhole) (arg14 : Memref sig .tc .vmem S448x256 .bf16) (harg14 : arg14.IsWhole) (arg15 : Memref sig .tc .vmem S448x256 .bf16) (harg15 : arg15.IsWhole) (arg16 : Memref sig .tc .vmem S256 .f32) (harg16 : arg16.IsWhole) (arg17 : Memref sig .tc .vmem S448x448 .bf16) (harg17 : arg17.IsWhole) (arg18 : Memref sig .tc .vmem S448x448 .bf16) (harg18 : arg18.IsWhole) (arg19 : Memref sig .tc .vmem S448 .f32) (harg19 : arg19.IsWhole) (arg20 : Memref sig .tc .vmem S448x256 .bf16) (harg20 : arg20.IsWhole) (arg21 : Memref sig .tc .vmem S448x256 .bf16) (harg21 : arg21.IsWhole) (arg22 : Memref sig .tc .vmem S256 .f32) (harg22 : arg22.IsWhole) (arg23 : Memref sig .tc .vmem S512x256 .f32) (harg23 : arg23.IsWhole) (arg24 : Memref sig .tc .vmem S512x256 .f32) (harg24 : arg24.IsWhole) (arg25 : Memref sig .tc .vmem S512x896 .f32) (harg25 : arg25.IsWhole)
    (x0 : Vec F S512x2 .f32) (x1 : Vec F S512x896 .f32) (x2 : Vec F S512x1 .f32) (x3 : Vec F S896x2688 .bf16) (x4 : Vec F S896x2688 .bf16) (x5 : Vec F S2x2688 .f32) (x6 : Vec F S1x2688 .f32) (x7 : Vec F S896 .f32) (x8 : Vec F S896 .f32) (x9 : Vec F S896 .f32) (x10 : Vec F S448x448 .bf16) (x11 : Vec F S448x448 .bf16) (x12 : Vec F S448 .f32) (x13 : Vec F S448x256 .bf16) (x14 : Vec F S448x256 .bf16) (x15 : Vec F S256 .f32) (x16 : Vec F S448x448 .bf16) (x17 : Vec F S448x448 .bf16) (x18 : Vec F S448 .f32) (x19 : Vec F S448x256 .bf16) (x20 : Vec F S448x256 .bf16) (x21 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare (out0_22 x0 x1 x2 x3 x4 x5 x6 x7 x8 x9 x10 x11 x12 x13 x14 x15) ∗ owns (c : Thread nD τ) arg24 fullShare (out0_23 x0 x1 x2 x3 x4 x5 x6 x7 x8 x9 x16 x17 x18 x19 x20 x21) ∗ owns (c : Thread nD τ) arg25 fullShare (out0_24 x0 x1 x2 x3 x4 x5 x6 x7 x8 x9)) -∗ K ⟨⟩))
      ⊢ wp frame (wpE (defs₀ (F := F)) Variants.none c none) E (cc0__wavernn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0__wavernn_kernel_eq_skeleton]; unfold cc0__wavernn_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, ⟨%d24, %f24, -, H24⟩, Hk⟩
  subst hf0 hf1 hf2 hf3 hf4 hf5 hf6 hf7 hf8 hf9 hf10 hf11 hf12 hf13 hf14 hf15 hf16 hf17 hf18 hf19 hf20 hf21
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists _; isplitr
    swap; · iexact H22
    ipureintro
    try dsimp only
    exact View.read_writes_eq_canon _ _ _ (cover0_256 _)
  isplitl [H23]
  · iexists _; isplitr
    swap; · iexact H23
    ipureintro
    try dsimp only
    exact View.read_writes_eq_canon _ _ _ (cover0_256 _)
  iexists _; isplitr
  swap; · iexact H24
  ipureintro
  try dsimp only
  exact View.read_writes_eq_canon _ _ _ (cover0_896 _)

end Cert.Kernel.Gen

end
-- ==== Proof.BitsRun.lean ====
/-
  The proof data of the one pipeline, the body obligation at every point, the run and the frame.

  After the body at a point every input buffer holds its block and each output buffer holds its stored value of the
  input blocks there; the invariant is the pipeline's own (the scoped rest and the generator register, untouched),
  nothing is owed, every share is full. With that data each input buffer is found at its block before the body, so the
  body's triple applies at every point, and the launch theorem gives the run.
-/
import proofs.«145113_j80083960201384_2_alg».proof.Proof.BitsBody

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 16 t) (iblk m c 17 t) (iblk m c 18 t) (iblk m c 19 t) (iblk m c 20 t) (iblk m c 21 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t)
    | ⟨_ + 25, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 16 t) (iblk m c 17 t) (iblk m c 18 t) (iblk m c 19 t) (iblk m c 20 t) (iblk m c 21 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t))

set_option maxHeartbeats 2000000 in
/-- The body at any point: the inputs' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every weakly fair execution of @main terminates, and in every final state each
    array of the pipeline is what the library computes from the proof data and every other unscoped buffer is as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Gen

end
-- ==== Proof.IdealEntry.lean ====
/-
  The frame of the program's one pallas_call, and what each result block holds after the body.

  @main is fifty-one host operations (transposes, slices, concatenations, format changes and the subtractions that
  form the low halves of the weight splits) followed by one region over a grid of sixteen points. Every operand is a
  window whose block the body reads whole, and each of the three results is stored whole, once, at every point. So the
  contents of a result's staging buffer after the body at a point are one function of the twenty-two input blocks
  there: the stored value, named through the skeleton's payloads. The body's triple is obtained by symbolic execution
  through its three printed parts; the proof data gives every input buffer its block (a block whose index does not
  move between points is kept from the point before) and every output buffer that function of the blocks; the launch
  theorem then yields a run in which every array of the pipeline is what the library computes from the proof data and
  every other buffer is as the region found it, and the argument arrays, which no host operation writes, end as
  launched.
-/
import proofs.«145113_j80083960201384_2_alg».proof.Proof.Gen.KernelIdeal.Launch
import proofs.«145113_j80083960201384_2_alg».proof.Proof.Gen.KernelIdeal.Skeleton
import proofs.«145113_j80083960201384_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- A core's TensorCore buffers when the region is entered: the launch memory after the host operations. -/
abbrev V (c : Dev nD) (b : Ref sig .tc) : Buf (Elt F) ((c : Thread nD τ).loc b) :=
  StableHlo.after (List.flatten [hostOps0]) (fun b => m (c, b)) b

/-- The host operations allocate nothing. -/
theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- A window's block at a point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or kept from the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or kept from the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or kept from the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or kept from the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or kept from the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or kept from the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or kept from the point before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or kept from the point before. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or kept from the point before. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or kept from the point before. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or kept from the point before. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or kept from the point before. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or kept from the point before. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or kept from the point before. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or kept from the point before. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or kept from the point before. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or kept from the point before. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or kept from the point before. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or kept from the point before. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or kept from the point before. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or kept from the point before. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or kept from the point before. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

set_option maxHeartbeats 1000000 in
/-- Argument 0 after a frame run: its window is an input, so its array is kept, and the region found it as launched. -/
theorem kept_arg0 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg0) = m ((c.tc : Thread nD τ).loc main_arg0) :=
  ((h c).1 0).trans (((dats 0 c).arrAt_in 0 rfl _).trans ((hA c 0).trans (V_main_arg0 m c)))
set_option maxHeartbeats 1000000 in
/-- Argument 1 after a frame run: its window is an input, so its array is kept, and the region found it as launched. -/
theorem kept_arg1 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg1) = m ((c.tc : Thread nD τ).loc main_arg1) :=
  ((h c).1 1).trans (((dats 0 c).arrAt_in 1 rfl _).trans ((hA c 1).trans (V_main_arg1 m c)))
set_option maxHeartbeats 1000000 in
/-- Argument 2 after a frame run: its window is an input, so its array is kept, and the region found it as launched. -/
theorem kept_arg2 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg2) = m ((c.tc : Thread nD τ).loc main_arg2) :=
  ((h c).1 2).trans (((dats 0 c).arrAt_in 2 rfl _).trans ((hA c 2).trans (V_main_arg2 m c)))
set_option maxHeartbeats 1000000 in
/-- Argument 3 after a frame run: no window stages it, so it is as the region found it, and the region found it as launched. -/
theorem kept_arg3 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)
set_option maxHeartbeats 1000000 in
/-- Argument 4 after a frame run: no window stages it, so it is as the region found it, and the region found it as launched. -/
theorem kept_arg4 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_main_arg4 m c)
set_option maxHeartbeats 1000000 in
/-- Argument 5 after a frame run: no window stages it, so it is as the region found it, and the region found it as launched. -/
theorem kept_arg5 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_main_arg5 m c)
set_option maxHeartbeats 1000000 in
/-- Argument 6 after a frame run: no window stages it, so it is as the region found it, and the region found it as launched. -/
theorem kept_arg6 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg6) = m ((c.tc : Thread nD τ).loc main_arg6) :=
  ((h c).2 main_arg6 (Pipeline.mem_restRefs_of main_arg6 (by decide) (by decide))).trans (V_main_arg6 m c)
set_option maxHeartbeats 1000000 in
/-- Argument 7 after a frame run: no window stages it, so it is as the region found it, and the region found it as launched. -/
theorem kept_arg7 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg7) = m ((c.tc : Thread nD τ).loc main_arg7) :=
  ((h c).2 main_arg7 (Pipeline.mem_restRefs_of main_arg7 (by decide) (by decide))).trans (V_main_arg7 m c)
set_option maxHeartbeats 1000000 in
/-- Argument 8 after a frame run: no window stages it, so it is as the region found it, and the region found it as launched. -/
theorem kept_arg8 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg8) = m ((c.tc : Thread nD τ).loc main_arg8) :=
  ((h c).2 main_arg8 (Pipeline.mem_restRefs_of main_arg8 (by decide) (by decide))).trans (V_main_arg8 m c)
set_option maxHeartbeats 1000000 in
/-- Argument 9 after a frame run: its window is an input, so its array is kept, and the region found it as launched. -/
theorem kept_arg9 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg9) = m ((c.tc : Thread nD τ).loc main_arg9) :=
  ((h c).1 12).trans (((dats 0 c).arrAt_in 12 rfl _).trans ((hA c 12).trans (V_main_arg9 m c)))
set_option maxHeartbeats 1000000 in
/-- Argument 10 after a frame run: no window stages it, so it is as the region found it, and the region found it as launched. -/
theorem kept_arg10 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg10) = m ((c.tc : Thread nD τ).loc main_arg10) :=
  ((h c).2 main_arg10 (Pipeline.mem_restRefs_of main_arg10 (by decide) (by decide))).trans (V_main_arg10 m c)
set_option maxHeartbeats 1000000 in
/-- Argument 11 after a frame run: its window is an input, so its array is kept, and the region found it as launched. -/
theorem kept_arg11 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg11) = m ((c.tc : Thread nD τ).loc main_arg11) :=
  ((h c).1 15).trans (((dats 0 c).arrAt_in 15 rfl _).trans ((hA c 15).trans (V_main_arg11 m c)))
set_option maxHeartbeats 1000000 in
/-- Argument 12 after a frame run: no window stages it, so it is as the region found it, and the region found it as launched. -/
theorem kept_arg12 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg12) = m ((c.tc : Thread nD τ).loc main_arg12) :=
  ((h c).2 main_arg12 (Pipeline.mem_restRefs_of main_arg12 (by decide) (by decide))).trans (V_main_arg12 m c)
set_option maxHeartbeats 1000000 in
/-- Argument 13 after a frame run: its window is an input, so its array is kept, and the region found it as launched. -/
theorem kept_arg13 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg13) = m ((c.tc : Thread nD τ).loc main_arg13) :=
  ((h c).1 18).trans (((dats 0 c).arrAt_in 18 rfl _).trans ((hA c 18).trans (V_main_arg13 m c)))
set_option maxHeartbeats 1000000 in
/-- Argument 14 after a frame run: no window stages it, so it is as the region found it, and the region found it as launched. -/
theorem kept_arg14 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg14) = m ((c.tc : Thread nD τ).loc main_arg14) :=
  ((h c).2 main_arg14 (Pipeline.mem_restRefs_of main_arg14 (by decide) (by decide))).trans (V_main_arg14 m c)
set_option maxHeartbeats 1000000 in
/-- Argument 15 after a frame run: its window is an input, so its array is kept, and the region found it as launched. -/
theorem kept_arg15 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg15) = m ((c.tc : Thread nD τ).loc main_arg15) :=
  ((h c).1 21).trans (((dats 0 c).arrAt_in 21 rfl _).trans ((hA c 21).trans (V_main_arg15 m c)))
set_option maxHeartbeats 1000000 in
/-- Argument 16 after a frame run: its window is an input, so its array is kept, and the region found it as launched. -/
theorem kept_arg16 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg16) = m ((c.tc : Thread nD τ).loc main_arg16) :=
  ((h c).1 7).trans (((dats 0 c).arrAt_in 7 rfl _).trans ((hA c 7).trans (V_main_arg16 m c)))
set_option maxHeartbeats 1000000 in
/-- Argument 17 after a frame run: its window is an input, so its array is kept, and the region found it as launched. -/
theorem kept_arg17 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg17) = m ((c.tc : Thread nD τ).loc main_arg17) :=
  ((h c).1 8).trans (((dats 0 c).arrAt_in 8 rfl _).trans ((hA c 8).trans (V_main_arg17 m c)))
set_option maxHeartbeats 1000000 in
/-- Argument 18 after a frame run: its window is an input, so its array is kept, and the region found it as launched. -/
theorem kept_arg18 (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    r.2.mem ((c.tc : Thread nD τ).loc main_arg18) = m ((c.tc : Thread nD τ).loc main_arg18) :=
  ((h c).1 9).trans (((dats 0 c).arrAt_in 9 rfl _).trans ((hA c 9).trans (V_main_arg18 m c)))

/-- From a run in which every array of the pipeline is what the proof data computes and every other buffer is as the
    region found it, the argument arrays end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨kept_arg0 m dats hA h c, kept_arg1 m dats hA h c, kept_arg2 m dats hA h c, kept_arg3 m dats hA h c, kept_arg4 m dats hA h c, kept_arg5 m dats hA h c, kept_arg6 m dats hA h c, kept_arg7 m dats hA h c, kept_arg8 m dats hA h c, kept_arg9 m dats hA h c, kept_arg10 m dats hA h c, kept_arg11 m dats hA h c, kept_arg12 m dats hA h c, kept_arg13 m dats hA h c, kept_arg14 m dats hA h c, kept_arg15 m dats hA h c, kept_arg16 m dats hA h c, kept_arg17 m dats hA h c, kept_arg18 m dats hA h c⟩) h

/-! ## The body's accesses: each buffer is read and written whole -/

abbrev rc_S512x2 : Rect S512x2 := Rect.unit (s := S512x2) ![0, 0] S512x2.size inb_S512x2_S512x2_0_0
abbrev rc_S512x896 : Rect S512x896 := Rect.unit (s := S512x896) ![0, 0] S512x896.size inb_S512x896_S512x896_0_0
abbrev rc_S512x1 : Rect S512x1 := Rect.unit (s := S512x1) ![0, 0] S512x1.size inb_S512x1_S512x1_0_0
abbrev rc_S896x2688 : Rect S896x2688 := Rect.unit (s := S896x2688) ![0, 0] S896x2688.size inb_S896x2688_S896x2688_0_0
abbrev rc_S2x2688 : Rect S2x2688 := Rect.unit (s := S2x2688) ![0, 0] S2x2688.size inb_S2x2688_S2x2688_0_0
abbrev rc_S1x2688 : Rect S1x2688 := Rect.unit (s := S1x2688) ![0, 0] S1x2688.size inb_S1x2688_S1x2688_0_0
abbrev rc_S896 : Rect S896 := Rect.unit (s := S896) ![0] S896.size inb_S896_S896_0
abbrev rc_S448x448 : Rect S448x448 := Rect.unit (s := S448x448) ![0, 0] S448x448.size inb_S448x448_S448x448_0_0
abbrev rc_S448 : Rect S448 := Rect.unit (s := S448) ![0] S448.size inb_S448_S448_0
abbrev rc_S448x256 : Rect S448x256 := Rect.unit (s := S448x256) ![0, 0] S448x256.size inb_S448x256_S448x256_0_0
abbrev rc_S256 : Rect S256 := Rect.unit (s := S256) ![0] S256.size inb_S256_S256_0
abbrev rc_S512x256 : Rect S512x256 := Rect.unit (s := S512x256) ![0, 0] S512x256.size inb_S512x256_S512x256_0_0

/-! ## What the body stores -/

/-- The new hidden state of the block's rows, from the first ten input blocks. -/
def hid0 (x0 : Vec F S512x2 .f32) (x1 : Vec F S512x896 .f32) (x2 : Vec F S512x1 .f32) (x3 : Vec F S896x2688 .bf16) (x4 : Vec F S896x2688 .bf16) (x5 : Vec F S2x2688 .f32) (x6 : Vec F S1x2688 .f32) (x7 : Vec F S896 .f32) (x8 : Vec F S896 .f32) (x9 : Vec F S896 .f32) : FVec F S512x896 .f32 :=
  k0_pay9 (View.ld x1 rc_S512x896) (k0_pay4 (View.ld x1 rc_S512x896) (View.ld x3 rc_S896x2688) (View.ld x4 rc_S896x2688)) (k0_pay5 (View.ld x1 rc_S512x896) (View.ld x3 rc_S896x2688) (View.ld x4 rc_S896x2688)) (k0_pay6 (View.ld x0 rc_S512x2) (View.ld x2 rc_S512x1) (View.ld x5 rc_S2x2688) (View.ld x6 rc_S1x2688)) (k0_pay7 (View.ld x0 rc_S512x2) (View.ld x2 rc_S512x1) (View.ld x5 rc_S2x2688) (View.ld x6 rc_S1x2688)) (k0_pay8 (View.ld x1 rc_S512x896) (View.ld x0 rc_S512x2) (View.ld x2 rc_S512x1) (View.ld x3 rc_S896x2688) (View.ld x4 rc_S896x2688) (View.ld x5 rc_S2x2688) (View.ld x6 rc_S1x2688)) (View.ld x7 rc_S896) (View.ld x8 rc_S896) (View.ld x9 rc_S896)

/-- The fine half of the new hidden state. -/
def fineHalf0 (x0 : Vec F S512x2 .f32) (x1 : Vec F S512x896 .f32) (x2 : Vec F S512x1 .f32) (x3 : Vec F S896x2688 .bf16) (x4 : Vec F S896x2688 .bf16) (x5 : Vec F S2x2688 .f32) (x6 : Vec F S1x2688 .f32) (x7 : Vec F S896 .f32) (x8 : Vec F S896 .f32) (x9 : Vec F S896 .f32) : FVec F S512x448 .f32 :=
  k0_pay10 (View.ld x1 rc_S512x896) (k0_pay4 (View.ld x1 rc_S512x896) (View.ld x3 rc_S896x2688) (View.ld x4 rc_S896x2688)) (k0_pay5 (View.ld x1 rc_S512x896) (View.ld x3 rc_S896x2688) (View.ld x4 rc_S896x2688)) (k0_pay6 (View.ld x0 rc_S512x2) (View.ld x2 rc_S512x1) (View.ld x5 rc_S2x2688) (View.ld x6 rc_S1x2688)) (k0_pay7 (View.ld x0 rc_S512x2) (View.ld x2 rc_S512x1) (View.ld x5 rc_S2x2688) (View.ld x6 rc_S1x2688)) (k0_pay8 (View.ld x1 rc_S512x896) (View.ld x0 rc_S512x2) (View.ld x2 rc_S512x1) (View.ld x3 rc_S896x2688) (View.ld x4 rc_S896x2688) (View.ld x5 rc_S2x2688) (View.ld x6 rc_S1x2688)) (View.ld x7 rc_S896) (View.ld x8 rc_S896) (View.ld x9 rc_S896)

/-- The coarse logits of the block's rows. -/
def coarse0 (x0 : Vec F S512x2 .f32) (x1 : Vec F S512x896 .f32) (x2 : Vec F S512x1 .f32) (x3 : Vec F S896x2688 .bf16) (x4 : Vec F S896x2688 .bf16) (x5 : Vec F S2x2688 .f32) (x6 : Vec F S1x2688 .f32) (x7 : Vec F S896 .f32) (x8 : Vec F S896 .f32) (x9 : Vec F S896 .f32) (x10 : Vec F S448x448 .bf16) (x11 : Vec F S448x448 .bf16) (x12 : Vec F S448 .f32) (x13 : Vec F S448x256 .bf16) (x14 : Vec F S448x256 .bf16) (x15 : Vec F S256 .f32) : FVec F S512x256 .f32 :=
  k0_pay14 (k0_pay12 (View.ld x1 rc_S512x896) (k0_pay4 (View.ld x1 rc_S512x896) (View.ld x3 rc_S896x2688) (View.ld x4 rc_S896x2688)) (k0_pay5 (View.ld x1 rc_S512x896) (View.ld x3 rc_S896x2688) (View.ld x4 rc_S896x2688)) (k0_pay6 (View.ld x0 rc_S512x2) (View.ld x2 rc_S512x1) (View.ld x5 rc_S2x2688) (View.ld x6 rc_S1x2688)) (k0_pay7 (View.ld x0 rc_S512x2) (View.ld x2 rc_S512x1) (View.ld x5 rc_S2x2688) (View.ld x6 rc_S1x2688)) (k0_pay8 (View.ld x1 rc_S512x896) (View.ld x0 rc_S512x2) (View.ld x2 rc_S512x1) (View.ld x3 rc_S896x2688) (View.ld x4 rc_S896x2688) (View.ld x5 rc_S2x2688) (View.ld x6 rc_S1x2688)) (View.ld x7 rc_S896) (View.ld x8 rc_S896) (View.ld x9 rc_S896) (View.ld x10 rc_S448x448) (View.ld x11 rc_S448x448) (View.ld x12 rc_S448)) (k0_pay13 (View.ld x1 rc_S512x896) (k0_pay4 (View.ld x1 rc_S512x896) (View.ld x3 rc_S896x2688) (View.ld x4 rc_S896x2688)) (k0_pay5 (View.ld x1 rc_S512x896) (View.ld x3 rc_S896x2688) (View.ld x4 rc_S896x2688)) (k0_pay6 (View.ld x0 rc_S512x2) (View.ld x2 rc_S512x1) (View.ld x5 rc_S2x2688) (View.ld x6 rc_S1x2688)) (k0_pay7 (View.ld x0 rc_S512x2) (View.ld x2 rc_S512x1) (View.ld x5 rc_S2x2688) (View.ld x6 rc_S1x2688)) (k0_pay8 (View.ld x1 rc_S512x896) (View.ld x0 rc_S512x2) (View.ld x2 rc_S512x1) (View.ld x3 rc_S896x2688) (View.ld x4 rc_S896x2688) (View.ld x5 rc_S2x2688) (View.ld x6 rc_S1x2688)) (View.ld x7 rc_S896) (View.ld x8 rc_S896) (View.ld x9 rc_S896) (View.ld x10 rc_S448x448) (View.ld x11 rc_S448x448) (View.ld x12 rc_S448)) (View.ld x13 rc_S448x256) (View.ld x14 rc_S448x256) (View.ld x15 rc_S256)

/-- The fine logits of the block's rows. -/
def fine0 (x0 : Vec F S512x2 .f32) (x1 : Vec F S512x896 .f32) (x2 : Vec F S512x1 .f32) (x3 : Vec F S896x2688 .bf16) (x4 : Vec F S896x2688 .bf16) (x5 : Vec F S2x2688 .f32) (x6 : Vec F S1x2688 .f32) (x7 : Vec F S896 .f32) (x8 : Vec F S896 .f32) (x9 : Vec F S896 .f32) (x16 : Vec F S448x448 .bf16) (x17 : Vec F S448x448 .bf16) (x18 : Vec F S448 .f32) (x19 : Vec F S448x256 .bf16) (x20 : Vec F S448x256 .bf16) (x21 : Vec F S256 .f32) : FVec F S512x256 .f32 :=
  k0_pay1 (k0_pay16 (fineHalf0 x0 x1 x2 x3 x4 x5 x6 x7 x8 x9) (View.ld x16 rc_S448x448) (View.ld x17 rc_S448x448) (View.ld x18 rc_S448)) (k0_pay17 (fineHalf0 x0 x1 x2 x3 x4 x5 x6 x7 x8 x9) (View.ld x16 rc_S448x448) (View.ld x17 rc_S448x448) (View.ld x18 rc_S448)) (k0_pay18 (View.ld x19 rc_S448x256)) (View.ld x20 rc_S448x256) (View.ld x21 rc_S256)

/-- Window 22's staging buffer after the body: its one whole store. -/
def out0_22 (x0 : Vec F S512x2 .f32) (x1 : Vec F S512x896 .f32) (x2 : Vec F S512x1 .f32) (x3 : Vec F S896x2688 .bf16) (x4 : Vec F S896x2688 .bf16) (x5 : Vec F S2x2688 .f32) (x6 : Vec F S1x2688 .f32) (x7 : Vec F S896 .f32) (x8 : Vec F S896 .f32) (x9 : Vec F S896 .f32) (x10 : Vec F S448x448 .bf16) (x11 : Vec F S448x448 .bf16) (x12 : Vec F S448 .f32) (x13 : Vec F S448x256 .bf16) (x14 : Vec F S448x256 .bf16) (x15 : Vec F S256 .f32) : Vec F S512x256 .f32 :=
  View.canon [⟨rc_S512x256, coarse0 x0 x1 x2 x3 x4 x5 x6 x7 x8 x9 x10 x11 x12 x13 x14 x15⟩]
/-- Window 23's staging buffer after the body: its one whole store. -/
def out0_23 (x0 : Vec F S512x2 .f32) (x1 : Vec F S512x896 .f32) (x2 : Vec F S512x1 .f32) (x3 : Vec F S896x2688 .bf16) (x4 : Vec F S896x2688 .bf16) (x5 : Vec F S2x2688 .f32) (x6 : Vec F S1x2688 .f32) (x7 : Vec F S896 .f32) (x8 : Vec F S896 .f32) (x9 : Vec F S896 .f32) (x16 : Vec F S448x448 .bf16) (x17 : Vec F S448x448 .bf16) (x18 : Vec F S448 .f32) (x19 : Vec F S448x256 .bf16) (x20 : Vec F S448x256 .bf16) (x21 : Vec F S256 .f32) : Vec F S512x256 .f32 :=
  View.canon [⟨rc_S512x256, fine0 x0 x1 x2 x3 x4 x5 x6 x7 x8 x9 x16 x17 x18 x19 x20 x21⟩]
/-- Window 24's staging buffer after the body: its one whole store. -/
def out0_24 (x0 : Vec F S512x2 .f32) (x1 : Vec F S512x896 .f32) (x2 : Vec F S512x1 .f32) (x3 : Vec F S896x2688 .bf16) (x4 : Vec F S896x2688 .bf16) (x5 : Vec F S2x2688 .f32) (x6 : Vec F S1x2688 .f32) (x7 : Vec F S896 .f32) (x8 : Vec F S896 .f32) (x9 : Vec F S896 .f32) : Vec F S512x896 .f32 :=
  View.canon [⟨rc_S512x896, hid0 x0 x1 x2 x3 x4 x5 x6 x7 x8 x9⟩]

/-- A whole store covers its buffer. -/
theorem cover0_256 (p0 : Vec F S512x256 .f32) (y : S512x256.Idx) :
    ∃ pc ∈ ([⟨rc_S512x256, p0⟩] : List (View.Piece (Elt F) S512x256 .f32)), y ∈ pc.1.set :=
  View.cover_of_tiled [⟨rc_S512x256, p0⟩] S512x256.size (by rfl) y
theorem cover0_896 (p0 : Vec F S512x896 .f32) (y : S512x896.Idx) :
    ∃ pc ∈ ([⟨rc_S512x896, p0⟩] : List (View.Piece (Elt F) S512x896 .f32)), y ∈ pc.1.set :=
  View.cover_of_tiled [⟨rc_S512x896, p0⟩] S512x896.size (by rfl) y

end Cert.KernelIdeal.Gen

end
-- ==== Proof.IdealBody.lean ====
/-
  The body's triple: run on whole staging buffers, the twenty-two inputs' at given contents and the three outputs' at
  anything, the kernel body ends with the inputs' buffers as they were and each output's buffer holding its one whole
  store, the value named in the entry module. The body is run symbolically through its three printed parts; the three
  loads of the output buffers that precede the stores read contents nothing depends on.
-/
import proofs.«145113_j80083960201384_2_alg».proof.Proof.IdealEntry

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem sound_kernel (c : Dev nD) (E : Set ℕ) (i : grid0.Coords) (arg1 : Memref sig .tc .vmem S512x2 .f32) (harg1 : arg1.IsWhole) (arg2 : Memref sig .tc .vmem S512x896 .f32) (harg2 : arg2.IsWhole) (arg3 : Memref sig .tc .vmem S512x1 .f32) (harg3 : arg3.IsWhole) (arg4 : Memref sig .tc .vmem S896x2688 .bf16) (harg4 : arg4.IsWhole) (arg5 : Memref sig .tc .vmem S896x2688 .bf16) (harg5 : arg5.IsWhole) (arg6 : Memref sig .tc .vmem S2x2688 .f32) (harg6 : arg6.IsWhole) (arg7 : Memref sig .tc .vmem S1x2688 .f32) (harg7 : arg7.IsWhole) (arg8 : Memref sig .tc .vmem S896 .f32) (harg8 : arg8.IsWhole) (arg9 : Memref sig .tc .vmem S896 .f32) (harg9 : arg9.IsWhole) (arg10 : Memref sig .tc .vmem S896 .f32) (harg10 : arg10.IsWhole) (arg11 : Memref sig .tc .vmem S448x448 .bf16) (harg11 : arg11.IsWhole) (arg12 : Memref sig .tc .vmem S448x448 .bf16) (harg12 : arg12.IsWhole) (arg13 : Memref sig .tc .vmem S448 .f32) (harg13 : arg13.IsWhole) (arg14 : Memref sig .tc .vmem S448x256 .bf16) (harg14 : arg14.IsWhole) (arg15 : Memref sig .tc .vmem S448x256 .bf16) (harg15 : arg15.IsWhole) (arg16 : Memref sig .tc .vmem S256 .f32) (harg16 : arg16.IsWhole) (arg17 : Memref sig .tc .vmem S448x448 .bf16) (harg17 : arg17.IsWhole) (arg18 : Memref sig .tc .vmem S448x448 .bf16) (harg18 : arg18.IsWhole) (arg19 : Memref sig .tc .vmem S448 .f32) (harg19 : arg19.IsWhole) (arg20 : Memref sig .tc .vmem S448x256 .bf16) (harg20 : arg20.IsWhole) (arg21 : Memref sig .tc .vmem S448x256 .bf16) (harg21 : arg21.IsWhole) (arg22 : Memref sig .tc .vmem S256 .f32) (harg22 : arg22.IsWhole) (arg23 : Memref sig .tc .vmem S512x256 .f32) (harg23 : arg23.IsWhole) (arg24 : Memref sig .tc .vmem S512x256 .f32) (harg24 : arg24.IsWhole) (arg25 : Memref sig .tc .vmem S512x896 .f32) (harg25 : arg25.IsWhole)
    (x0 : Vec F S512x2 .f32) (x1 : Vec F S512x896 .f32) (x2 : Vec F S512x1 .f32) (x3 : Vec F S896x2688 .bf16) (x4 : Vec F S896x2688 .bf16) (x5 : Vec F S2x2688 .f32) (x6 : Vec F S1x2688 .f32) (x7 : Vec F S896 .f32) (x8 : Vec F S896 .f32) (x9 : Vec F S896 .f32) (x10 : Vec F S448x448 .bf16) (x11 : Vec F S448x448 .bf16) (x12 : Vec F S448 .f32) (x13 : Vec F S448x256 .bf16) (x14 : Vec F S448x256 .bf16) (x15 : Vec F S256 .f32) (x16 : Vec F S448x448 .bf16) (x17 : Vec F S448x448 .bf16) (x18 : Vec F S448 .f32) (x19 : Vec F S448x256 .bf16) (x20 : Vec F S448x256 .bf16) (x21 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare (out0_22 x0 x1 x2 x3 x4 x5 x6 x7 x8 x9 x10 x11 x12 x13 x14 x15) ∗ owns (c : Thread nD τ) arg24 fullShare (out0_23 x0 x1 x2 x3 x4 x5 x6 x7 x8 x9 x16 x17 x18 x19 x20 x21) ∗ owns (c : Thread nD τ) arg25 fullShare (out0_24 x0 x1 x2 x3 x4 x5 x6 x7 x8 x9)) -∗ K ⟨⟩))
      ⊢ wp frame (wpE (defs₀ (F := F)) Variants.none c none) E (cc0__wavernn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0__wavernn_kernel_eq_skeleton]; unfold cc0__wavernn_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, ⟨%d24, %f24, -, H24⟩, Hk⟩
  subst hf0 hf1 hf2 hf3 hf4 hf5 hf6 hf7 hf8 hf9 hf10 hf11 hf12 hf13 hf14 hf15 hf16 hf17 hf18 hf19 hf20 hf21
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists _; isplitr
    swap; · iexact H22
    ipureintro
    try dsimp only
    exact View.read_writes_eq_canon _ _ _ (cover0_256 _)
  isplitl [H23]
  · iexists _; isplitr
    swap; · iexact H23
    ipureintro
    try dsimp only
    exact View.read_writes_eq_canon _ _ _ (cover0_256 _)
  iexists _; isplitr
  swap; · iexact H24
  ipureintro
  try dsimp only
  exact View.read_writes_eq_canon _ _ _ (cover0_896 _)

end Cert.KernelIdeal.Gen

end
-- ==== Proof.IdealRun.lean ====
/-
  The proof data of the one pipeline, the body obligation at every point, the run and the frame.

  After the body at a point every input buffer holds its block and each output buffer holds its stored value of the
  input blocks there; the invariant is the pipeline's own (the scoped rest and the generator register, untouched),
  nothing is owed, every share is full. With that data each input buffer is found at its block before the body, so the
  body's triple applies at every point, and the launch theorem gives the run.
-/
import proofs.«145113_j80083960201384_2_alg».proof.Proof.IdealBody

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 16 t) (iblk m c 17 t) (iblk m c 18 t) (iblk m c 19 t) (iblk m c 20 t) (iblk m c 21 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t)
    | ⟨_ + 25, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 16 t) (iblk m c 17 t) (iblk m c 18 t) (iblk m c 19 t) (iblk m c 20 t) (iblk m c 21 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t))

set_option maxHeartbeats 2000000 in
/-- The body at any point: the inputs' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every weakly fair execution of @main terminates, and in every final state each
    array of the pipeline is what the library computes from the proof data and every other unscoped buffer is as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Gen

end
-- ==== Proof.LibRealEntries.lean ====
/-
  Real entries among the extended reals, and the law they are needed for.

  An extended real is REAL when it is the image of a real number (neither infinity). Sums, products, differences,
  maxima and finite sums of reals are real, so a value computed from real inputs by those operations is real without
  looking at how it was computed. That matters because the extended reals are not a ring: distributivity and
  cancellation fail at the infinities (⊤ + ⊥ = ⊥, 0 · ⊤ = 0), and an algebraic identity between two arrangements of
  one computation, true on the reals by `ring`, holds on the extended reals only where the entries are real.

  The law stated here is the folding of an evaluation-mode normalisation: with scale γ, shift β, mean μ and reciprocal
  deviation s, the plain form ((r − μ)·s)·γ + β and the folded multiply-add r·(γ·s) + (β − μ·(γ·s)) agree on real
  entries (both are the affine function r ↦ r·γ·s + β − μ·γ·s).
-/
import Idealize.ShloMosaic.PureOps.Ideal

noncomputable section

namespace Cert.LibRealEntries

open Finset

/-- An extended real that is a real number. -/
def IsReal (x : EReal) : Prop := ∃ r : ℝ, x = (r : EReal)

theorem IsReal.coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- The folded and the plain normalisation of one real entry agree: both are the affine function
    r ↦ r·γ·s + β − μ·γ·s. -/
theorem folded_eq_plain {r γ β μ s : EReal} (hr : IsReal r) (hγ : IsReal γ) (hβ : IsReal β) (hμ : IsReal μ) (hs : IsReal s) :
    r * (γ * s) + (β - μ * (γ * s)) = (r - μ) * s * γ + β := by
  obtain ⟨r, rfl⟩ := hr; obtain ⟨γ, rfl⟩ := hγ; obtain ⟨β, rfl⟩ := hβ; obtain ⟨μ, rfl⟩ := hμ; obtain ⟨s, rfl⟩ := hs
  simp only [← EReal.coe_mul, ← EReal.coe_sub, ← EReal.coe_add]
  congr 1
  ring

end Cert.LibRealEntries

end
-- ==== Proof.Spec.lean ====
/-
  The recurrent cell, index by index.

  Nineteen arrays of extended reals go in: the previous outputs y [8192, 2], the previous hidden state h [8192, 896],
  the current coarse sample z [8192, 1], three recurrent matrices [896, 896], the coarse input projection [1344, 2],
  the fine input projection [1344, 3], two output networks (a [448, 448] and a [256, 448] matrix each, with their
  biases) and three gate biases [896]. For a row b and a hidden unit j:

    R_W(b, j)   = Σ_k h(b, k) · W(j, k)                                    (a recurrent projection)
    I_g(b, j)   = Σ_{k<2} y(b, k) · Ic(448 g + j, k)                       for j < 448   (coarse half)
                = Σ_{k<3} [y, z](b, k) · If(448 g + j − 448, k)            for j ≥ 448   (fine half)
    u = σ(R_u + I_0 + b_u),   r = σ(R_r + I_1 + b_r),   e = tanh(r · R_e + I_2 + b_e)
    hidden = u · h + (1 − u) · e
    coarse logits = max(hidden[:, :448] · O1ᵀ + b1, 0) · O2ᵀ + b2
    fine logits   = max(hidden[:, 448:] · O3ᵀ + b3, 0) · O4ᵀ + b4

  The kernel does not use the projection matrices as given: its host prefix transposes them and lays them side by
  side, so that one [896, 2688] matrix carries the three recurrent projections and one [2, 2688] and one [1, 2688]
  row block carry the input projections, the latter with a zero stretch where z does not enter. Those placed arrays
  are named here too, with the equations that locate each placed entry in the arrays as given.
-/
import Idealize.ShloMosaic.PureOps.Ideal
import Idealize.ShloMosaic.Lib.ValueIdx
import proofs.«145113_j80083960201384_2_alg».proof.Proof.LibRealEntries

noncomputable section

namespace Cert.Cell

open Idealize.ShloMosaic Idealize.ShloMosaic.ValueIdx Cert.LibRealEntries

/-- An array of extended reals of a literal shape. -/
abbrev Arr (s : Shape) := s.Idx → EReal

/-- The nineteen argument arrays, in the order of the entry point's parameters. -/
structure Args where
  y : Arr ⟨2, ![8192, 2]⟩
  h : Arr ⟨2, ![8192, 896]⟩
  z : Arr ⟨2, ![8192, 1]⟩
  Wu : Arr ⟨2, ![896, 896]⟩
  Wr : Arr ⟨2, ![896, 896]⟩
  We : Arr ⟨2, ![896, 896]⟩
  Ic : Arr ⟨2, ![1344, 2]⟩
  If : Arr ⟨2, ![1344, 3]⟩
  O1 : Arr ⟨2, ![448, 448]⟩
  b1 : Arr ⟨1, ![448]⟩
  O2 : Arr ⟨2, ![256, 448]⟩
  b2 : Arr ⟨1, ![256]⟩
  O3 : Arr ⟨2, ![448, 448]⟩
  b3 : Arr ⟨1, ![448]⟩
  O4 : Arr ⟨2, ![256, 448]⟩
  b4 : Arr ⟨1, ![256]⟩
  bu : Arr ⟨1, ![896]⟩
  br : Arr ⟨1, ![896]⟩
  be : Arr ⟨1, ![896]⟩

/-- Every entry of every argument is a real number. -/
structure Args.Real (a : Args) : Prop where
  y : ∀ i, IsReal (a.y i)
  h : ∀ i, IsReal (a.h i)
  z : ∀ i, IsReal (a.z i)
  Wu : ∀ i, IsReal (a.Wu i)
  Wr : ∀ i, IsReal (a.Wr i)
  We : ∀ i, IsReal (a.We i)
  Ic : ∀ i, IsReal (a.Ic i)
  If : ∀ i, IsReal (a.If i)
  O1 : ∀ i, IsReal (a.O1 i)
  b1 : ∀ i, IsReal (a.b1 i)
  O2 : ∀ i, IsReal (a.O2 i)
  b2 : ∀ i, IsReal (a.b2 i)
  O3 : ∀ i, IsReal (a.O3 i)
  b3 : ∀ i, IsReal (a.b3 i)
  O4 : ∀ i, IsReal (a.O4 i)
  b4 : ∀ i, IsReal (a.b4 i)
  bu : ∀ i, IsReal (a.bu i)
  br : ∀ i, IsReal (a.br i)
  be : ∀ i, IsReal (a.be i)

variable (a : Args)

/-- A recurrent projection: row b of h against row j of W. -/
def rec (W : Arr ⟨2, ![896, 896]⟩) (b : Fin 8192) (j : Fin 896) : EReal :=
  ∑ k : Fin 896, a.h (ix2 b k) * W (ix2 j k)

/-- The coarse input projection's output n for row b. -/
def inC (b : Fin 8192) (n : Fin 1344) : EReal :=
  ∑ k : Fin 2, a.y (ix2 b k) * a.Ic (ix2 n k)

/-- Row b of y and z side by side: [y(b, 0), y(b, 1), z(b, 0)]. -/
def yz (b : Fin 8192) (k : Fin 3) : EReal :=
  if hk : k.val < 2 then a.y (ix2 b ⟨k.val, hk⟩) else a.z (ix2 b 0)

/-- The fine input projection's output n for row b. -/
def inF (b : Fin 8192) (n : Fin 1344) : EReal :=
  ∑ k : Fin 3, yz a b k * a.If (ix2 n k)

/-- Gate g's input term at hidden unit j: the coarse projection below 448, the fine projection from 448 on. -/
def inp (g : Fin 3) (b : Fin 8192) (j : Fin 896) : EReal :=
  if hj : j.val < 448 then inC a b ⟨448 * g.val + j.val, by have := g.isLt; omega⟩
  else inF a b ⟨448 * g.val + (j.val - 448), by have := g.isLt; have := j.isLt; omega⟩

def gateU (b : Fin 8192) (j : Fin 896) : EReal :=
  Ideal.logistic (rec a a.Wu b j + inp a 0 b j + a.bu (ix1 j))

def gateR (b : Fin 8192) (j : Fin 896) : EReal :=
  Ideal.logistic (rec a a.Wr b j + inp a 1 b j + a.br (ix1 j))

def cand (b : Fin 8192) (j : Fin 896) : EReal :=
  Ideal.tanh (gateR a b j * rec a a.We b j + inp a 2 b j + a.be (ix1 j))

/-- The new hidden state. The one is the float word of 1.0, left as the word both programs carry. -/
def hid (b : Fin 8192) (j : Fin 896) : EReal :=
  gateU a b j * a.h (ix2 b j) + (Ideal.ofBits .f32 0x3F800000#32 - gateU a b j) * cand a b j

/-- The coarse half's first layer, rectified. -/
def act1 (b : Fin 8192) (n : Fin 448) : EReal :=
  max ((∑ k : Fin 448, hid a b ⟨k.val, by have := k.isLt; omega⟩ * a.O1 (ix2 n k)) + a.b1 (ix1 n)) 0

def outC (b : Fin 8192) (q : Fin 256) : EReal :=
  (∑ k : Fin 448, act1 a b k * a.O2 (ix2 q k)) + a.b2 (ix1 q)

/-- The fine half's first layer, rectified. -/
def act3 (b : Fin 8192) (n : Fin 448) : EReal :=
  max ((∑ k : Fin 448, hid a b ⟨448 + k.val, by have := k.isLt; omega⟩ * a.O3 (ix2 n k)) + a.b3 (ix1 n)) 0

def outF (b : Fin 8192) (q : Fin 256) : EReal :=
  (∑ k : Fin 448, act3 a b k * a.O4 (ix2 q k)) + a.b4 (ix1 q)

/-- The three results as arrays. -/
def resC : Arr ⟨2, ![8192, 256]⟩ := fun i => outC a (i 0) (i 1)
def resF : Arr ⟨2, ![8192, 256]⟩ := fun i => outF a (i 0) (i 1)
def resH : Arr ⟨2, ![8192, 896]⟩ := fun i => hid a (i 0) (i 1)

/-! ## The arrays as the kernel's host prefix places them -/

/-- The three recurrent matrices transposed and laid side by side: column 896 g + j of row k is W_g(j, k). -/
def fusedR (k : Fin 896) (n : Fin 2688) : EReal :=
  if h0 : n.val < 896 then a.Wu (ix2 ⟨n.val, h0⟩ k)
  else if h1 : n.val < 1792 then a.Wr (ix2 ⟨n.val - 896, by omega⟩ k)
  else a.We (ix2 ⟨n.val - 1792, by have := n.isLt; omega⟩ k)

/-- The rows of the input projections that multiply y(·, k), k < 2, laid out to match: in stretch g the first 448
    columns come from the coarse projection, the last 448 from the fine one. -/
def placedY (k : Fin 2) (n : Fin 2688) : EReal :=
  if hj : n.val % 896 < 448 then a.Ic (ix2 ⟨448 * (n.val / 896) + n.val % 896, by have := n.isLt; omega⟩ k)
  else a.If (ix2 ⟨448 * (n.val / 896) + (n.val % 896 - 448), by have := n.isLt; omega⟩ ⟨k.val, by have := k.isLt; omega⟩)

/-- The row that multiplies z: zero where the coarse projection sits, the fine projection's third column elsewhere. -/
def placedZ (n : Fin 2688) : EReal :=
  if hj : n.val % 896 < 448 then 0
  else a.If (ix2 ⟨448 * (n.val / 896) + (n.val % 896 - 448), by have := n.isLt; omega⟩ 2)

end Cert.Cell

end
-- ==== Proof.PlacedArgs.lean ====
/-
  The nineteen argument arrays of the kernel's entry point, as the memory holds them on a device, gathered into the
  specification's record of arrays: field by field, the launch contents of the buffer of the parameter of that place.
-/
import proofs.«145113_j80083960201384_2_alg».proof.Proof.IdealEntry
import proofs.«145113_j80083960201384_2_alg».proof.Proof.Spec

noncomputable section

namespace Cert.Cell.Placed

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (c : Dev nD)

/-- The argument arrays a device's memory holds, in the order of the entry point's parameters. -/
def argsOf : Cert.Cell.Args where
  y := m ((c : Thread nD τ).loc main_arg0)
  h := m ((c : Thread nD τ).loc main_arg1)
  z := m ((c : Thread nD τ).loc main_arg2)
  Wu := m ((c : Thread nD τ).loc main_arg3)
  Wr := m ((c : Thread nD τ).loc main_arg4)
  We := m ((c : Thread nD τ).loc main_arg5)
  Ic := m ((c : Thread nD τ).loc main_arg6)
  If := m ((c : Thread nD τ).loc main_arg7)
  O1 := m ((c : Thread nD τ).loc main_arg8)
  b1 := m ((c : Thread nD τ).loc main_arg9)
  O2 := m ((c : Thread nD τ).loc main_arg10)
  b2 := m ((c : Thread nD τ).loc main_arg11)
  O3 := m ((c : Thread nD τ).loc main_arg12)
  b3 := m ((c : Thread nD τ).loc main_arg13)
  O4 := m ((c : Thread nD τ).loc main_arg14)
  b4 := m ((c : Thread nD τ).loc main_arg15)
  bu := m ((c : Thread nD τ).loc main_arg16)
  br := m ((c : Thread nD τ).loc main_arg17)
  be := m ((c : Thread nD τ).loc main_arg18)

end Cert.Cell.Placed

end
-- ==== Proof.PlacedRead.lean ====
/-
  Transposed, sliced and concatenated matrices read entry by entry.

  The kernel does not take its weight matrices as given: each is transposed, some are cut into column stretches, and
  the pieces are laid side by side. Every lemma here says, for arbitrary matrices of the literal shapes, which entry of
  which given matrix sits at row k, column n of such an arrangement: a transposed matrix read at (b, a) is the matrix
  at (a, b); three transposed [896, 896] matrices side by side read, in column stretch g, matrix g; two input
  projections cut in three stretches of 448 columns and interleaved read the coarse projection in the first half of
  each 896-column stretch and the fine projection in the second half; and the row built from zeros and the fine
  projection's third column reads zero in the first halves. A change of float format is the identity on extended
  reals, so it does not show in any of these readings.
-/
import Idealize.ShloMosaic.PureOps.Ideal.Laws
import Idealize.ShloMosaic.Lib.ValueIdx
import Idealize.ShloMosaic.Lib.Pipeline.Value
import proofs.«145113_j80083960201384_2_alg».proof.Proof.Spec

noncomputable section

namespace Cert.Cell.Placed

open Idealize.ShloMosaic Idealize.ShloMosaic.ValueIdx

/-- The transpose of an [A, B] matrix, read at (b, a), is the matrix at (a, b). -/
theorem transpose_swap_apply {α : Type} (A B : ℕ) (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun d => match d with
    | ⟨0, _⟩ => rfl
    | ⟨1, _⟩ => rfl)

/-- A transposed [A, B] matrix in another float format, read at (b, a): the matrix at (a, b). -/
theorem truncf_transpose_apply {A B : ℕ} (x : FVec Ideal ⟨2, ![A, B]⟩ .f32)
    (h : (⟨2, ![A, B]⟩ : Shape).Transposes [1, 0] ⟨2, ![B, A]⟩) (hb : FTy.bits .bf16 < FTy.bits .f32) (b : Fin B) (a : Fin A) :
    (truncf .bf16 (transpose ⟨2, ![B, A]⟩ [1, 0] x h : FVec Ideal ⟨2, ![B, A]⟩ .f32) hb : FVec Ideal ⟨2, ![B, A]⟩ .bf16) (ix2 b a)
      = x (ix2 a b) :=
  transpose_swap_apply A B x h b a

/-- The low half of a weight split, v − widen(narrow(v)) narrowed, read at an index: the entry minus itself. -/
theorem low_half_apply {s : Shape} (v : FVec Ideal s .f32) (hb : FTy.bits .bf16 < FTy.bits .f32) (i : s.Idx) :
    (truncf .bf16 (subf v (extf .f32 (truncf .bf16 v hb : FVec Ideal s .bf16) hb : FVec Ideal s .f32)) hb : FVec Ideal s .bf16) i
      = v i - v i := rfl

/-- Three [R, 896] matrices side by side, read at (k, n): column stretch g of 896 columns reads matrix g at (k, n − 896 g). -/
theorem three_beside_apply {R : ℕ} (u0 u1 u2 : Arr ⟨2, ![R, 896]⟩)
    (hc : Shape.Concatenates [(⟨2, ![R, 896]⟩ : Shape), ⟨2, ![R, 896]⟩, ⟨2, ![R, 896]⟩] ⟨2, ![R, 2688]⟩ 1)
    (k : Fin R) (n : Fin 2688) :
    concatenate ⟨2, ![R, 2688]⟩ 1 [⟨⟨2, ![R, 896]⟩, u0⟩, ⟨⟨2, ![R, 896]⟩, u1⟩, ⟨⟨2, ![R, 896]⟩, u2⟩] hc (ix2 k n)
      = if h0 : n.val < 896 then u0 (ix2 k ⟨n.val, h0⟩)
        else if h1 : n.val < 1792 then u1 (ix2 k ⟨n.val - 896, by omega⟩)
        else u2 (ix2 k ⟨n.val - 1792, by have := n.isLt; omega⟩) := by
  have hn := n.isLt
  by_cases h0 : n.val < 896
  · rw [dif_pos h0]
    exact concatenate_apply_piece (t := ⟨2, ![R, 2688]⟩) 1
      [⟨⟨2, ![R, 896]⟩, u0⟩, ⟨⟨2, ![R, 896]⟩, u1⟩, ⟨⟨2, ![R, 896]⟩, u2⟩]
      hc (ix2 k n) 0 (by simp) ⟨2, ![R, 896]⟩ u0 rfl rfl 0 rfl
      (ix2 k (⟨n.val, h0⟩ : Fin 896))
      (fun b hb => by
        match b with
        | ⟨0, _⟩ => rfl
        | ⟨1, _⟩ => exact absurd rfl hb)
      (by show 0 + n.val = n.val; omega)
  · rw [dif_neg h0]
    by_cases h1 : n.val < 1792
    · rw [dif_pos h1]
      exact concatenate_apply_piece (t := ⟨2, ![R, 2688]⟩) 1
        [⟨⟨2, ![R, 896]⟩, u0⟩, ⟨⟨2, ![R, 896]⟩, u1⟩, ⟨⟨2, ![R, 896]⟩, u2⟩]
        hc (ix2 k n) 1 (by simp) ⟨2, ![R, 896]⟩ u1 rfl rfl 896 rfl
        (ix2 k (⟨n.val - 896, by omega⟩ : Fin 896))
        (fun b hb => by
          match b with
          | ⟨0, _⟩ => rfl
          | ⟨1, _⟩ => exact absurd rfl hb)
        (by show 896 + (n.val - 896) = n.val; omega)
    · rw [dif_neg h1]
      exact concatenate_apply_piece (t := ⟨2, ![R, 2688]⟩) 1
        [⟨⟨2, ![R, 896]⟩, u0⟩, ⟨⟨2, ![R, 896]⟩, u1⟩, ⟨⟨2, ![R, 896]⟩, u2⟩]
        hc (ix2 k n) 2 (by simp) ⟨2, ![R, 896]⟩ u2 rfl rfl 1792 rfl
        (ix2 k (⟨n.val - 1792, by omega⟩ : Fin 896))
        (fun b hb => by
          match b with
          | ⟨0, _⟩ => rfl
          | ⟨1, _⟩ => exact absurd rfl hb)
        (by show 1792 + (n.val - 1792) = n.val; omega)

/-- Two [R, 448] matrices side by side, read at (k, r): the first below column 448, the second from there on. -/
theorem two_beside_apply {R : ℕ} (x₁ x₂ : Arr ⟨2, ![R, 448]⟩)
    (hc : Shape.Concatenates [(⟨2, ![R, 448]⟩ : Shape), ⟨2, ![R, 448]⟩] ⟨2, ![R, 896]⟩ 1) (k : Fin R) (r : Fin 896) :
    concatenate ⟨2, ![R, 896]⟩ 1 [⟨⟨2, ![R, 448]⟩, x₁⟩, ⟨⟨2, ![R, 448]⟩, x₂⟩] hc (ix2 k r)
      = if hr : r.val < 448 then x₁ (ix2 k ⟨r.val, hr⟩) else x₂ (ix2 k ⟨r.val - 448, by have := r.isLt; omega⟩) := by
  have hlt := r.isLt
  by_cases hr : r.val < 448
  · rw [dif_pos hr]
    exact concatenate_pair_apply_left 1 x₁ x₂ hc (ix2 k r) rfl (ix2 k ⟨r.val, hr⟩) (fun b => by
      match b with
      | ⟨0, _⟩ => rfl
      | ⟨1, _⟩ => rfl)
  · rw [dif_neg hr]
    exact concatenate_pair_apply_right 1 x₁ x₂ hc (ix2 k r) rfl rfl (ix2 k ⟨r.val - 448, by omega⟩) (fun b hb => by
      match b with
      | ⟨0, _⟩ => rfl
      | ⟨1, _⟩ => exact absurd rfl hb) (by show r.val - 448 + 448 = r.val; omega)

/-- A slice of 448 columns from column o of the transposed coarse projection, read at (k, j): the projection at (o + j, k). -/
theorem coarse_slice_apply (Ic : Arr ⟨2, ![1344, 2]⟩) (o : ℕ) (ho : o + 448 ≤ 1344)
    (ht : (⟨2, ![1344, 2]⟩ : Shape).Transposes [1, 0] ⟨2, ![2, 1344]⟩)
    (hs : (⟨2, ![2, 1344]⟩ : Shape).Slices ![0, o] ⟨2, ![2, 448]⟩) (k : Fin 2) (j : Fin 448) :
    extractStridedSlice ⟨2, ![2, 448]⟩ ![0, o] (transpose ⟨2, ![2, 1344]⟩ [1, 0] Ic ht) hs (ix2 k j)
      = Ic (ix2 ⟨o + j.val, by have := j.isLt; omega⟩ k) := by
  have hj := j.isLt
  refine (extractStridedSlice_apply ![0, o] _ hs (ix2 k j) (ix2 k (⟨o + j.val, by omega⟩ : Fin 1344)) (fun a => by
    match a with
    | ⟨0, _⟩ => show k.val = 0 + k.val; omega
    | ⟨1, _⟩ => rfl)).trans ?_
  exact transpose_swap_apply 1344 2 Ic ht k ⟨o + j.val, by omega⟩

/-- A slice of 448 columns from column o of the first two rows of the transposed fine projection, read at (k, j): the
    projection at (o + j, k). -/
theorem fine_slice_apply (If : Arr ⟨2, ![1344, 3]⟩) (o : ℕ) (ho : o + 448 ≤ 1344)
    (ht : (⟨2, ![1344, 3]⟩ : Shape).Transposes [1, 0] ⟨2, ![3, 1344]⟩)
    (hs₀ : (⟨2, ![3, 1344]⟩ : Shape).Slices ![0, 0] ⟨2, ![2, 1344]⟩)
    (hs : (⟨2, ![2, 1344]⟩ : Shape).Slices ![0, o] ⟨2, ![2, 448]⟩) (k : Fin 2) (j : Fin 448) :
    extractStridedSlice ⟨2, ![2, 448]⟩ ![0, o]
        (extractStridedSlice ⟨2, ![2, 1344]⟩ ![0, 0] (transpose ⟨2, ![3, 1344]⟩ [1, 0] If ht) hs₀) hs (ix2 k j)
      = If (ix2 ⟨o + j.val, by have := j.isLt; omega⟩ ⟨k.val, by have := k.isLt; omega⟩) := by
  have hj := j.isLt
  have hk := k.isLt
  refine (extractStridedSlice_apply ![0, o] _ hs (ix2 k j) (ix2 k (⟨o + j.val, by omega⟩ : Fin 1344)) (fun a => by
    match a with
    | ⟨0, _⟩ => show k.val = 0 + k.val; omega
    | ⟨1, _⟩ => rfl)).trans ?_
  refine (extractStridedSlice_apply ![0, 0] _ hs₀ (ix2 k (⟨o + j.val, by omega⟩ : Fin 1344))
    (ix2 (⟨k.val, by omega⟩ : Fin 3) (⟨o + j.val, by omega⟩ : Fin 1344)) (fun a => by
    match a with
    | ⟨0, _⟩ => show k.val = 0 + k.val; omega
    | ⟨1, _⟩ => show o + j.val = 0 + (o + j.val); omega)).trans ?_
  exact transpose_swap_apply 1344 3 If ht ⟨k.val, by omega⟩ ⟨o + j.val, by omega⟩

/-- A slice of 448 columns from column o of the third row of the transposed fine projection, read at (0, j): the
    projection at (o + j, 2). -/
theorem fine_third_slice_apply (If : Arr ⟨2, ![1344, 3]⟩) (o : ℕ) (ho : o + 448 ≤ 1344)
    (ht : (⟨2, ![1344, 3]⟩ : Shape).Transposes [1, 0] ⟨2, ![3, 1344]⟩)
    (hs₂ : (⟨2, ![3, 1344]⟩ : Shape).Slices ![2, 0] ⟨2, ![1, 1344]⟩)
    (hs : (⟨2, ![1, 1344]⟩ : Shape).Slices ![0, o] ⟨2, ![1, 448]⟩) (j : Fin 448) :
    extractStridedSlice ⟨2, ![1, 448]⟩ ![0, o]
        (extractStridedSlice ⟨2, ![1, 1344]⟩ ![2, 0] (transpose ⟨2, ![3, 1344]⟩ [1, 0] If ht) hs₂) hs (ix2 0 j)
      = If (ix2 ⟨o + j.val, by have := j.isLt; omega⟩ 2) := by
  have hj := j.isLt
  refine (extractStridedSlice_apply ![0, o] _ hs (ix2 0 j) (ix2 0 (⟨o + j.val, by omega⟩ : Fin 1344)) (fun a => by
    match a with
    | ⟨0, _⟩ => rfl
    | ⟨1, _⟩ => rfl)).trans ?_
  refine (extractStridedSlice_apply ![2, 0] _ hs₂ (ix2 0 (⟨o + j.val, by omega⟩ : Fin 1344))
    (ix2 (2 : Fin 3) (⟨o + j.val, by omega⟩ : Fin 1344)) (fun a => by
    match a with
    | ⟨0, _⟩ => rfl
    | ⟨1, _⟩ => show o + j.val = 0 + (o + j.val); omega)).trans ?_
  exact transpose_swap_apply 1344 3 If ht 2 ⟨o + j.val, by omega⟩

/-- The scalar zero constant spread over a [1, 448] row reads zero everywhere. -/
theorem zero_row_apply (hb : (⟨0, ![]⟩ : Shape).BroadcastsInDim ⟨2, ![1, 448]⟩ (![] : Fin 0 → Fin 2)) (i : (⟨2, ![1, 448]⟩ : Shape).Idx) :
    broadcastInDim ⟨2, ![1, 448]⟩ ![] hb (constant (F := Ideal) ⟨0, ![]⟩ .f32 0x00000000#32) i = (0 : EReal) := by
  rw [broadcastInDim_apply ![] hb _ i ix0 (fun a => a.elim0)]
  exact Ideal.ofBits_zero_f32

/-! ## The placed arrays of the specification, as those arrangements -/

/-- The three recurrent matrices transposed and set side by side are the fused recurrent array. -/
theorem fused_apply (a : Args)
    (ht : (⟨2, ![896, 896]⟩ : Shape).Transposes [1, 0] ⟨2, ![896, 896]⟩)
    (hc : Shape.Concatenates [(⟨2, ![896, 896]⟩ : Shape), ⟨2, ![896, 896]⟩, ⟨2, ![896, 896]⟩] ⟨2, ![896, 2688]⟩ 1)
    (k : Fin 896) (n : Fin 2688) :
    concatenate ⟨2, ![896, 2688]⟩ 1 [⟨⟨2, ![896, 896]⟩, transpose ⟨2, ![896, 896]⟩ [1, 0] a.Wu ht⟩,
        ⟨⟨2, ![896, 896]⟩, transpose ⟨2, ![896, 896]⟩ [1, 0] a.Wr ht⟩, ⟨⟨2, ![896, 896]⟩, transpose ⟨2, ![896, 896]⟩ [1, 0] a.We ht⟩] hc (ix2 k n)
      = fusedR a k n := by
  have hn := n.isLt
  rw [three_beside_apply]
  unfold fusedR
  by_cases h0 : n.val < 896
  · rw [dif_pos h0, dif_pos h0]
    exact transpose_swap_apply 896 896 a.Wu ht k ⟨n.val, h0⟩
  · rw [dif_neg h0, dif_neg h0]
    by_cases h1 : n.val < 1792
    · rw [dif_pos h1, dif_pos h1]
      exact transpose_swap_apply 896 896 a.Wr ht k ⟨n.val - 896, by omega⟩
    · rw [dif_neg h1, dif_neg h1]
      exact transpose_swap_apply 896 896 a.We ht k ⟨n.val - 1792, by omega⟩

/-- One 896-column stretch of the rows that multiply y: 448 columns of the transposed coarse projection from column
    o, then 448 columns of the first two rows of the transposed fine projection from column o. When o is 448 times
    the stretch's number, it is that stretch of the placed array. -/
theorem y_stretch_apply (a : Args) (o : ℕ) (ho : o + 448 ≤ 1344)
    (htc : (⟨2, ![1344, 2]⟩ : Shape).Transposes [1, 0] ⟨2, ![2, 1344]⟩)
    (htf : (⟨2, ![1344, 3]⟩ : Shape).Transposes [1, 0] ⟨2, ![3, 1344]⟩)
    (hs₀ : (⟨2, ![3, 1344]⟩ : Shape).Slices ![0, 0] ⟨2, ![2, 1344]⟩)
    (hs : (⟨2, ![2, 1344]⟩ : Shape).Slices ![0, o] ⟨2, ![2, 448]⟩)
    (hc : Shape.Concatenates [(⟨2, ![2, 448]⟩ : Shape), ⟨2, ![2, 448]⟩] ⟨2, ![2, 896]⟩ 1)
    (k : Fin 2) (n : Fin 2688) (r : Fin 896) (hon : o = 448 * (n.val / 896)) (hr : r.val = n.val % 896) :
    concatenate ⟨2, ![2, 896]⟩ 1
        [⟨⟨2, ![2, 448]⟩, extractStridedSlice ⟨2, ![2, 448]⟩ ![0, o] (transpose ⟨2, ![2, 1344]⟩ [1, 0] a.Ic htc) hs⟩,
         ⟨⟨2, ![2, 448]⟩, extractStridedSlice ⟨2, ![2, 448]⟩ ![0, o]
            (extractStridedSlice ⟨2, ![2, 1344]⟩ ![0, 0] (transpose ⟨2, ![3, 1344]⟩ [1, 0] a.If htf) hs₀) hs⟩] hc (ix2 k r)
      = placedY a k n := by
  have hn := n.isLt
  have hk := k.isLt
  rw [two_beside_apply]
  unfold placedY
  by_cases hj : n.val % 896 < 448
  · rw [dif_pos hj, dif_pos (show r.val < 448 by omega)]
    refine (coarse_slice_apply a.Ic o ho htc hs k ⟨r.val, by omega⟩).trans ?_
    exact congrArg (fun q => a.Ic (ix2 q k)) (Fin.ext (by show o + r.val = 448 * (n.val / 896) + n.val % 896; omega))
  · rw [dif_neg hj, dif_neg (show ¬ r.val < 448 by omega)]
    refine (fine_slice_apply a.If o ho htf hs₀ hs k ⟨r.val - 448, by omega⟩).trans ?_
    exact congrArg (fun q => a.If (ix2 q (⟨k.val, by omega⟩ : Fin 3)))
      (Fin.ext (by show o + (r.val - 448) = 448 * (n.val / 896) + (n.val % 896 - 448); omega))

/-- The rows that multiply y, as the host prefix builds them, are the placed array. -/
theorem placedY_apply (a : Args)
    (htc : (⟨2, ![1344, 2]⟩ : Shape).Transposes [1, 0] ⟨2, ![2, 1344]⟩)
    (htf : (⟨2, ![1344, 3]⟩ : Shape).Transposes [1, 0] ⟨2, ![3, 1344]⟩)
    (hs₀ : (⟨2, ![3, 1344]⟩ : Shape).Slices ![0, 0] ⟨2, ![2, 1344]⟩)
    (hsA : (⟨2, ![2, 1344]⟩ : Shape).Slices ![0, 0] ⟨2, ![2, 448]⟩)
    (hsB : (⟨2, ![2, 1344]⟩ : Shape).Slices ![0, 448] ⟨2, ![2, 448]⟩)
    (hsC : (⟨2, ![2, 1344]⟩ : Shape).Slices ![0, 896] ⟨2, ![2, 448]⟩)
    (hc : Shape.Concatenates [(⟨2, ![2, 448]⟩ : Shape), ⟨2, ![2, 448]⟩] ⟨2, ![2, 896]⟩ 1)
    (hc₃ : Shape.Concatenates [(⟨2, ![2, 896]⟩ : Shape), ⟨2, ![2, 896]⟩, ⟨2, ![2, 896]⟩] ⟨2, ![2, 2688]⟩ 1)
    (k : Fin 2) (n : Fin 2688) :
    concatenate ⟨2, ![2, 2688]⟩ 1
      [⟨⟨2, ![2, 896]⟩, concatenate ⟨2, ![2, 896]⟩ 1
        [⟨⟨2, ![2, 448]⟩, extractStridedSlice ⟨2, ![2, 448]⟩ ![0, 0] (transpose ⟨2, ![2, 1344]⟩ [1, 0] a.Ic htc) hsA⟩,
         ⟨⟨2, ![2, 448]⟩, extractStridedSlice ⟨2, ![2, 448]⟩ ![0, 0]
            (extractStridedSlice ⟨2, ![2, 1344]⟩ ![0, 0] (transpose ⟨2, ![3, 1344]⟩ [1, 0] a.If htf) hs₀) hsA⟩] hc⟩,
       ⟨⟨2, ![2, 896]⟩, concatenate ⟨2, ![2, 896]⟩ 1
        [⟨⟨2, ![2, 448]⟩, extractStridedSlice ⟨2, ![2, 448]⟩ ![0, 448] (transpose ⟨2, ![2, 1344]⟩ [1, 0] a.Ic htc) hsB⟩,
         ⟨⟨2, ![2, 448]⟩, extractStridedSlice ⟨2, ![2, 448]⟩ ![0, 448]
            (extractStridedSlice ⟨2, ![2, 1344]⟩ ![0, 0] (transpose ⟨2, ![3, 1344]⟩ [1, 0] a.If htf) hs₀) hsB⟩] hc⟩,
       ⟨⟨2, ![2, 896]⟩, concatenate ⟨2, ![2, 896]⟩ 1
        [⟨⟨2, ![2, 448]⟩, extractStridedSlice ⟨2, ![2, 448]⟩ ![0, 896] (transpose ⟨2, ![2, 1344]⟩ [1, 0] a.Ic htc) hsC⟩,
         ⟨⟨2, ![2, 448]⟩, extractStridedSlice ⟨2, ![2, 448]⟩ ![0, 896]
            (extractStridedSlice ⟨2, ![2, 1344]⟩ ![0, 0] (transpose ⟨2, ![3, 1344]⟩ [1, 0] a.If htf) hs₀) hsC⟩] hc⟩] hc₃ (ix2 k n)
      = placedY a k n := by
  have hn := n.isLt
  rw [three_beside_apply]
  by_cases h0 : n.val < 896
  · rw [dif_pos h0]
    exact y_stretch_apply a 0 (by omega) htc htf hs₀ hsA hc k n ⟨n.val, h0⟩ (by omega) (by show n.val = n.val % 896; omega)
  · rw [dif_neg h0]
    by_cases h1 : n.val < 1792
    · rw [dif_pos h1]
      exact y_stretch_apply a 448 (by omega) htc htf hs₀ hsB hc k n ⟨n.val - 896, by omega⟩ (by omega)
        (by show n.val - 896 = n.val % 896; omega)
    · rw [dif_neg h1]
      exact y_stretch_apply a 896 (by omega) htc htf hs₀ hsC hc k n ⟨n.val - 1792, by omega⟩ (by omega)
        (by show n.val - 1792 = n.val % 896; omega)

/-- One 896-column stretch of the row that multiplies z: 448 zeros, then 448 columns of the third row of the
    transposed fine projection from column o. When o is 448 times the stretch's number, it is that stretch of the
    placed row. -/
theorem z_stretch_apply (a : Args) (o : ℕ) (ho : o + 448 ≤ 1344)
    (htf : (⟨2, ![1344, 3]⟩ : Shape).Transposes [1, 0] ⟨2, ![3, 1344]⟩)
    (hs₂ : (⟨2, ![3, 1344]⟩ : Shape).Slices ![2, 0] ⟨2, ![1, 1344]⟩)
    (hs : (⟨2, ![1, 1344]⟩ : Shape).Slices ![0, o] ⟨2, ![1, 448]⟩)
    (hb : (⟨0, ![]⟩ : Shape).BroadcastsInDim ⟨2, ![1, 448]⟩ (![] : Fin 0 → Fin 2))
    (hc : Shape.Concatenates [(⟨2, ![1, 448]⟩ : Shape), ⟨2, ![1, 448]⟩] ⟨2, ![1, 896]⟩ 1)
    (n : Fin 2688) (r : Fin 896) (hon : o = 448 * (n.val / 896)) (hr : r.val = n.val % 896) :
    concatenate ⟨2, ![1, 896]⟩ 1
        [⟨⟨2, ![1, 448]⟩, broadcastInDim ⟨2, ![1, 448]⟩ ![] hb (constant (F := Ideal) ⟨0, ![]⟩ .f32 0x00000000#32)⟩,
         ⟨⟨2, ![1, 448]⟩, extractStridedSlice ⟨2, ![1, 448]⟩ ![0, o]
            (extractStridedSlice ⟨2, ![1, 1344]⟩ ![2, 0] (transpose ⟨2, ![3, 1344]⟩ [1, 0] a.If htf) hs₂) hs⟩] hc (ix2 0 r)
      = placedZ a n := by
  have hn := n.isLt
  rw [two_beside_apply]
  unfold placedZ
  by_cases hj : n.val % 896 < 448
  · rw [dif_pos hj, dif_pos (show r.val < 448 by omega)]
    exact zero_row_apply hb _
  · rw [dif_neg hj, dif_neg (show ¬ r.val < 448 by omega)]
    refine (fine_third_slice_apply a.If o ho htf hs₂ hs ⟨r.val - 448, by omega⟩).trans ?_
    exact congrArg (fun q => a.If (ix2 q (2 : Fin 3)))
      (Fin.ext (by show o + (r.val - 448) = 448 * (n.val / 896) + (n.val % 896 - 448); omega))

/-- The row that multiplies z, as the host prefix builds it, is the placed row. -/
theorem placedZ_apply (a : Args)
    (htf : (⟨2, ![1344, 3]⟩ : Shape).Transposes [1, 0] ⟨2, ![3, 1344]⟩)
    (hs₂ : (⟨2, ![3, 1344]⟩ : Shape).Slices ![2, 0] ⟨2, ![1, 1344]⟩)
    (hsA : (⟨2, ![1, 1344]⟩ : Shape).Slices ![0, 0] ⟨2, ![1, 448]⟩)
    (hsB : (⟨2, ![1, 1344]⟩ : Shape).Slices ![0, 448] ⟨2, ![1, 448]⟩)
    (hsC : (⟨2, ![1, 1344]⟩ : Shape).Slices ![0, 896] ⟨2, ![1, 448]⟩)
    (hb : (⟨0, ![]⟩ : Shape).BroadcastsInDim ⟨2, ![1, 448]⟩ (![] : Fin 0 → Fin 2))
    (hc : Shape.Concatenates [(⟨2, ![1, 448]⟩ : Shape), ⟨2, ![1, 448]⟩] ⟨2, ![1, 896]⟩ 1)
    (hc₃ : Shape.Concatenates [(⟨2, ![1, 896]⟩ : Shape), ⟨2, ![1, 896]⟩, ⟨2, ![1, 896]⟩] ⟨2, ![1, 2688]⟩ 1)
    (n : Fin 2688) :
    concatenate ⟨2, ![1, 2688]⟩ 1
      [⟨⟨2, ![1, 896]⟩, concatenate ⟨2, ![1, 896]⟩ 1
        [⟨⟨2, ![1, 448]⟩, broadcastInDim ⟨2, ![1, 448]⟩ ![] hb (constant (F := Ideal) ⟨0, ![]⟩ .f32 0x00000000#32)⟩,
         ⟨⟨2, ![1, 448]⟩, extractStridedSlice ⟨2, ![1, 448]⟩ ![0, 0]
            (extractStridedSlice ⟨2, ![1, 1344]⟩ ![2, 0] (transpose ⟨2, ![3, 1344]⟩ [1, 0] a.If htf) hs₂) hsA⟩] hc⟩,
       ⟨⟨2, ![1, 896]⟩, concatenate ⟨2, ![1, 896]⟩ 1
        [⟨⟨2, ![1, 448]⟩, broadcastInDim ⟨2, ![1, 448]⟩ ![] hb (constant (F := Ideal) ⟨0, ![]⟩ .f32 0x00000000#32)⟩,
         ⟨⟨2, ![1, 448]⟩, extractStridedSlice ⟨2, ![1, 448]⟩ ![0, 448]
            (extractStridedSlice ⟨2, ![1, 1344]⟩ ![2, 0] (transpose ⟨2, ![3, 1344]⟩ [1, 0] a.If htf) hs₂) hsB⟩] hc⟩,
       ⟨⟨2, ![1, 896]⟩, concatenate ⟨2, ![1, 896]⟩ 1
        [⟨⟨2, ![1, 448]⟩, broadcastInDim ⟨2, ![1, 448]⟩ ![] hb (constant (F := Ideal) ⟨0, ![]⟩ .f32 0x00000000#32)⟩,
         ⟨⟨2, ![1, 448]⟩, extractStridedSlice ⟨2, ![1, 448]⟩ ![0, 896]
            (extractStridedSlice ⟨2, ![1, 1344]⟩ ![2, 0] (transpose ⟨2, ![3, 1344]⟩ [1, 0] a.If htf) hs₂) hsC⟩] hc⟩] hc₃ (ix2 0 n)
      = placedZ a n := by
  have hn := n.isLt
  rw [three_beside_apply]
  by_cases h0 : n.val < 896
  · rw [dif_pos h0]
    exact z_stretch_apply a 0 (by omega) htf hs₂ hsA hb hc n ⟨n.val, h0⟩ (by omega) (by show n.val = n.val % 896; omega)
  · rw [dif_neg h0]
    by_cases h1 : n.val < 1792
    · rw [dif_pos h1]
      exact z_stretch_apply a 448 (by omega) htf hs₂ hsB hb hc n ⟨n.val - 896, by omega⟩ (by omega)
        (by show n.val - 896 = n.val % 896; omega)
    · rw [dif_neg h1]
      exact z_stretch_apply a 896 (by omega) htf hs₂ hsC hb hc n ⟨n.val - 1792, by omega⟩ (by omega)
        (by show n.val - 1792 = n.val % 896; omega)

end Cert.Cell.Placed

end
-- ==== Proof.PlacedNary.lean ====
/-
  The result of a host operation with three operands, with each operand's contents at its own buffer.

  An operation that reads a literal family of three buffers and writes one leaves, at the buffer it writes, its
  function applied to the three operands' contents. Stated with the contents listed one by one, each at its own
  literal buffer, the operands' own contents can in turn be computed from the operations before.
-/
import Idealize.ShloMosaic.Lib.StableHlo.Run

noncomputable section

namespace Cert.Cell.Placed

open Idealize.ShloMosaic Idealize.ShloMosaic.StableHlo

variable {τ : Topo} {sig : RefSig} {Val : EltTy → Type}

/-- A three-operand operation's result at its own result buffer: its function at the three operands' contents. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Computes what a literal buffer holds after a literal list of host operations: each operation's result at its own
    result buffer is its function's value, at any other buffer what was there; three-operand operations by the
    lemma above, so that the computation goes on through their operands. -/
macro "host_results" : tactic =>
  `(tactic| (simp only [after_cons, after_nil]
             repeat (first
               | rw [nary3_result]
               | rw [nullary_result] | rw [unary_result] | rw [binary_result]
               | (rw [nullary_result_ne]; rotate_left; decide)
               | (rw [unary_result_ne]; rotate_left; decide)
               | (rw [binary_result_ne]; rotate_left; decide)
               | (rw [nary_result_ne]; rotate_left; decide))))

end Cert.Cell.Placed

end
-- ==== Proof.PlacedRecurrent.lean ====
/-
  The fused recurrent array as the kernel's windows find it.

  Before its one call the program transposes the three recurrent matrices, lays the transposes side by side in one
  [896, 2688] array, narrows it to the shorter float format, and forms the narrowed difference between the array
  and its narrowing widened back. On extended reals a change of format is the identity: the first array at (k, n) is
  the specification's fused array — in column stretch g, matrix g at (n − 896 g, k) — and the second is that entry
  minus itself.
-/
import proofs.«145113_j80083960201384_2_alg».proof.Proof.PlacedArgs
import proofs.«145113_j80083960201384_2_alg».proof.Proof.PlacedRead
import proofs.«145113_j80083960201384_2_alg».proof.Proof.PlacedNary

set_option maxRecDepth 16384

noncomputable section

namespace Cert.Cell.Placed

open Idealize.ShloMosaic Idealize.ShloMosaic.TcCoe Idealize.ShloMosaic.ValueIdx Idealize.ShloMosaic.StableHlo
open Idealize.SL.Sem
open Cert.KernelIdeal Cert.KernelIdeal.Gen

variable (m : (ℓ : Loc nD τ sig) → Buf (Elt Ideal) ℓ) (c : Dev nD)

/-- The array main_v4, as the host operations compute it: the three transposes side by side, in the narrower format. -/
theorem v4_term : @Eq (S896x2688.Idx → EReal) (V m c main_v4)
    (truncf .bf16 (concatenate S896x2688 1
      [⟨S896x896, transpose S896x896 [1, 0] ((argsOf m c).Wu : FVec Ideal S896x896 .f32) transposes_S896x896_S896x896_1_0⟩,
       ⟨S896x896, transpose S896x896 [1, 0] ((argsOf m c).Wr : FVec Ideal S896x896 .f32) transposes_S896x896_S896x896_1_0⟩,
       ⟨S896x896, transpose S896x896 [1, 0] ((argsOf m c).We : FVec Ideal S896x896 .f32) transposes_S896x896_S896x896_1_0⟩]
      concatenates_S896x896_S896x896_S896x896_S896x2688_d1 : FVec Ideal S896x2688 .f32) bitsLt_bf16_f32 : FVec Ideal S896x2688 .bf16) := by
  dsimp only [Cert.KernelIdeal.Gen.V, Cert.KernelIdeal.Gen.hostOps0]
  simp only [List.flatten_cons, List.flatten_nil, List.append_nil]
  host_results
  rfl

/-- main_v4 at (k, n) is the fused recurrent array at (k, n). -/
theorem v4_apply (k : Fin 896) (n : Fin 2688) :
    (V m c main_v4 : S896x2688.Idx → EReal) (ix2 k n) = Cert.Cell.fusedR (argsOf m c) k n :=
  (congrFun (v4_term m c) (ix2 k n)).trans
    (fused_apply (argsOf m c) transposes_S896x896_S896x896_1_0 concatenates_S896x896_S896x896_S896x896_S896x2688_d1 k n)

/-- The array main_v7, as the host operations compute it: the three transposes side by side minus their own narrowing
    widened back, in the narrower format. -/
theorem v7_term : @Eq (S896x2688.Idx → EReal) (V m c main_v7)
    (truncf .bf16 (subf (concatenate S896x2688 1
      [⟨S896x896, transpose S896x896 [1, 0] ((argsOf m c).Wu : FVec Ideal S896x896 .f32) transposes_S896x896_S896x896_1_0⟩,
       ⟨S896x896, transpose S896x896 [1, 0] ((argsOf m c).Wr : FVec Ideal S896x896 .f32) transposes_S896x896_S896x896_1_0⟩,
       ⟨S896x896, transpose S896x896 [1, 0] ((argsOf m c).We : FVec Ideal S896x896 .f32) transposes_S896x896_S896x896_1_0⟩]
      concatenates_S896x896_S896x896_S896x896_S896x2688_d1 : FVec Ideal S896x2688 .f32)
      (extf .f32 (truncf .bf16 (concatenate S896x2688 1
      [⟨S896x896, transpose S896x896 [1, 0] ((argsOf m c).Wu : FVec Ideal S896x896 .f32) transposes_S896x896_S896x896_1_0⟩,
       ⟨S896x896, transpose S896x896 [1, 0] ((argsOf m c).Wr : FVec Ideal S896x896 .f32) transposes_S896x896_S896x896_1_0⟩,
       ⟨S896x896, transpose S896x896 [1, 0] ((argsOf m c).We : FVec Ideal S896x896 .f32) transposes_S896x896_S896x896_1_0⟩]
      concatenates_S896x896_S896x896_S896x896_S896x2688_d1 : FVec Ideal S896x2688 .f32) bitsLt_bf16_f32 : FVec Ideal S896x2688 .bf16) bitsLt_bf16_f32 : FVec Ideal S896x2688 .f32))
      bitsLt_bf16_f32 : FVec Ideal S896x2688 .bf16) := by
  dsimp only [Cert.KernelIdeal.Gen.V, Cert.KernelIdeal.Gen.hostOps0]
  simp only [List.flatten_cons, List.flatten_nil, List.append_nil]
  host_results
  rfl

/-- main_v7 at (k, n) is the fused recurrent array at (k, n) minus itself. -/
theorem v7_apply (k : Fin 896) (n : Fin 2688) :
    (V m c main_v7 : S896x2688.Idx → EReal) (ix2 k n)
      = Cert.Cell.fusedR (argsOf m c) k n - Cert.Cell.fusedR (argsOf m c) k n := by
  refine (congrFun (v7_term m c) (ix2 k n)).trans ((low_half_apply _ bitsLt_bf16_f32 (ix2 k n)).trans ?_)
  have h := fused_apply (argsOf m c) transposes_S896x896_S896x896_1_0 concatenates_S896x896_S896x896_S896x896_S896x2688_d1 k n
  exact congrArg₂ (fun x y : EReal => x - y) h h

end Cert.Cell.Placed

end
-- ==== Proof.PlacedInputs.lean ====
/-
  The placed input projections as the kernel's windows find them.

  Before its one call the program transposes the coarse projection [1344, 2] and the fine projection [1344, 3], cuts
  each transposed row block into three stretches of 448 columns, and interleaves them: stretch g of the [2, 2688]
  array is 448 columns of the coarse projection followed by 448 columns of the first two rows of the fine one; stretch
  g of the [1, 2688] row is 448 zeros followed by 448 columns of the fine projection's third row. Read at an index,
  these are the specification's placed arrays.
-/
import proofs.«145113_j80083960201384_2_alg».proof.Proof.PlacedArgs
import proofs.«145113_j80083960201384_2_alg».proof.Proof.PlacedRead
import proofs.«145113_j80083960201384_2_alg».proof.Proof.PlacedNary

set_option maxRecDepth 16384

noncomputable section

namespace Cert.Cell.Placed

open Idealize.ShloMosaic Idealize.ShloMosaic.TcCoe Idealize.ShloMosaic.ValueIdx Idealize.ShloMosaic.StableHlo
open Idealize.SL.Sem
open Cert.KernelIdeal Cert.KernelIdeal.Gen

variable (m : (ℓ : Loc nD τ sig) → Buf (Elt Ideal) ℓ) (c : Dev nD)

set_option maxHeartbeats 2000000 in
/-- The array main_v24, as the host operations compute it. -/
theorem v24_term : @Eq (S2x2688.Idx → EReal) (V m c main_v24)
    (concatenate S2x2688 1
      [⟨S2x896, (concatenate S2x896 1
        [⟨S2x448, extractStridedSlice S2x448 ![0, 0] (transpose S2x1344 [1, 0] ((argsOf m c).Ic : FVec Ideal S1344x2 .f32) transposes_S1344x2_S2x1344_1_0) slices_S2x1344_S2x448_0_0⟩,
         ⟨S2x448, extractStridedSlice S2x448 ![0, 0]
            (extractStridedSlice S2x1344 ![0, 0] (transpose S3x1344 [1, 0] ((argsOf m c).If : FVec Ideal S1344x3 .f32) transposes_S1344x3_S3x1344_1_0) slices_S3x1344_S2x1344_0_0) slices_S2x1344_S2x448_0_0⟩]
        concatenates_S2x448_S2x448_S2x896_d1)⟩,
       ⟨S2x896, (concatenate S2x896 1
        [⟨S2x448, extractStridedSlice S2x448 ![0, 448] (transpose S2x1344 [1, 0] ((argsOf m c).Ic : FVec Ideal S1344x2 .f32) transposes_S1344x2_S2x1344_1_0) slices_S2x1344_S2x448_0_448⟩,
         ⟨S2x448, extractStridedSlice S2x448 ![0, 448]
            (extractStridedSlice S2x1344 ![0, 0] (transpose S3x1344 [1, 0] ((argsOf m c).If : FVec Ideal S1344x3 .f32) transposes_S1344x3_S3x1344_1_0) slices_S3x1344_S2x1344_0_0) slices_S2x1344_S2x448_0_448⟩]
        concatenates_S2x448_S2x448_S2x896_d1)⟩,
       ⟨S2x896, (concatenate S2x896 1
        [⟨S2x448, extractStridedSlice S2x448 ![0, 896] (transpose S2x1344 [1, 0] ((argsOf m c).Ic : FVec Ideal S1344x2 .f32) transposes_S1344x2_S2x1344_1_0) slices_S2x1344_S2x448_0_896⟩,
         ⟨S2x448, extractStridedSlice S2x448 ![0, 896]
            (extractStridedSlice S2x1344 ![0, 0] (transpose S3x1344 [1, 0] ((argsOf m c).If : FVec Ideal S1344x3 .f32) transposes_S1344x3_S3x1344_1_0) slices_S3x1344_S2x1344_0_0) slices_S2x1344_S2x448_0_896⟩]
        concatenates_S2x448_S2x448_S2x896_d1)⟩]
      concatenates_S2x896_S2x896_S2x896_S2x2688_d1 : FVec Ideal S2x2688 .f32) := by
  dsimp only [Cert.KernelIdeal.Gen.V, Cert.KernelIdeal.Gen.hostOps0]
  simp only [List.flatten_cons, List.flatten_nil, List.append_nil]
  host_results
  rfl

/-- main_v24 at (k, n) is the placed array of the rows that multiply y. -/
theorem v24_apply (k : Fin 2) (n : Fin 2688) :
    (V m c main_v24 : S2x2688.Idx → EReal) (ix2 k n) = Cert.Cell.placedY (argsOf m c) k n :=
  (congrFun (v24_term m c) (ix2 k n)).trans
    (placedY_apply (argsOf m c) transposes_S1344x2_S2x1344_1_0 transposes_S1344x3_S3x1344_1_0 slices_S3x1344_S2x1344_0_0
      slices_S2x1344_S2x448_0_0 slices_S2x1344_S2x448_0_448 slices_S2x1344_S2x448_0_896
      concatenates_S2x448_S2x448_S2x896_d1 concatenates_S2x896_S2x896_S2x896_S2x2688_d1 k n)

set_option maxHeartbeats 2000000 in
/-- The array main_v29, as the host operations compute it. -/
theorem v29_term : @Eq (S1x2688.Idx → EReal) (V m c main_v29)
    (concatenate S1x2688 1
      [⟨S1x896, (concatenate S1x896 1
        [⟨S1x448, broadcastInDim S1x448 ![] bcast_S_S1x448 (constant (F := Ideal) S_ .f32 0x00000000#32)⟩,
         ⟨S1x448, extractStridedSlice S1x448 ![0, 0]
            (extractStridedSlice S1x1344 ![2, 0] (transpose S3x1344 [1, 0] ((argsOf m c).If : FVec Ideal S1344x3 .f32) transposes_S1344x3_S3x1344_1_0) slices_S3x1344_S1x1344_2_0) slices_S1x1344_S1x448_0_0⟩]
        concatenates_S1x448_S1x448_S1x896_d1)⟩,
       ⟨S1x896, (concatenate S1x896 1
        [⟨S1x448, broadcastInDim S1x448 ![] bcast_S_S1x448 (constant (F := Ideal) S_ .f32 0x00000000#32)⟩,
         ⟨S1x448, extractStridedSlice S1x448 ![0, 448]
            (extractStridedSlice S1x1344 ![2, 0] (transpose S3x1344 [1, 0] ((argsOf m c).If : FVec Ideal S1344x3 .f32) transposes_S1344x3_S3x1344_1_0) slices_S3x1344_S1x1344_2_0) slices_S1x1344_S1x448_0_448⟩]
        concatenates_S1x448_S1x448_S1x896_d1)⟩,
       ⟨S1x896, (concatenate S1x896 1
        [⟨S1x448, broadcastInDim S1x448 ![] bcast_S_S1x448 (constant (F := Ideal) S_ .f32 0x00000000#32)⟩,
         ⟨S1x448, extractStridedSlice S1x448 ![0, 896]
            (extractStridedSlice S1x1344 ![2, 0] (transpose S3x1344 [1, 0] ((argsOf m c).If : FVec Ideal S1344x3 .f32) transposes_S1344x3_S3x1344_1_0) slices_S3x1344_S1x1344_2_0) slices_S1x1344_S1x448_0_896⟩]
        concatenates_S1x448_S1x448_S1x896_d1)⟩]
      concatenates_S1x896_S1x896_S1x896_S1x2688_d1 : FVec Ideal S1x2688 .f32) := by
  dsimp only [Cert.KernelIdeal.Gen.V, Cert.KernelIdeal.Gen.hostOps0]
  simp only [List.flatten_cons, List.flatten_nil, List.append_nil]
  host_results
  rfl

/-- main_v29 at (0, n) is the placed row that multiplies z. -/
theorem v29_apply (n : Fin 2688) :
    (V m c main_v29 : S1x2688.Idx → EReal) (ix2 0 n) = Cert.Cell.placedZ (argsOf m c) n :=
  (congrFun (v29_term m c) (ix2 0 n)).trans
    (placedZ_apply (argsOf m c) transposes_S1344x3_S3x1344_1_0 slices_S3x1344_S1x1344_2_0
      slices_S1x1344_S1x448_0_0 slices_S1x1344_S1x448_0_448 slices_S1x1344_S1x448_0_896 bcast_S_S1x448
      concatenates_S1x448_S1x448_S1x896_d1 concatenates_S1x896_S1x896_S1x896_S1x2688_d1 n)

end Cert.Cell.Placed

end
-- ==== Proof.PlacedOutputs.lean ====
/-
  The four output matrices as the kernel's windows find them.

  Before its one call the program transposes each output matrix, narrows the transpose to the shorter float format,
  and forms the narrowed difference between the transpose and its narrowing widened back. On extended reals a change
  of format is the identity, so the first array at (k, n) is the given matrix at (n, k), and the second is that entry
  minus itself. Each array is first identified with the term its host operations compute from the argument, then
  read at an index.
-/
import proofs.«145113_j80083960201384_2_alg».proof.Proof.PlacedArgs
import proofs.«145113_j80083960201384_2_alg».proof.Proof.PlacedRead

set_option maxRecDepth 16384

noncomputable section

namespace Cert.Cell.Placed

open Idealize.ShloMosaic Idealize.ShloMosaic.TcCoe Idealize.ShloMosaic.ValueIdx Idealize.ShloMosaic.StableHlo
open Idealize.SL.Sem
open Cert.KernelIdeal Cert.KernelIdeal.Gen

variable (m : (ℓ : Loc nD τ sig) → Buf (Elt Ideal) ℓ) (c : Dev nD)

/-- The array main_v31, as the host operations compute it: the transposed O1 in the narrower format. -/
theorem v31_term : @Eq (S448x448.Idx → EReal) (V m c main_v31)
    (truncf .bf16 (transpose S448x448 [1, 0] ((argsOf m c).O1 : FVec Ideal S448x448 .f32) transposes_S448x448_S448x448_1_0 : FVec Ideal S448x448 .f32) bitsLt_bf16_f32 : FVec Ideal S448x448 .bf16) := by
  dsimp only [Cert.KernelIdeal.Gen.V, Cert.KernelIdeal.Gen.hostOps0]
  simp only [List.flatten_cons, List.flatten_nil, List.append_nil]
  after_results
  rfl

/-- main_v31 at (k, n) is O1 at (n, k). -/
theorem v31_apply (k : Fin 448) (n : Fin 448) :
    (V m c main_v31 : S448x448.Idx → EReal) (ix2 k n) = (argsOf m c).O1 (ix2 n k) :=
  (congrFun (v31_term m c) (ix2 k n)).trans
    (truncf_transpose_apply ((argsOf m c).O1) transposes_S448x448_S448x448_1_0 bitsLt_bf16_f32 k n)

/-- The array main_v34, as the host operations compute it: the transposed O1 minus its own narrowing widened
    back, in the narrower format. -/
theorem v34_term : @Eq (S448x448.Idx → EReal) (V m c main_v34)
    (truncf .bf16 (subf (transpose S448x448 [1, 0] ((argsOf m c).O1 : FVec Ideal S448x448 .f32) transposes_S448x448_S448x448_1_0 : FVec Ideal S448x448 .f32)
      (extf .f32 (truncf .bf16 (transpose S448x448 [1, 0] ((argsOf m c).O1 : FVec Ideal S448x448 .f32) transposes_S448x448_S448x448_1_0 : FVec Ideal S448x448 .f32) bitsLt_bf16_f32 : FVec Ideal S448x448 .bf16) bitsLt_bf16_f32 : FVec Ideal S448x448 .f32))
      bitsLt_bf16_f32 : FVec Ideal S448x448 .bf16) := by
  dsimp only [Cert.KernelIdeal.Gen.V, Cert.KernelIdeal.Gen.hostOps0]
  simp only [List.flatten_cons, List.flatten_nil, List.append_nil]
  after_results
  rfl

/-- main_v34 at (k, n) is O1 at (n, k) minus itself. -/
theorem v34_apply (k : Fin 448) (n : Fin 448) :
    (V m c main_v34 : S448x448.Idx → EReal) (ix2 k n)
      = (argsOf m c).O1 (ix2 n k) - (argsOf m c).O1 (ix2 n k) := by
  refine (congrFun (v34_term m c) (ix2 k n)).trans ((low_half_apply _ bitsLt_bf16_f32 (ix2 k n)).trans ?_)
  rw [transpose_swap_apply 448 448 ((argsOf m c).O1) transposes_S448x448_S448x448_1_0 k n]

/-- The array main_v36, as the host operations compute it: the transposed O2 in the narrower format. -/
theorem v36_term : @Eq (S448x256.Idx → EReal) (V m c main_v36)
    (truncf .bf16 (transpose S448x256 [1, 0] ((argsOf m c).O2 : FVec Ideal S256x448 .f32) transposes_S256x448_S448x256_1_0 : FVec Ideal S448x256 .f32) bitsLt_bf16_f32 : FVec Ideal S448x256 .bf16) := by
  dsimp only [Cert.KernelIdeal.Gen.V, Cert.KernelIdeal.Gen.hostOps0]
  simp only [List.flatten_cons, List.flatten_nil, List.append_nil]
  after_results
  rfl

/-- main_v36 at (k, q) is O2 at (q, k). -/
theorem v36_apply (k : Fin 448) (q : Fin 256) :
    (V m c main_v36 : S448x256.Idx → EReal) (ix2 k q) = (argsOf m c).O2 (ix2 q k) :=
  (congrFun (v36_term m c) (ix2 k q)).trans
    (truncf_transpose_apply ((argsOf m c).O2) transposes_S256x448_S448x256_1_0 bitsLt_bf16_f32 k q)

/-- The array main_v39, as the host operations compute it: the transposed O2 minus its own narrowing widened
    back, in the narrower format. -/
theorem v39_term : @Eq (S448x256.Idx → EReal) (V m c main_v39)
    (truncf .bf16 (subf (transpose S448x256 [1, 0] ((argsOf m c).O2 : FVec Ideal S256x448 .f32) transposes_S256x448_S448x256_1_0 : FVec Ideal S448x256 .f32)
      (extf .f32 (truncf .bf16 (transpose S448x256 [1, 0] ((argsOf m c).O2 : FVec Ideal S256x448 .f32) transposes_S256x448_S448x256_1_0 : FVec Ideal S448x256 .f32) bitsLt_bf16_f32 : FVec Ideal S448x256 .bf16) bitsLt_bf16_f32 : FVec Ideal S448x256 .f32))
      bitsLt_bf16_f32 : FVec Ideal S448x256 .bf16) := by
  dsimp only [Cert.KernelIdeal.Gen.V, Cert.KernelIdeal.Gen.hostOps0]
  simp only [List.flatten_cons, List.flatten_nil, List.append_nil]
  after_results
  rfl

/-- main_v39 at (k, q) is O2 at (q, k) minus itself. -/
theorem v39_apply (k : Fin 448) (q : Fin 256) :
    (V m c main_v39 : S448x256.Idx → EReal) (ix2 k q)
      = (argsOf m c).O2 (ix2 q k) - (argsOf m c).O2 (ix2 q k) := by
  refine (congrFun (v39_term m c) (ix2 k q)).trans ((low_half_apply _ bitsLt_bf16_f32 (ix2 k q)).trans ?_)
  rw [transpose_swap_apply 256 448 ((argsOf m c).O2) transposes_S256x448_S448x256_1_0 k q]

/-- The array main_v41, as the host operations compute it: the transposed O3 in the narrower format. -/
theorem v41_term : @Eq (S448x448.Idx → EReal) (V m c main_v41)
    (truncf .bf16 (transpose S448x448 [1, 0] ((argsOf m c).O3 : FVec Ideal S448x448 .f32) transposes_S448x448_S448x448_1_0 : FVec Ideal S448x448 .f32) bitsLt_bf16_f32 : FVec Ideal S448x448 .bf16) := by
  dsimp only [Cert.KernelIdeal.Gen.V, Cert.KernelIdeal.Gen.hostOps0]
  simp only [List.flatten_cons, List.flatten_nil, List.append_nil]
  after_results
  rfl

/-- main_v41 at (k, n) is O3 at (n, k). -/
theorem v41_apply (k : Fin 448) (n : Fin 448) :
    (V m c main_v41 : S448x448.Idx → EReal) (ix2 k n) = (argsOf m c).O3 (ix2 n k) :=
  (congrFun (v41_term m c) (ix2 k n)).trans
    (truncf_transpose_apply ((argsOf m c).O3) transposes_S448x448_S448x448_1_0 bitsLt_bf16_f32 k n)

/-- The array main_v44, as the host operations compute it: the transposed O3 minus its own narrowing widened
    back, in the narrower format. -/
theorem v44_term : @Eq (S448x448.Idx → EReal) (V m c main_v44)
    (truncf .bf16 (subf (transpose S448x448 [1, 0] ((argsOf m c).O3 : FVec Ideal S448x448 .f32) transposes_S448x448_S448x448_1_0 : FVec Ideal S448x448 .f32)
      (extf .f32 (truncf .bf16 (transpose S448x448 [1, 0] ((argsOf m c).O3 : FVec Ideal S448x448 .f32) transposes_S448x448_S448x448_1_0 : FVec Ideal S448x448 .f32) bitsLt_bf16_f32 : FVec Ideal S448x448 .bf16) bitsLt_bf16_f32 : FVec Ideal S448x448 .f32))
      bitsLt_bf16_f32 : FVec Ideal S448x448 .bf16) := by
  dsimp only [Cert.KernelIdeal.Gen.V, Cert.KernelIdeal.Gen.hostOps0]
  simp only [List.flatten_cons, List.flatten_nil, List.append_nil]
  after_results
  rfl

/-- main_v44 at (k, n) is O3 at (n, k) minus itself. -/
theorem v44_apply (k : Fin 448) (n : Fin 448) :
    (V m c main_v44 : S448x448.Idx → EReal) (ix2 k n)
      = (argsOf m c).O3 (ix2 n k) - (argsOf m c).O3 (ix2 n k) := by
  refine (congrFun (v44_term m c) (ix2 k n)).trans ((low_half_apply _ bitsLt_bf16_f32 (ix2 k n)).trans ?_)
  rw [transpose_swap_apply 448 448 ((argsOf m c).O3) transposes_S448x448_S448x448_1_0 k n]

/-- The array main_v46, as the host operations compute it: the transposed O4 in the narrower format. -/
theorem v46_term : @Eq (S448x256.Idx → EReal) (V m c main_v46)
    (truncf .bf16 (transpose S448x256 [1, 0] ((argsOf m c).O4 : FVec Ideal S256x448 .f32) transposes_S256x448_S448x256_1_0 : FVec Ideal S448x256 .f32) bitsLt_bf16_f32 : FVec Ideal S448x256 .bf16) := by
  dsimp only [Cert.KernelIdeal.Gen.V, Cert.KernelIdeal.Gen.hostOps0]
  simp only [List.flatten_cons, List.flatten_nil, List.append_nil]
  after_results
  rfl

/-- main_v46 at (k, q) is O4 at (q, k). -/
theorem v46_apply (k : Fin 448) (q : Fin 256) :
    (V m c main_v46 : S448x256.Idx → EReal) (ix2 k q) = (argsOf m c).O4 (ix2 q k) :=
  (congrFun (v46_term m c) (ix2 k q)).trans
    (truncf_transpose_apply ((argsOf m c).O4) transposes_S256x448_S448x256_1_0 bitsLt_bf16_f32 k q)

/-- The array main_v49, as the host operations compute it: the transposed O4 minus its own narrowing widened
    back, in the narrower format. -/
theorem v49_term : @Eq (S448x256.Idx → EReal) (V m c main_v49)
    (truncf .bf16 (subf (transpose S448x256 [1, 0] ((argsOf m c).O4 : FVec Ideal S256x448 .f32) transposes_S256x448_S448x256_1_0 : FVec Ideal S448x256 .f32)
      (extf .f32 (truncf .bf16 (transpose S448x256 [1, 0] ((argsOf m c).O4 : FVec Ideal S256x448 .f32) transposes_S256x448_S448x256_1_0 : FVec Ideal S448x256 .f32) bitsLt_bf16_f32 : FVec Ideal S448x256 .bf16) bitsLt_bf16_f32 : FVec Ideal S448x256 .f32))
      bitsLt_bf16_f32 : FVec Ideal S448x256 .bf16) := by
  dsimp only [Cert.KernelIdeal.Gen.V, Cert.KernelIdeal.Gen.hostOps0]
  simp only [List.flatten_cons, List.flatten_nil, List.append_nil]
  after_results
  rfl

/-- main_v49 at (k, q) is O4 at (q, k) minus itself. -/
theorem v49_apply (k : Fin 448) (q : Fin 256) :
    (V m c main_v49 : S448x256.Idx → EReal) (ix2 k q)
      = (argsOf m c).O4 (ix2 q k) - (argsOf m c).O4 (ix2 q k) := by
  refine (congrFun (v49_term m c) (ix2 k q)).trans ((low_half_apply _ bitsLt_bf16_f32 (ix2 k q)).trans ?_)
  rw [transpose_swap_apply 256 448 ((argsOf m c).O4) transposes_S256x448_S448x256_1_0 k q]

end Cert.Cell.Placed

end
-- ==== Proof.IdealBlocks.lean ====
/-
  Each window's block at a grid point, read at an index in terms of the argument arrays.

  The grid has sixteen points; point t takes rows 512 t … 512 t + 511. The three row-blocked inputs (y, h, z) and the
  three results move with the point: entry (p, k) of the block at t is entry (512 t + p, k) of the array. Every other
  window's block is its whole array at every point (block index zero on every axis), and those arrays are either
  arguments no host operation writes, or the placed weight arrays the host prefix builds, read entry by entry
  through the host prefix's operations.
-/
import proofs.«145113_j80083960201384_2_alg».proof.Proof.IdealRun
import proofs.«145113_j80083960201384_2_alg».proof.Proof.PlacedRecurrent
import proofs.«145113_j80083960201384_2_alg».proof.Proof.PlacedInputs
import proofs.«145113_j80083960201384_2_alg».proof.Proof.PlacedOutputs

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Cell.Placed

variable (m : (ℓ : Loc nD τ sig) → Buf (Elt Ideal) ℓ)

/-- The block indices of the row-blocked windows, decided over the grid: the point's number on the row axis, zero on
    the column axis. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_22.index t (0 : Fin 2) = t.val ∧ win0_22.index t (1 : Fin 2) = 0
    ∧ win0_23.index t (0 : Fin 2) = t.val ∧ win0_23.index t (1 : Fin 2) = 0
    ∧ win0_24.index t (0 : Fin 2) = t.val ∧ win0_24.index t (1 : Fin 2) = 0 :=
  (by decide +kernel : ∀ t : Fin grid0.N, _)

/-- The block indices of the whole-array matrix windows are zero. -/
theorem idx_mats : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_16.index t (0 : Fin 2) = 0 ∧ win0_16.index t (1 : Fin 2) = 0
    ∧ win0_17.index t (0 : Fin 2) = 0 ∧ win0_17.index t (1 : Fin 2) = 0
    ∧ win0_19.index t (0 : Fin 2) = 0 ∧ win0_19.index t (1 : Fin 2) = 0
    ∧ win0_20.index t (0 : Fin 2) = 0 ∧ win0_20.index t (1 : Fin 2) = 0 :=
  (by decide +kernel : ∀ t : Fin grid0.N, _)

/-- The block indices of the whole-array vector windows are zero. -/
theorem idx_vecs : ∀ t : Fin cfg0.N,
    win0_7.index t (0 : Fin 1) = 0 ∧ win0_8.index t (0 : Fin 1) = 0 ∧ win0_9.index t (0 : Fin 1) = 0 ∧ win0_12.index t (0 : Fin 1) = 0 ∧ win0_15.index t (0 : Fin 1) = 0 ∧ win0_18.index t (0 : Fin 1) = 0 ∧ win0_21.index t (0 : Fin 1) = 0 :=
  (by decide +kernel : ∀ t : Fin grid0.N, _)

/-- Entry (p, k) of window 0's block at point t is entry (512 t + p, k) of the argument. -/
theorem blk0 (c : Dev nD) (t : Fin cfg0.N) (p : Fin 512) (k : Fin 2) (b : Fin 8192) (hb : b.val = 512 * t.val + p.val) :
    iblk m c 0 t (ix2 p k) = (argsOf m c).y (ix2 b k) := by
  obtain ⟨e0, e1, -⟩ := idx_rows t
  refine Eq.trans ?_ (congrFun (V_main_arg0 m c) (ix2 b k))
  show V m c main_arg0 (((cfg0.win 0).blk t).view.emb (ix2 p k)) = V m c main_arg0 (ix2 b k)
  refine congrArg _ (funext fun a => Fin.ext ?_)
  match a with
  | ⟨0, _⟩ => show win0_0.index t (0 : Fin 2) * 512 + 1 * p.val = b.val; omega
  | ⟨1, _⟩ => show win0_0.index t (1 : Fin 2) * 2 + 1 * k.val = k.val; omega

/-- Entry (p, k) of window 1's block at point t is entry (512 t + p, k) of the argument. -/
theorem blk1 (c : Dev nD) (t : Fin cfg0.N) (p : Fin 512) (k : Fin 896) (b : Fin 8192) (hb : b.val = 512 * t.val + p.val) :
    iblk m c 1 t (ix2 p k) = (argsOf m c).h (ix2 b k) := by
  obtain ⟨-, -, e0, e1, -⟩ := idx_rows t
  refine Eq.trans ?_ (congrFun (V_main_arg1 m c) (ix2 b k))
  show V m c main_arg1 (((cfg0.win 1).blk t).view.emb (ix2 p k)) = V m c main_arg1 (ix2 b k)
  refine congrArg _ (funext fun a => Fin.ext ?_)
  match a with
  | ⟨0, _⟩ => show win0_1.index t (0 : Fin 2) * 512 + 1 * p.val = b.val; omega
  | ⟨1, _⟩ => show win0_1.index t (1 : Fin 2) * 896 + 1 * k.val = k.val; omega

/-- Entry (p, k) of window 2's block at point t is entry (512 t + p, k) of the argument. -/
theorem blk2 (c : Dev nD) (t : Fin cfg0.N) (p : Fin 512) (k : Fin 1) (b : Fin 8192) (hb : b.val = 512 * t.val + p.val) :
    iblk m c 2 t (ix2 p k) = (argsOf m c).z (ix2 b k) := by
  obtain ⟨-, -, -, -, e0, e1, -⟩ := idx_rows t
  refine Eq.trans ?_ (congrFun (V_main_arg2 m c) (ix2 b k))
  show V m c main_arg2 (((cfg0.win 2).blk t).view.emb (ix2 p k)) = V m c main_arg2 (ix2 b k)
  refine congrArg _ (funext fun a => Fin.ext ?_)
  match a with
  | ⟨0, _⟩ => show win0_2.index t (0 : Fin 2) * 512 + 1 * p.val = b.val; omega
  | ⟨1, _⟩ => show win0_2.index t (1 : Fin 2) * 1 + 1 * k.val = k.val; omega

/-- Window 3's block is its whole array at every point. -/
theorem blk3 (c : Dev nD) (t : Fin cfg0.N) (k : Fin 896) (n : Fin 2688) :
    iblk m c 3 t (ix2 k n) = Cert.Cell.fusedR (argsOf m c) k n := by
  obtain ⟨e0, e1, -⟩ := idx_mats t
  refine Eq.trans ?_ (v4_apply m c k n)
  show V m c main_v4 (((cfg0.win 3).blk t).view.emb (ix2 k n)) = V m c main_v4 (ix2 k n)
  refine congrArg _ (funext fun a => Fin.ext ?_)
  match a with
  | ⟨0, _⟩ => show win0_3.index t (0 : Fin 2) * 896 + 1 * k.val = k.val; omega
  | ⟨1, _⟩ => show win0_3.index t (1 : Fin 2) * 2688 + 1 * n.val = n.val; omega

/-- Window 4's block is its whole array at every point. -/
theorem blk4 (c : Dev nD) (t : Fin cfg0.N) (k : Fin 896) (n : Fin 2688) :
    iblk m c 4 t (ix2 k n) = Cert.Cell.fusedR (argsOf m c) k n - Cert.Cell.fusedR (argsOf m c) k n := by
  obtain ⟨-, -, e0, e1, -⟩ := idx_mats t
  refine Eq.trans ?_ (v7_apply m c k n)
  show V m c main_v7 (((cfg0.win 4).blk t).view.emb (ix2 k n)) = V m c main_v7 (ix2 k n)
  refine congrArg _ (funext fun a => Fin.ext ?_)
  match a with
  | ⟨0, _⟩ => show win0_4.index t (0 : Fin 2) * 896 + 1 * k.val = k.val; omega
  | ⟨1, _⟩ => show win0_4.index t (1 : Fin 2) * 2688 + 1 * n.val = n.val; omega

/-- Window 5's block is its whole array at every point. -/
theorem blk5 (c : Dev nD) (t : Fin cfg0.N) (k : Fin 2) (n : Fin 2688) :
    iblk m c 5 t (ix2 k n) = Cert.Cell.placedY (argsOf m c) k n := by
  obtain ⟨-, -, -, -, e0, e1, -⟩ := idx_mats t
  refine Eq.trans ?_ (v24_apply m c k n)
  show V m c main_v24 (((cfg0.win 5).blk t).view.emb (ix2 k n)) = V m c main_v24 (ix2 k n)
  refine congrArg _ (funext fun a => Fin.ext ?_)
  match a with
  | ⟨0, _⟩ => show win0_5.index t (0 : Fin 2) * 2 + 1 * k.val = k.val; omega
  | ⟨1, _⟩ => show win0_5.index t (1 : Fin 2) * 2688 + 1 * n.val = n.val; omega

/-- Window 10's block is its whole array at every point. -/
theorem blk10 (c : Dev nD) (t : Fin cfg0.N) (k : Fin 448) (n : Fin 448) :
    iblk m c 10 t (ix2 k n) = (argsOf m c).O1 (ix2 n k) := by
  obtain ⟨-, -, -, -, -, -, -, -, e0, e1, -⟩ := idx_mats t
  refine Eq.trans ?_ (v31_apply m c k n)
  show V m c main_v31 (((cfg0.win 10).blk t).view.emb (ix2 k n)) = V m c main_v31 (ix2 k n)
  refine congrArg _ (funext fun a => Fin.ext ?_)
  match a with
  | ⟨0, _⟩ => show win0_10.index t (0 : Fin 2) * 448 + 1 * k.val = k.val; omega
  | ⟨1, _⟩ => show win0_10.index t (1 : Fin 2) * 448 + 1 * n.val = n.val; omega

/-- Window 11's block is its whole array at every point. -/
theorem blk11 (c : Dev nD) (t : Fin cfg0.N) (k : Fin 448) (n : Fin 448) :
    iblk m c 11 t (ix2 k n) = (argsOf m c).O1 (ix2 n k) - (argsOf m c).O1 (ix2 n k) := by
  obtain ⟨-, -, -, -, -, -, -, -, -, -, e0, e1, -⟩ := idx_mats t
  refine Eq.trans ?_ (v34_apply m c k n)
  show V m c main_v34 (((cfg0.win 11).blk t).view.emb (ix2 k n)) = V m c main_v34 (ix2 k n)
  refine congrArg _ (funext fun a => Fin.ext ?_)
  match a with
  | ⟨0, _⟩ => show win0_11.index t (0 : Fin 2) * 448 + 1 * k.val = k.val; omega
  | ⟨1, _⟩ => show win0_11.index t (1 : Fin 2) * 448 + 1 * n.val = n.val; omega

/-- Window 13's block is its whole array at every point. -/
theorem blk13 (c : Dev nD) (t : Fin cfg0.N) (k : Fin 448) (n : Fin 256) :
    iblk m c 13 t (ix2 k n) = (argsOf m c).O2 (ix2 n k) := by
  obtain ⟨-, -, -, -, -, -, -, -, -, -, -, -, e0, e1, -⟩ := idx_mats t
  refine Eq.trans ?_ (v36_apply m c k n)
  show V m c main_v36 (((cfg0.win 13).blk t).view.emb (ix2 k n)) = V m c main_v36 (ix2 k n)
  refine congrArg _ (funext fun a => Fin.ext ?_)
  match a with
  | ⟨0, _⟩ => show win0_13.index t (0 : Fin 2) * 448 + 1 * k.val = k.val; omega
  | ⟨1, _⟩ => show win0_13.index t (1 : Fin 2) * 256 + 1 * n.val = n.val; omega

/-- Window 14's block is its whole array at every point. -/
theorem blk14 (c : Dev nD) (t : Fin cfg0.N) (k : Fin 448) (n : Fin 256) :
    iblk m c 14 t (ix2 k n) = (argsOf m c).O2 (ix2 n k) - (argsOf m c).O2 (ix2 n k) := by
  obtain ⟨-, -, -, -, -, -, -, -, -, -, -, -, -, -, e0, e1, -⟩ := idx_mats t
  refine Eq.trans ?_ (v39_apply m c k n)
  show V m c main_v39 (((cfg0.win 14).blk t).view.emb (ix2 k n)) = V m c main_v39 (ix2 k n)
  refine congrArg _ (funext fun a => Fin.ext ?_)
  match a with
  | ⟨0, _⟩ => show win0_14.index t (0 : Fin 2) * 448 + 1 * k.val = k.val; omega
  | ⟨1, _⟩ => show win0_14.index t (1 : Fin 2) * 256 + 1 * n.val = n.val; omega

/-- Window 16's block is its whole array at every point. -/
theorem blk16 (c : Dev nD) (t : Fin cfg0.N) (k : Fin 448) (n : Fin 448) :
    iblk m c 16 t (ix2 k n) = (argsOf m c).O3 (ix2 n k) := by
  obtain ⟨-, -, -, -, -, -, -, -, -, -, -, -, -, -, -, -, e0, e1, -⟩ := idx_mats t
  refine Eq.trans ?_ (v41_apply m c k n)
  show V m c main_v41 (((cfg0.win 16).blk t).view.emb (ix2 k n)) = V m c main_v41 (ix2 k n)
  refine congrArg _ (funext fun a => Fin.ext ?_)
  match a with
  | ⟨0, _⟩ => show win0_16.index t (0 : Fin 2) * 448 + 1 * k.val = k.val; omega
  | ⟨1, _⟩ => show win0_16.index t (1 : Fin 2) * 448 + 1 * n.val = n.val; omega

/-- Window 17's block is its whole array at every point. -/
theorem blk17 (c : Dev nD) (t : Fin cfg0.N) (k : Fin 448) (n : Fin 448) :
    iblk m c 17 t (ix2 k n) = (argsOf m c).O3 (ix2 n k) - (argsOf m c).O3 (ix2 n k) := by
  obtain ⟨-, -, -, -, -, -, -, -, -, -, -, -, -, -, -, -, -, -, e0, e1, -⟩ := idx_mats t
  refine Eq.trans ?_ (v44_apply m c k n)
  show V m c main_v44 (((cfg0.win 17).blk t).view.emb (ix2 k n)) = V m c main_v44 (ix2 k n)
  refine congrArg _ (funext fun a => Fin.ext ?_)
  match a with
  | ⟨0, _⟩ => show win0_17.index t (0 : Fin 2) * 448 + 1 * k.val = k.val; omega
  | ⟨1, _⟩ => show win0_17.index t (1 : Fin 2) * 448 + 1 * n.val = n.val; omega

/-- Window 19's block is its whole array at every point. -/
theorem blk19 (c : Dev nD) (t : Fin cfg0.N) (k : Fin 448) (n : Fin 256) :
    iblk m c 19 t (ix2 k n) = (argsOf m c).O4 (ix2 n k) := by
  obtain ⟨-, -, -, -, -, -, -, -, -, -, -, -, -, -, -, -, -, -, -, -, e0, e1, -⟩ := idx_mats t
  refine Eq.trans ?_ (v46_apply m c k n)
  show V m c main_v46 (((cfg0.win 19).blk t).view.emb (ix2 k n)) = V m c main_v46 (ix2 k n)
  refine congrArg _ (funext fun a => Fin.ext ?_)
  match a with
  | ⟨0, _⟩ => show win0_19.index t (0 : Fin 2) * 448 + 1 * k.val = k.val; omega
  | ⟨1, _⟩ => show win0_19.index t (1 : Fin 2) * 256 + 1 * n.val = n.val; omega

/-- Window 20's block is its whole array at every point. -/
theorem blk20 (c : Dev nD) (t : Fin cfg0.N) (k : Fin 448) (n : Fin 256) :
    iblk m c 20 t (ix2 k n) = (argsOf m c).O4 (ix2 n k) - (argsOf m c).O4 (ix2 n k) := by
  obtain ⟨-, -, -, -, -, -, -, -, -, -, -, -, -, -, -, -, -, -, -, -, -, -, e0, e1⟩ := idx_mats t
  refine Eq.trans ?_ (v49_apply m c k n)
  show V m c main_v49 (((cfg0.win 20).blk t).view.emb (ix2 k n)) = V m c main_v49 (ix2 k n)
  refine congrArg _ (funext fun a => Fin.ext ?_)
  match a with
  | ⟨0, _⟩ => show win0_20.index t (0 : Fin 2) * 448 + 1 * k.val = k.val; omega
  | ⟨1, _⟩ => show win0_20.index t (1 : Fin 2) * 256 + 1 * n.val = n.val; omega

/-- Window 6's block is its whole one-row array at every point. -/
theorem blk6 (c : Dev nD) (t : Fin cfg0.N) (n : Fin 2688) :
    iblk m c 6 t (ix2 0 n) = Cert.Cell.placedZ (argsOf m c) n := by
  obtain ⟨-, -, -, -, -, -, e0, e1, -⟩ := idx_mats t
  refine Eq.trans ?_ (v29_apply m c n)
  show V m c main_v29 (((cfg0.win 6).blk t).view.emb (ix2 0 n)) = V m c main_v29 (ix2 0 n)
  refine congrArg _ (funext fun a => Fin.ext ?_)
  match a with
  | ⟨0, _⟩ => show win0_6.index t (0 : Fin 2) * 1 + 1 * (0 : Fin 1).val = (0 : Fin 1).val; omega
  | ⟨1, _⟩ => show win0_6.index t (1 : Fin 2) * 2688 + 1 * n.val = n.val; omega

/-- Window 7's block is its whole bias vector at every point. -/
theorem blk7 (c : Dev nD) (t : Fin cfg0.N) (j : Fin 896) :
    iblk m c 7 t (ix1 j) = (argsOf m c).bu (ix1 j) := by
  obtain ⟨e0, -⟩ := idx_vecs t
  refine Eq.trans ?_ (congrFun (V_main_arg16 m c) (ix1 j))
  show V m c main_arg16 (((cfg0.win 7).blk t).view.emb (ix1 j)) = V m c main_arg16 (ix1 j)
  refine congrArg _ (funext fun a => Fin.ext ?_)
  match a with
  | ⟨0, _⟩ => show win0_7.index t (0 : Fin 1) * 896 + 1 * j.val = j.val; omega

/-- Window 8's block is its whole bias vector at every point. -/
theorem blk8 (c : Dev nD) (t : Fin cfg0.N) (j : Fin 896) :
    iblk m c 8 t (ix1 j) = (argsOf m c).br (ix1 j) := by
  obtain ⟨-, e0, -⟩ := idx_vecs t
  refine Eq.trans ?_ (congrFun (V_main_arg17 m c) (ix1 j))
  show V m c main_arg17 (((cfg0.win 8).blk t).view.emb (ix1 j)) = V m c main_arg17 (ix1 j)
  refine congrArg _ (funext fun a => Fin.ext ?_)
  match a with
  | ⟨0, _⟩ => show win0_8.index t (0 : Fin 1) * 896 + 1 * j.val = j.val; omega

/-- Window 9's block is its whole bias vector at every point. -/
theorem blk9 (c : Dev nD) (t : Fin cfg0.N) (j : Fin 896) :
    iblk m c 9 t (ix1 j) = (argsOf m c).be (ix1 j) := by
  obtain ⟨-, -, e0, -⟩ := idx_vecs t
  refine Eq.trans ?_ (congrFun (V_main_arg18 m c) (ix1 j))
  show V m c main_arg18 (((cfg0.win 9).blk t).view.emb (ix1 j)) = V m c main_arg18 (ix1 j)
  refine congrArg _ (funext fun a => Fin.ext ?_)
  match a with
  | ⟨0, _⟩ => show win0_9.index t (0 : Fin 1) * 896 + 1 * j.val = j.val; omega

/-- Window 12's block is its whole bias vector at every point. -/
theorem blk12 (c : Dev nD) (t : Fin cfg0.N) (j : Fin 448) :
    iblk m c 12 t (ix1 j) = (argsOf m c).b1 (ix1 j) := by
  obtain ⟨-, -, -, e0, -⟩ := idx_vecs t
  refine Eq.trans ?_ (congrFun (V_main_arg9 m c) (ix1 j))
  show V m c main_arg9 (((cfg0.win 12).blk t).view.emb (ix1 j)) = V m c main_arg9 (ix1 j)
  refine congrArg _ (funext fun a => Fin.ext ?_)
  match a with
  | ⟨0, _⟩ => show win0_12.index t (0 : Fin 1) * 448 + 1 * j.val = j.val; omega

/-- Window 15's block is its whole bias vector at every point. -/
theorem blk15 (c : Dev nD) (t : Fin cfg0.N) (j : Fin 256) :
    iblk m c 15 t (ix1 j) = (argsOf m c).b2 (ix1 j) := by
  obtain ⟨-, -, -, -, e0, -⟩ := idx_vecs t
  refine Eq.trans ?_ (congrFun (V_main_arg11 m c) (ix1 j))
  show V m c main_arg11 (((cfg0.win 15).blk t).view.emb (ix1 j)) = V m c main_arg11 (ix1 j)
  refine congrArg _ (funext fun a => Fin.ext ?_)
  match a with
  | ⟨0, _⟩ => show win0_15.index t (0 : Fin 1) * 256 + 1 * j.val = j.val; omega

/-- Window 18's block is its whole bias vector at every point. -/
theorem blk18 (c : Dev nD) (t : Fin cfg0.N) (j : Fin 448) :
    iblk m c 18 t (ix1 j) = (argsOf m c).b3 (ix1 j) := by
  obtain ⟨-, -, -, -, -, e0, -⟩ := idx_vecs t
  refine Eq.trans ?_ (congrFun (V_main_arg13 m c) (ix1 j))
  show V m c main_arg13 (((cfg0.win 18).blk t).view.emb (ix1 j)) = V m c main_arg13 (ix1 j)
  refine congrArg _ (funext fun a => Fin.ext ?_)
  match a with
  | ⟨0, _⟩ => show win0_18.index t (0 : Fin 1) * 448 + 1 * j.val = j.val; omega

/-- Window 21's block is its whole bias vector at every point. -/
theorem blk21 (c : Dev nD) (t : Fin cfg0.N) (j : Fin 256) :
    iblk m c 21 t (ix1 j) = (argsOf m c).b4 (ix1 j) := by
  obtain ⟨-, -, -, -, -, -, e0⟩ := idx_vecs t
  refine Eq.trans ?_ (congrFun (V_main_arg15 m c) (ix1 j))
  show V m c main_arg15 (((cfg0.win 21).blk t).view.emb (ix1 j)) = V m c main_arg15 (ix1 j)
  refine congrArg _ (funext fun a => Fin.ext ?_)
  match a with
  | ⟨0, _⟩ => show win0_21.index t (0 : Fin 1) * 256 + 1 * j.val = j.val; omega

end Cert.KernelIdeal.Val

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.BlockFirst.lean ====
/-
  The kernel body's first two values, read at an index, at the ideal instance.

  The recurrent value: with v the block of hidden rows and W, W' the two halves of the split weight matrix, the body
  forms v·W + v·W' + (v − v)·W by three matrix products into zero accumulators; at (p, n) that is
  Σ_k v(p, k)·W(k, n) + Σ_k v(p, k)·W'(k, n) + Σ_k (v(p, k) − v(p, k))·W(k, n) (a format change is the identity).
  The input value: three products of a column spread over the columns with a row spread over the rows, added:
  y(p, 0)·P(0, n) + y(p, 1)·P(1, n) + z(p, 0)·Q(0, n).
-/
import proofs.«145113_j80083960201384_2_alg».proof.Proof.Gen.KernelIdeal.Skeleton
import proofs.«145113_j80083960201384_2_alg».proof.Proof.LibPlainMatmul
import proofs.«145113_j80083960201384_2_alg».proof.Proof.LibKeepdims
import Idealize.ShloMosaic.Lib.ValueLayout
import Idealize.ShloMosaic.Lib.Pipeline.Value

noncomputable section

namespace Cert.Cell.Block

open Idealize.ShloMosaic Idealize.ShloMosaic.ValueIdx Cert.KernelIdeal Cert.KernelIdeal.Gen Cert.LibKeepdims

/-- The split recurrent product at (p, n): three sums over the contracted axis. -/
theorem pay2_apply (v0 : Vec Ideal S512x896 .f32) (v7 v9 : Vec Ideal S896x2688 .bf16) (p : Fin 512) (n : Fin 2688) :
    k0_pay2 (F := Ideal) v0 v7 v9 (ix2 p n)
      = (∑ k : Fin 896, v0 (ix2 p k) * v7 (ix2 k n) + ∑ k : Fin 896, v0 (ix2 p k) * v9 (ix2 k n))
          + ∑ k : Fin 896, (v0 (ix2 p k) - v0 (ix2 p k)) * v7 (ix2 k n) := by
  unfold k0_pay2
  simp only [shapeCast_self]
  refine congrArg₂ (· + ·) (congrArg₂ (· + ·) ?_ ?_) ?_
  · exact matmul_plain_zero_apply 512 896 2688 none _ _ p n
  · exact matmul_plain_zero_apply 512 896 2688 none _ _ p n
  · exact matmul_plain_zero_apply 512 896 2688 none _ _ p n

/-- The input value at (p, n). -/
theorem pay3_apply (v1 : Vec Ideal S512x2 .f32) (v2 : Vec Ideal S512x1 .f32) (v16 : Vec Ideal S2x2688 .f32) (v18 : Vec Ideal S1x2688 .f32)
    (p : Fin 512) (n : Fin 2688) :
    k0_pay3 (F := Ideal) v1 v2 v16 v18 (ix2 p n)
      = (v1 (ix2 p 0) * v16 (ix2 0 n) + v1 (ix2 p 1) * v16 (ix2 1 n)) + v2 (ix2 p 0) * v18 (ix2 0 n) := by
  unfold k0_pay3
  simp only [shapeCast_self]
  refine congrArg₂ (· + ·) (congrArg₂ (· + ·) (congrArg₂ (· * ·) ?_ ?_) (congrArg₂ (· * ·) ?_ ?_)) (congrArg₂ (· * ·) ?_ ?_)
  · refine (broadcastTo_a1_ab_apply _ _ p n 0).trans ?_
    exact slice2_axis1_apply 0 v1 _ p 0 0 rfl
  · refine (broadcastTo_1b_ab_apply _ _ p n).trans ?_
    exact slice2_axis0_apply 0 v16 _ 0 n 0 rfl
  · refine (broadcastTo_a1_ab_apply _ _ p n 0).trans ?_
    exact slice2_axis1_apply 1 v1 _ p 0 1 rfl
  · refine (broadcastTo_1b_ab_apply _ _ p n).trans ?_
    exact slice2_axis0_apply 1 v16 _ 0 n 1 rfl
  · exact broadcastTo_a1_ab_apply _ _ p n 0
  · exact broadcastTo_1b_ab_apply _ _ p n

end Cert.Cell.Block

end
-- ==== Proof.CellLaws.lean ====
/-
  Two facts about the cell that join the kernel's arrangement to the plain one.

  The three-pass product. The kernel computes each matrix product from the split x = x + (x − x) of both operands,
  keeping three of the four cross terms: Σ a·w + Σ a·(w − w) + Σ (a − a)·w. On real entries x − x = 0, a product with
  a zero factor is zero and so are the two extra sums, so the three passes give the one product Σ a·w. (On the
  extended reals at large the step x − x = 0 fails at the infinities: this is where finiteness of the inputs is used.)

  The placed weights. Column 896 g + j of the side-by-side recurrent matrix is row j of the g-th matrix; and the three
  broadcast products of y(b, 0), y(b, 1), z(b, 0) with column 896 g + j of the placed input rows add up to gate g's
  input term at unit j — below 448 the coarse projection's two terms plus z · 0, from 448 on the fine projection's
  three terms.
-/
import proofs.«145113_j80083960201384_2_alg».proof.Proof.Spec

noncomputable section

namespace Cert.Cell

open Idealize.ShloMosaic Idealize.ShloMosaic.ValueIdx Cert.LibRealEntries

/-- A real minus itself is zero. -/
theorem sub_self_real {x : EReal} (h : IsReal x) : x - x = 0 := by
  obtain ⟨r, rfl⟩ := h
  rw [← EReal.coe_sub, sub_self, EReal.coe_zero]

/-- The three passes of a split product of real rows are the one product. -/
theorem three_pass {ι : Type} [Fintype ι] (u w : ι → EReal) (hu : ∀ k, IsReal (u k)) (hw : ∀ k, IsReal (w k)) :
    (∑ k, u k * w k + ∑ k, u k * (w k - w k)) + ∑ k, (u k - u k) * w k = ∑ k, u k * w k := by
  have h1 : ∑ k, u k * (w k - w k) = 0 := Finset.sum_eq_zero fun k _ => by rw [sub_self_real (hw k), mul_zero]
  have h2 : ∑ k, (u k - u k) * w k = 0 := Finset.sum_eq_zero fun k _ => by rw [sub_self_real (hu k), zero_mul]
  rw [h1, h2, add_zero, add_zero]

variable (a : Args)

/-- The first stretch of the side-by-side recurrent matrix is the update gate's matrix, transposed. -/
theorem fusedR_u (k j : Fin 896) (n : Fin 2688) (hn : n.val = j.val) : fusedR a k n = a.Wu (ix2 j k) := by
  unfold fusedR
  have h0 : n.val < 896 := by have := j.isLt; omega
  rw [dif_pos h0]
  exact congrArg (fun x => a.Wu (ix2 x k)) (Fin.ext hn)

/-- The second stretch is the reset gate's. -/
theorem fusedR_r (k j : Fin 896) (n : Fin 2688) (hn : n.val = 896 + j.val) : fusedR a k n = a.Wr (ix2 j k) := by
  unfold fusedR
  have h0 : ¬ n.val < 896 := by omega
  have h1 : n.val < 1792 := by have := j.isLt; omega
  rw [dif_neg h0, dif_pos h1]
  exact congrArg (fun x => a.Wr (ix2 x k)) (Fin.ext (by show n.val - 896 = j.val; omega))

/-- The third stretch is the candidate's. -/
theorem fusedR_e (k j : Fin 896) (n : Fin 2688) (hn : n.val = 1792 + j.val) : fusedR a k n = a.We (ix2 j k) := by
  unfold fusedR
  have h0 : ¬ n.val < 896 := by omega
  have h1 : ¬ n.val < 1792 := by omega
  rw [dif_neg h0, dif_neg h1]
  exact congrArg (fun x => a.We (ix2 x k)) (Fin.ext (by show n.val - 1792 = j.val; omega))

/-- The three broadcast products against column 896 g + j of the placed input rows are gate g's input term. -/
theorem inp_placed (g : Fin 3) (b : Fin 8192) (j : Fin 896) (n : Fin 2688) (hn : n.val = 896 * g.val + j.val) :
    (a.y (ix2 b 0) * placedY a 0 n + a.y (ix2 b 1) * placedY a 1 n) + a.z (ix2 b 0) * placedZ a n = inp a g b j := by
  have hg := g.isLt
  have hj := j.isLt
  have hmod : n.val % 896 = j.val := by omega
  have hdiv : n.val / 896 = g.val := by omega
  unfold inp placedY placedZ
  by_cases hlt : j.val < 448
  · have hm : n.val % 896 < 448 := by omega
    rw [dif_pos hlt, dif_pos hm, dif_pos hm, dif_pos hm, mul_zero, add_zero]
    unfold inC
    rw [Fin.sum_univ_two]
    have e : ∀ (hh : 448 * (n.val / 896) + n.val % 896 < 1344),
        (⟨448 * (n.val / 896) + n.val % 896, hh⟩ : Fin 1344) = ⟨448 * g.val + j.val, by omega⟩ :=
      fun _ => Fin.ext (by show 448 * (n.val / 896) + n.val % 896 = 448 * g.val + j.val; rw [hmod, hdiv])
    rw [e]
  · have hm : ¬ n.val % 896 < 448 := by omega
    rw [dif_neg hlt, dif_neg hm, dif_neg hm, dif_neg hm]
    unfold inF
    rw [Fin.sum_univ_three]
    have e : ∀ (hh : 448 * (n.val / 896) + (n.val % 896 - 448) < 1344),
        (⟨448 * (n.val / 896) + (n.val % 896 - 448), hh⟩ : Fin 1344) = ⟨448 * g.val + (j.val - 448), by omega⟩ :=
      fun _ => Fin.ext (by show 448 * (n.val / 896) + (n.val % 896 - 448) = 448 * g.val + (j.val - 448); rw [hmod, hdiv])
    rw [e]
    unfold yz
    rfl

end Cert.Cell

end
-- ==== Proof.BlockHidden.lean ====
/-
  The kernel body's new hidden state, read at an index, at the ideal instance.

  A block holds 512 rows; row p of the block is row ρ p of the arrays. The body forms one wide recurrent value
  (the block of h against the three recurrent matrices laid side by side, in three passes of a split product) and
  one wide input value (y and z against the placed input rows), cuts each into three stretches of 896 columns,
  and combines them pointwise: u = σ(stretch 0 + stretch 0 + b_u), r = σ(stretch 1 + stretch 1 + b_r),
  e = tanh(r · stretch 2 + stretch 2 + b_e), hidden = u · h + (1 − u) · e.

  When the loaded blocks hold real entries of the arrays, the three passes collapse to the plain product, column
  896 g + j of the wide recurrent value is the g-th recurrent projection at unit j, column 896 g + j of the wide
  input value is gate g's input term at unit j, and the pointwise combination is, term for term, the
  specification's hidden state at (ρ p, j).
-/
import proofs.«145113_j80083960201384_2_alg».proof.Proof.BlockFirst
import proofs.«145113_j80083960201384_2_alg».proof.Proof.CellLaws

noncomputable section

namespace Cert.Cell.Block

open Idealize.ShloMosaic Idealize.ShloMosaic.ValueIdx Cert.KernelIdeal Cert.KernelIdeal.Gen Cert.LibRealEntries

/-! ## The wide recurrent value -/

/-- Every entry of the side-by-side recurrent matrix is an entry of one of the three matrices, hence real. -/
theorem isReal_fusedR (a : Args) (ha : a.Real) (k : Fin 896) (n : Fin 2688) : IsReal (fusedR a k n) := by
  unfold fusedR
  split
  · exact ha.Wu _
  · split
    · exact ha.Wr _
    · exact ha.We _

/-- On real entries the three passes are the one product: Σ_k h(ρ p, k) · fused(k, n). -/
theorem rec_val (a : Args) (ha : a.Real) (ρ : Fin 512 → Fin 8192)
    (v0 : Vec Ideal S512x896 .f32) (v7 v9 : Vec Ideal S896x2688 .bf16)
    (h0 : ∀ (p : Fin 512) (k : Fin 896), v0 (ix2 p k) = a.h (ix2 (ρ p) k))
    (h7 : ∀ (k : Fin 896) (n : Fin 2688), v7 (ix2 k n) = fusedR a k n)
    (h9 : ∀ (k : Fin 896) (n : Fin 2688), v9 (ix2 k n) = fusedR a k n - fusedR a k n)
    (p : Fin 512) (n : Fin 2688) :
    k0_pay2 (F := Ideal) v0 v7 v9 (ix2 p n) = ∑ k : Fin 896, a.h (ix2 (ρ p) k) * fusedR a k n := by
  rw [pay2_apply]
  have e1 : ∑ k : Fin 896, v0 (ix2 p k) * v7 (ix2 k n) = ∑ k : Fin 896, a.h (ix2 (ρ p) k) * fusedR a k n :=
    Finset.sum_congr rfl fun k _ => by rw [h0, h7]
  have e2 : ∑ k : Fin 896, v0 (ix2 p k) * v9 (ix2 k n)
      = ∑ k : Fin 896, a.h (ix2 (ρ p) k) * (fusedR a k n - fusedR a k n) :=
    Finset.sum_congr rfl fun k _ => by rw [h0, h9]
  have e3 : ∑ k : Fin 896, (v0 (ix2 p k) - v0 (ix2 p k)) * v7 (ix2 k n)
      = ∑ k : Fin 896, (a.h (ix2 (ρ p) k) - a.h (ix2 (ρ p) k)) * fusedR a k n :=
    Finset.sum_congr rfl fun k _ => by rw [h0, h7]
  rw [e1, e2, e3]
  exact three_pass (fun k => a.h (ix2 (ρ p) k)) (fun k => fusedR a k n) (fun k => ha.h _) (fun k => isReal_fusedR a ha k n)

/-- Column j of the wide recurrent value is the update gate's recurrent projection at unit j. -/
theorem recU_val (a : Args) (ha : a.Real) (ρ : Fin 512 → Fin 8192)
    (v0 : Vec Ideal S512x896 .f32) (v7 v9 : Vec Ideal S896x2688 .bf16)
    (h0 : ∀ (p : Fin 512) (k : Fin 896), v0 (ix2 p k) = a.h (ix2 (ρ p) k))
    (h7 : ∀ (k : Fin 896) (n : Fin 2688), v7 (ix2 k n) = fusedR a k n)
    (h9 : ∀ (k : Fin 896) (n : Fin 2688), v9 (ix2 k n) = fusedR a k n - fusedR a k n)
    (p : Fin 512) (j : Fin 896) (n : Fin 2688) (hn : n.val = j.val) :
    k0_pay2 (F := Ideal) v0 v7 v9 (ix2 p n) = rec a a.Wu (ρ p) j :=
  (rec_val a ha ρ v0 v7 v9 h0 h7 h9 p n).trans (Finset.sum_congr rfl fun k _ => by rw [fusedR_u a k j n hn])

/-- Column 896 + j is the reset gate's. -/
theorem recR_val (a : Args) (ha : a.Real) (ρ : Fin 512 → Fin 8192)
    (v0 : Vec Ideal S512x896 .f32) (v7 v9 : Vec Ideal S896x2688 .bf16)
    (h0 : ∀ (p : Fin 512) (k : Fin 896), v0 (ix2 p k) = a.h (ix2 (ρ p) k))
    (h7 : ∀ (k : Fin 896) (n : Fin 2688), v7 (ix2 k n) = fusedR a k n)
    (h9 : ∀ (k : Fin 896) (n : Fin 2688), v9 (ix2 k n) = fusedR a k n - fusedR a k n)
    (p : Fin 512) (j : Fin 896) (n : Fin 2688) (hn : n.val = 896 + j.val) :
    k0_pay2 (F := Ideal) v0 v7 v9 (ix2 p n) = rec a a.Wr (ρ p) j :=
  (rec_val a ha ρ v0 v7 v9 h0 h7 h9 p n).trans (Finset.sum_congr rfl fun k _ => by rw [fusedR_r a k j n hn])

/-- Column 1792 + j is the candidate's. -/
theorem recE_val (a : Args) (ha : a.Real) (ρ : Fin 512 → Fin 8192)
    (v0 : Vec Ideal S512x896 .f32) (v7 v9 : Vec Ideal S896x2688 .bf16)
    (h0 : ∀ (p : Fin 512) (k : Fin 896), v0 (ix2 p k) = a.h (ix2 (ρ p) k))
    (h7 : ∀ (k : Fin 896) (n : Fin 2688), v7 (ix2 k n) = fusedR a k n)
    (h9 : ∀ (k : Fin 896) (n : Fin 2688), v9 (ix2 k n) = fusedR a k n - fusedR a k n)
    (p : Fin 512) (j : Fin 896) (n : Fin 2688) (hn : n.val = 1792 + j.val) :
    k0_pay2 (F := Ideal) v0 v7 v9 (ix2 p n) = rec a a.We (ρ p) j :=
  (rec_val a ha ρ v0 v7 v9 h0 h7 h9 p n).trans (Finset.sum_congr rfl fun k _ => by rw [fusedR_e a k j n hn])

/-! ## The wide input value -/

/-- Column 896 g + j of the wide input value is gate g's input term at unit j. -/
theorem inp_val (a : Args) (ρ : Fin 512 → Fin 8192)
    (v1 : Vec Ideal S512x2 .f32) (v2 : Vec Ideal S512x1 .f32) (v16 : Vec Ideal S2x2688 .f32) (v18 : Vec Ideal S1x2688 .f32)
    (h1 : ∀ (p : Fin 512) (k : Fin 2), v1 (ix2 p k) = a.y (ix2 (ρ p) k))
    (h2 : ∀ p : Fin 512, v2 (ix2 p 0) = a.z (ix2 (ρ p) 0))
    (h16 : ∀ (k : Fin 2) (n : Fin 2688), v16 (ix2 k n) = placedY a k n)
    (h18 : ∀ n : Fin 2688, v18 (ix2 0 n) = placedZ a n)
    (g : Fin 3) (p : Fin 512) (j : Fin 896) (n : Fin 2688) (hn : n.val = 896 * g.val + j.val) :
    k0_pay3 (F := Ideal) v1 v2 v16 v18 (ix2 p n) = inp a g (ρ p) j := by
  rw [pay3_apply, h1, h1, h2, h16, h16, h18]
  exact inp_placed a g (ρ p) j n hn

/-! ## The stretches -/

theorem pay4_apply (v0 : Vec Ideal S512x896 .f32) (v7 v9 : Vec Ideal S896x2688 .bf16) (p : Fin 512) (j : Fin 896) :
    k0_pay4 (F := Ideal) v0 v7 v9 (ix2 p j)
      = k0_pay2 (F := Ideal) v0 v7 v9 (ix2 p ⟨896 + j.val, by have := j.isLt; omega⟩) :=
  slice2_axis1_apply 896 (k0_pay2 (F := Ideal) v0 v7 v9) slices_S512x2688_o0_896_S512x896 p j _ rfl

theorem pay5_apply (v0 : Vec Ideal S512x896 .f32) (v7 v9 : Vec Ideal S896x2688 .bf16) (p : Fin 512) (j : Fin 896) :
    k0_pay5 (F := Ideal) v0 v7 v9 (ix2 p j)
      = k0_pay2 (F := Ideal) v0 v7 v9 (ix2 p ⟨1792 + j.val, by have := j.isLt; omega⟩) :=
  slice2_axis1_apply 1792 (k0_pay2 (F := Ideal) v0 v7 v9) slices_S512x2688_o0_1792_S512x896 p j _ rfl

theorem pay6_apply (v1 : Vec Ideal S512x2 .f32) (v2 : Vec Ideal S512x1 .f32) (v16 : Vec Ideal S2x2688 .f32) (v18 : Vec Ideal S1x2688 .f32)
    (p : Fin 512) (j : Fin 896) :
    k0_pay6 (F := Ideal) v1 v2 v16 v18 (ix2 p j)
      = k0_pay3 (F := Ideal) v1 v2 v16 v18 (ix2 p ⟨896 + j.val, by have := j.isLt; omega⟩) :=
  slice2_axis1_apply 896 (k0_pay3 (F := Ideal) v1 v2 v16 v18) slices_S512x2688_o0_896_S512x896 p j _ rfl

theorem pay7_apply (v1 : Vec Ideal S512x2 .f32) (v2 : Vec Ideal S512x1 .f32) (v16 : Vec Ideal S2x2688 .f32) (v18 : Vec Ideal S1x2688 .f32)
    (p : Fin 512) (j : Fin 896) :
    k0_pay7 (F := Ideal) v1 v2 v16 v18 (ix2 p j)
      = k0_pay3 (F := Ideal) v1 v2 v16 v18 (ix2 p ⟨1792 + j.val, by have := j.isLt; omega⟩) :=
  slice2_axis1_apply 1792 (k0_pay3 (F := Ideal) v1 v2 v16 v18) slices_S512x2688_o0_1792_S512x896 p j _ rfl

theorem pay8_apply (v0 : Vec Ideal S512x896 .f32) (v1 : Vec Ideal S512x2 .f32) (v2 : Vec Ideal S512x1 .f32)
    (v7 v9 : Vec Ideal S896x2688 .bf16) (v16 : Vec Ideal S2x2688 .f32) (v18 : Vec Ideal S1x2688 .f32)
    (p : Fin 512) (j : Fin 896) :
    k0_pay8 (F := Ideal) v0 v1 v2 v7 v9 v16 v18 (ix2 p j)
      = k0_pay2 (F := Ideal) v0 v7 v9 (ix2 p ⟨j.val, by have := j.isLt; omega⟩)
        + k0_pay3 (F := Ideal) v1 v2 v16 v18 (ix2 p ⟨j.val, by have := j.isLt; omega⟩) :=
  congrArg₂ (· + ·)
    (slice2_axis1_apply 0 (k0_pay2 (F := Ideal) v0 v7 v9) slices_S512x2688_o0_0_S512x896 p j _ (Nat.zero_add _).symm)
    (slice2_axis1_apply 0 (k0_pay3 (F := Ideal) v1 v2 v16 v18) slices_S512x2688_o0_0_S512x896 p j _ (Nat.zero_add _).symm)

/-! ## The pointwise combination -/

/-- A bias [896], given a leading unit axis and spread over the 512 rows, reads at (p, j) the bias at j. -/
theorem bias_row (v : Vec Ideal S896 .f32) (p : Fin 512) (j : Fin 896) :
    broadcastTo S512x896 (shapeCast S1x896 v shapeCasts_S896_S1x896) broadcasts_S1x896_S512x896 (ix2 p j) = v (ix1 j) :=
  (broadcastTo_1b_ab_apply (shapeCast S1x896 v shapeCasts_S896_S1x896) broadcasts_S1x896_S512x896 p j).trans
    (shapeCast_a_1a_apply v shapeCasts_S896_S1x896 0 j)

/-- The body's combination of the five stretches, the block of h and the three biases, at (p, j). -/
theorem pay9_apply (v0 : Vec Ideal S512x896 .f32) (v36 v37 v39 v40 v41 : FVec Ideal S512x896 .f32)
    (v42 v48 v55 : Vec Ideal S896 .f32) (p : Fin 512) (j : Fin 896) :
    k0_pay9 (F := Ideal) v0 v36 v37 v39 v40 v41 v42 v48 v55 (ix2 p j)
      = Ideal.logistic (v41 (ix2 p j) + v42 (ix1 j)) * v0 (ix2 p j)
        + (Ideal.ofBits .f32 0x3F800000#32 - Ideal.logistic (v41 (ix2 p j) + v42 (ix1 j)))
          * Ideal.tanh ((Ideal.logistic ((v36 (ix2 p j) + v39 (ix2 p j)) + v48 (ix1 j)) * v37 (ix2 p j) + v40 (ix2 p j))
              + v55 (ix1 j)) := by
  rw [← bias_row v42 p j, ← bias_row v48 p j, ← bias_row v55 p j]
  rfl

/-- The body's hidden state at (p, j) is the specification's at (ρ p, j). -/
theorem hidden_block (a : Args) (ha : a.Real) (ρ : Fin 512 → Fin 8192)
    (v0 : Vec Ideal S512x896 .f32) (v1 : Vec Ideal S512x2 .f32) (v2 : Vec Ideal S512x1 .f32)
    (v7 v9 : Vec Ideal S896x2688 .bf16) (v16 : Vec Ideal S2x2688 .f32) (v18 : Vec Ideal S1x2688 .f32)
    (v42 v48 v55 : Vec Ideal S896 .f32)
    (h0 : ∀ (p : Fin 512) (k : Fin 896), v0 (ix2 p k) = a.h (ix2 (ρ p) k))
    (h1 : ∀ (p : Fin 512) (k : Fin 2), v1 (ix2 p k) = a.y (ix2 (ρ p) k))
    (h2 : ∀ p : Fin 512, v2 (ix2 p 0) = a.z (ix2 (ρ p) 0))
    (h7 : ∀ (k : Fin 896) (n : Fin 2688), v7 (ix2 k n) = fusedR a k n)
    (h9 : ∀ (k : Fin 896) (n : Fin 2688), v9 (ix2 k n) = fusedR a k n - fusedR a k n)
    (h16 : ∀ (k : Fin 2) (n : Fin 2688), v16 (ix2 k n) = placedY a k n)
    (h18 : ∀ n : Fin 2688, v18 (ix2 0 n) = placedZ a n)
    (h42 : ∀ j : Fin 896, v42 (ix1 j) = a.bu (ix1 j)) (h48 : ∀ j : Fin 896, v48 (ix1 j) = a.br (ix1 j))
    (h55 : ∀ j : Fin 896, v55 (ix1 j) = a.be (ix1 j))
    (p : Fin 512) (j : Fin 896) :
    k0_pay9 (F := Ideal) v0 (k0_pay4 v0 v7 v9) (k0_pay5 v0 v7 v9) (k0_pay6 v1 v2 v16 v18) (k0_pay7 v1 v2 v16 v18)
      (k0_pay8 v0 v1 v2 v7 v9 v16 v18) v42 v48 v55 (ix2 p j) = hid a (ρ p) j := by
  rw [pay9_apply, pay8_apply, pay4_apply, pay5_apply, pay6_apply, pay7_apply,
    recU_val a ha ρ v0 v7 v9 h0 h7 h9 p j ⟨j.val, by have := j.isLt; omega⟩ rfl,
    recR_val a ha ρ v0 v7 v9 h0 h7 h9 p j ⟨896 + j.val, by have := j.isLt; omega⟩ rfl,
    recE_val a ha ρ v0 v7 v9 h0 h7 h9 p j ⟨1792 + j.val, by have := j.isLt; omega⟩ rfl,
    inp_val a ρ v1 v2 v16 v18 h1 h2 h16 h18 0 p j ⟨j.val, by have := j.isLt; omega⟩ (by show j.val = 896 * 0 + j.val; omega),
    inp_val a ρ v1 v2 v16 v18 h1 h2 h16 h18 1 p j ⟨896 + j.val, by have := j.isLt; omega⟩ (by show 896 + j.val = 896 * 1 + j.val; omega),
    inp_val a ρ v1 v2 v16 v18 h1 h2 h16 h18 2 p j ⟨1792 + j.val, by have := j.isLt; omega⟩ (by show 1792 + j.val = 896 * 2 + j.val; omega),
    h42, h48, h55, h0]
  rfl

end Cert.Cell.Block

end
-- ==== Proof.LibLogistic.lean ====
/-
  A sigmoid spelt out on the host — negate, exponential, add one, divide into one, both ones the float 1.0 — is the
  logistic function on the extended reals.

  The pattern 0x3F800000 has sign 0, exponent field 127 and fraction field 0, so it denotes
  (2^23 + 0) · 2^(127 − 127 − 23) = 1. The logistic function is by definition the quotient 1 / (1 + e^(−x)) taken
  with the extended reals' division (at −∞ the denominator is +∞ and the value 0; at +∞ the denominator is 1 and the
  value 1), so once both literals read as 1 the spelt expression IS the logistic function, with no case split.
-/
import Idealize.ShloMosaic.PureOps.Ideal
import Idealize.ShloMosaic.PureOps.Ideal.Laws

noncomputable section

namespace Cert.LibLogistic

open Idealize.ShloMosaic

/-- The float pattern of 1.0 denotes the extended real 1: (2^23 + 0) · 2^(127 − 127 − 23). -/
theorem one_f32 : Ideal.ofBits .f32 0x3F800000#32 = 1 := by
  simp [Ideal.ofBits, Ideal.ieee]
  rw [← EReal.coe_mul]
  norm_num

/-- 1 / (1 + e^(−x)), both ones spelt by the pattern of 1.0, is the logistic function of x. -/
theorem sigmoid_spelt (x : EReal) :
    Ideal.div (Ideal.ofBits .f32 0x3F800000#32) (Ideal.ofBits .f32 0x3F800000#32 + Ideal.exp (-x)) = Ideal.logistic x := by
  rw [one_f32]; rfl

end Cert.LibLogistic

end
-- ==== Proof.RealCell.lean ====
/-
  Real entries propagate through the recurrent cell.

  An extended real is REAL when it is the image of a real number. The logistic function and the hyperbolic tangent
  send a real number r to the real numbers 1 / (1 + e^(−r)) and tanh r; the float pattern of 1.0 denotes the real
  number 1; sums, products, differences, maxima and finite sums of reals are real. Every quantity of the cell is built
  from the argument entries by these operations only — a recurrent projection Σ_k h(b, k) · W(j, k), the two input
  projections, the three gates' pre-activations, the gates σ(·) and the candidate tanh(·), the new hidden state
  u · h + (1 − u) · e, and the rectified first layers max(Σ_k hidden · O + bias, 0) of the two output networks, and
  their second layers. So, when every entry of every argument is real, each of these quantities is real at every
  index. (That is what later allows the ring laws — and a − a = 0 in particular — to be used on them, which fail at
  the infinities.)
-/
import proofs.«145113_j80083960201384_2_alg».proof.Proof.Spec
import proofs.«145113_j80083960201384_2_alg».proof.Proof.LibRealEntries
import proofs.«145113_j80083960201384_2_alg».proof.Proof.LibLogistic

noncomputable section

namespace Cert.Cell.RealArgs

open Idealize.ShloMosaic Idealize.ShloMosaic.ValueIdx Cert.LibRealEntries

/-- The logistic function of a real number r is the real number 1 / (1 + e^(−r)). -/
theorem isReal_logistic {x : EReal} (hx : IsReal x) : IsReal (Ideal.logistic x) := by
  obtain ⟨r, rfl⟩ := hx
  exact ⟨(1 + Real.exp (-r))⁻¹, Ideal.logistic_coe r⟩

/-- The hyperbolic tangent of a real number r is the real number tanh r. -/
theorem isReal_tanh {x : EReal} (hx : IsReal x) : IsReal (Ideal.tanh x) := by
  obtain ⟨r, rfl⟩ := hx
  exact ⟨Real.tanh r, Ideal.tanh_coe r⟩

/-- The float pattern of 1.0 denotes the real number 1. -/
theorem isReal_one_f32 : IsReal (Ideal.ofBits .f32 0x3F800000#32) :=
  ⟨1, Cert.LibLogistic.one_f32.trans EReal.coe_one.symm⟩

variable {a : Cert.Cell.Args} (ha : a.Real)
include ha

/-- A recurrent projection against a matrix of real entries is real. -/
theorem real_rec {W : Arr ⟨2, ![896, 896]⟩} (hW : ∀ i, IsReal (W i)) (b : Fin 8192) (j : Fin 896) :
    IsReal (Cert.Cell.rec a W b j) :=
  IsReal.sum _ _ (fun k _ => (ha.h (ix2 b k)).mul (hW (ix2 j k)))

theorem real_inC (b : Fin 8192) (n : Fin 1344) : IsReal (inC a b n) :=
  IsReal.sum _ _ (fun k _ => (ha.y (ix2 b k)).mul (ha.Ic (ix2 n k)))

theorem real_yz (b : Fin 8192) (k : Fin 3) : IsReal (yz a b k) := by
  unfold yz
  split
  · exact ha.y _
  · exact ha.z _

theorem real_inF (b : Fin 8192) (n : Fin 1344) : IsReal (inF a b n) :=
  IsReal.sum _ _ (fun k _ => (real_yz ha b k).mul (ha.If (ix2 n k)))

theorem real_inp (g : Fin 3) (b : Fin 8192) (j : Fin 896) : IsReal (inp a g b j) := by
  unfold inp
  split
  · exact real_inC ha b _
  · exact real_inF ha b _

theorem real_gateU (b : Fin 8192) (j : Fin 896) : IsReal (gateU a b j) :=
  isReal_logistic (((real_rec ha ha.Wu b j).add (real_inp ha 0 b j)).add (ha.bu (ix1 j)))

theorem real_gateR (b : Fin 8192) (j : Fin 896) : IsReal (gateR a b j) :=
  isReal_logistic (((real_rec ha ha.Wr b j).add (real_inp ha 1 b j)).add (ha.br (ix1 j)))

theorem real_cand (b : Fin 8192) (j : Fin 896) : IsReal (cand a b j) :=
  isReal_tanh ((((real_gateR ha b j).mul (real_rec ha ha.We b j)).add (real_inp ha 2 b j)).add (ha.be (ix1 j)))

/-- The new hidden state u · h + (1 − u) · e is real. -/
theorem real_hid (b : Fin 8192) (j : Fin 896) : IsReal (hid a b j) :=
  ((real_gateU ha b j).mul (ha.h (ix2 b j))).add ((isReal_one_f32.sub (real_gateU ha b j)).mul (real_cand ha b j))

/-- The coarse half's rectified first layer is real. -/
theorem real_act1 (b : Fin 8192) (n : Fin 448) : IsReal (act1 a b n) :=
  IsReal.max ((IsReal.sum _ _ (fun k _ => (real_hid ha b _).mul (ha.O1 (ix2 n k)))).add (ha.b1 (ix1 n))) isReal_zero

theorem real_outC (b : Fin 8192) (q : Fin 256) : IsReal (outC a b q) :=
  (IsReal.sum _ _ (fun k _ => (real_act1 ha b k).mul (ha.O2 (ix2 q k)))).add (ha.b2 (ix1 q))

/-- The fine half's rectified first layer is real. -/
theorem real_act3 (b : Fin 8192) (n : Fin 448) : IsReal (act3 a b n) :=
  IsReal.max ((IsReal.sum _ _ (fun k _ => (real_hid ha b _).mul (ha.O3 (ix2 n k)))).add (ha.b3 (ix1 n))) isReal_zero

theorem real_outF (b : Fin 8192) (q : Fin 256) : IsReal (outF a b q) :=
  (IsReal.sum _ _ (fun k _ => (real_act3 ha b k).mul (ha.O4 (ix2 q k)))).add (ha.b4 (ix1 q))

end Cert.Cell.RealArgs

end
-- ==== Proof.BlockOut.lean ====
/-
  The two output networks of the kernel body, read at an index, at the ideal instance.

  With H the block of new hidden rows (H(p, j) = hidden(ρ p, j) for the block's row map ρ), each output network is two
  layers of the same shape. A layer takes its left operand x as the pair (x, x − x) and its weight matrix W as the
  pair (W, W − W), both laid out transposed, and forms x·W + x·(W − W) + (x − x)·W by three matrix products into zero
  accumulators, then adds the bias row; the first layer is then rectified against zero. At (p, n) the three products
  are Σ_k x(p, k)·W(n, k) + Σ_k x(p, k)·(W(n, k) − W(n, k)) + Σ_k (x(p, k) − x(p, k))·W(n, k), and on real entries the
  last two sums vanish (a real minus itself is zero), leaving the one product Σ_k x(p, k)·W(n, k). The hidden rows, the
  rectified first layers and all weights are real because every argument entry is. So the coarse network, fed the
  first 448 hidden columns, gives the specification's coarse logits, and the fine network, fed the last 448, gives
  its fine logits. A change of float format is the identity and a shape cast to the same shape is the identity.
-/
import proofs.«145113_j80083960201384_2_alg».proof.Proof.Gen.KernelIdeal.Skeleton
import proofs.«145113_j80083960201384_2_alg».proof.Proof.CellLaws
import proofs.«145113_j80083960201384_2_alg».proof.Proof.RealCell
import proofs.«145113_j80083960201384_2_alg».proof.Proof.LibPlainMatmul
import proofs.«145113_j80083960201384_2_alg».proof.Proof.LibKeepdims
import Idealize.ShloMosaic.Lib.ValueLayout
import Idealize.ShloMosaic.Lib.Pipeline.Value

noncomputable section

namespace Cert.Cell.Block

open Idealize.ShloMosaic Idealize.ShloMosaic.ValueIdx Cert.KernelIdeal Cert.KernelIdeal.Gen Cert.LibRealEntries

/-- The coarse half's first layer at (p, n): the three passes over the first 448 hidden columns against the split
    first-layer matrix, the bias row and the rectifier give the specification's rectified first layer. -/
theorem pay11_act1 (a : Cert.Cell.Args) (ha : a.Real) (ρ : Fin 512 → Fin 8192)
    (v0 : Vec Ideal S512x896 .f32) (v36 v37 v39 v40 v41 : FVec Ideal S512x896 .f32) (v42 v48 v55 : Vec Ideal S896 .f32)
    (hH : ∀ (p : Fin 512) (j : Fin 896), k0_pay9 (F := Ideal) v0 v36 v37 v39 v40 v41 v42 v48 v55 (ix2 p j) = Cert.Cell.hid a (ρ p) j)
    (v71 v73 : Vec Ideal S448x448 .bf16) (v80 : Vec Ideal S448 .f32)
    (h71 : ∀ k n : Fin 448, v71 (ix2 k n) = a.O1 (ix2 n k))
    (h73 : ∀ k n : Fin 448, v73 (ix2 k n) = a.O1 (ix2 n k) - a.O1 (ix2 n k))
    (h80 : ∀ n : Fin 448, v80 (ix1 n) = a.b1 (ix1 n))
    (p : Fin 512) (n : Fin 448) :
    k0_pay11 (F := Ideal) v0 v36 v37 v39 v40 v41 v42 v48 v55 v71 v73 v80 (ix2 p n) = Cert.Cell.act1 a (ρ p) n := by
  -- the sliced hidden row, read at a column
  have hsl : ∀ k : Fin 448,
      extractStridedSlice S512x448 ![0, 0] (k0_pay9 (F := Ideal) v0 v36 v37 v39 v40 v41 v42 v48 v55) slices_S512x896_o0_0_S512x448 (ix2 p k)
        = Cert.Cell.hid a (ρ p) ⟨k.val, by have := k.isLt; omega⟩ := fun k =>
    (slice2_axis1_apply (n0 := 512) (n1 := 896) (m := 448) 0 (k0_pay9 (F := Ideal) v0 v36 v37 v39 v40 v41 v42 v48 v55) slices_S512x896_o0_0_S512x448 p k
      ⟨k.val, by have := k.isLt; omega⟩ (Nat.zero_add _).symm).trans (hH p _)
  unfold k0_pay11
  simp only [shapeCast_self]
  unfold Cert.Cell.act1
  refine congrArg₂ max (congrArg₂ (· + ·) ?_ ?_) ?_
  · refine Eq.trans (congrArg₂ (· + ·) (congrArg₂ (· + ·) ?_ ?_) ?_)
      (three_pass (fun k : Fin 448 => Cert.Cell.hid a (ρ p) ⟨k.val, by have := k.isLt; omega⟩) (fun k : Fin 448 => a.O1 (ix2 n k))
        (fun k => RealArgs.real_hid ha (ρ p) _) (fun k => ha.O1 _))
    · refine (matmul_plain_zero_apply 512 448 448 (φ₁ := .bf16) (φ₂ := .bf16) none _ _ p n).trans ?_
      exact Finset.sum_congr rfl fun k _ => congrArg₂ (· * ·) (hsl k) (h71 k n)
    · refine (matmul_plain_zero_apply 512 448 448 (φ₁ := .bf16) (φ₂ := .bf16) none _ _ p n).trans ?_
      exact Finset.sum_congr rfl fun k _ => congrArg₂ (· * ·) (hsl k) (h73 k n)
    · refine (matmul_plain_zero_apply 512 448 448 (φ₁ := .bf16) (φ₂ := .bf16) none _ _ p n).trans ?_
      exact Finset.sum_congr rfl fun k _ => congrArg₂ (· * ·) (congrArg₂ (· - ·) (hsl k) (hsl k)) (h71 k n)
  · refine (broadcastTo_1b_ab_apply _ _ p n).trans ?_
    exact (shapeCast_a_1a_apply v80 _ 0 n).trans (h80 n)
  · exact Ideal.ofBits_zero_f32

/-- The last 448 hidden columns, read at a column. -/
theorem pay10_apply (a : Cert.Cell.Args) (ρ : Fin 512 → Fin 8192)
    (v0 : Vec Ideal S512x896 .f32) (v36 v37 v39 v40 v41 : FVec Ideal S512x896 .f32) (v42 v48 v55 : Vec Ideal S896 .f32)
    (hH : ∀ (p : Fin 512) (j : Fin 896), k0_pay9 (F := Ideal) v0 v36 v37 v39 v40 v41 v42 v48 v55 (ix2 p j) = Cert.Cell.hid a (ρ p) j)
    (p : Fin 512) (k : Fin 448) :
    k0_pay10 (F := Ideal) v0 v36 v37 v39 v40 v41 v42 v48 v55 (ix2 p k) = Cert.Cell.hid a (ρ p) ⟨448 + k.val, by have := k.isLt; omega⟩ := by
  unfold k0_pay10
  exact (slice2_axis1_apply (n0 := 512) (n1 := 896) (m := 448) 448 (k0_pay9 (F := Ideal) v0 v36 v37 v39 v40 v41 v42 v48 v55) slices_S512x896_o0_448_S512x448 p k
    ⟨448 + k.val, by have := k.isLt; omega⟩ rfl).trans (hH p _)

/-- The fine half's first layer at (p, n), over a row x of real entries: max(Σ_k x(k)·W(n, k) + bias(n), 0). -/
theorem pay15_apply (W : Arr ⟨2, ![448, 448]⟩) (bias : Arr ⟨1, ![448]⟩) (hW : ∀ i, IsReal (W i))
    (x : Fin 448 → EReal) (hx : ∀ k, IsReal (x k))
    (v66 : FVec Ideal S512x448 .f32) (v107 v109 : Vec Ideal S448x448 .bf16) (v116 : Vec Ideal S448 .f32)
    (p : Fin 512) (n : Fin 448)
    (h66 : ∀ k : Fin 448, v66 (ix2 p k) = x k)
    (h107 : ∀ k : Fin 448, v107 (ix2 k n) = W (ix2 n k))
    (h109 : ∀ k : Fin 448, v109 (ix2 k n) = W (ix2 n k) - W (ix2 n k))
    (h116 : v116 (ix1 n) = bias (ix1 n)) :
    k0_pay15 (F := Ideal) v66 v107 v109 v116 (ix2 p n) = max ((∑ k : Fin 448, x k * W (ix2 n k)) + bias (ix1 n)) 0 := by
  unfold k0_pay15
  simp only [shapeCast_self]
  refine congrArg₂ max (congrArg₂ (· + ·) ?_ ?_) ?_
  · refine Eq.trans (congrArg₂ (· + ·) (congrArg₂ (· + ·) ?_ ?_) ?_)
      (three_pass x (fun k : Fin 448 => W (ix2 n k)) hx (fun k => hW _))
    · refine (matmul_plain_zero_apply 512 448 448 (φ₁ := .bf16) (φ₂ := .bf16) none _ _ p n).trans ?_
      exact Finset.sum_congr rfl fun k _ => congrArg₂ (· * ·) (h66 k) (h107 k)
    · refine (matmul_plain_zero_apply 512 448 448 (φ₁ := .bf16) (φ₂ := .bf16) none _ _ p n).trans ?_
      exact Finset.sum_congr rfl fun k _ => congrArg₂ (· * ·) (h66 k) (h109 k)
    · refine (matmul_plain_zero_apply 512 448 448 (φ₁ := .bf16) (φ₂ := .bf16) none _ _ p n).trans ?_
      exact Finset.sum_congr rfl fun k _ => congrArg₂ (· * ·) (congrArg₂ (· - ·) (h66 k) (h66 k)) (h107 k)
  · refine (broadcastTo_1b_ab_apply _ _ p n).trans ?_
    exact (shapeCast_a_1a_apply v116 _ 0 n).trans h116
  · exact Ideal.ofBits_zero_f32

/-- The coarse half's second layer at (p, q), over a first-layer row x of real entries given as the pair (x, x − x):
    Σ_k x(k)·W(q, k) + bias(q). -/
theorem pay14_apply (W : Arr ⟨2, ![256, 448]⟩) (bias : Arr ⟨1, ![256]⟩) (hW : ∀ i, IsReal (W i))
    (x : Fin 448 → EReal) (hx : ∀ k, IsReal (x k))
    (v86 : FVec Ideal S512x448 .bf16) (v88 : FVec Ideal S512x448 .f32) (v90 v92 : Vec Ideal S448x256 .bf16) (v99 : Vec Ideal S256 .f32)
    (p : Fin 512) (q : Fin 256)
    (h86 : ∀ k : Fin 448, v86 (ix2 p k) = x k)
    (h88 : ∀ k : Fin 448, v88 (ix2 p k) = x k - x k)
    (h90 : ∀ k : Fin 448, v90 (ix2 k q) = W (ix2 q k))
    (h92 : ∀ k : Fin 448, v92 (ix2 k q) = W (ix2 q k) - W (ix2 q k))
    (h99 : v99 (ix1 q) = bias (ix1 q)) :
    k0_pay14 (F := Ideal) v86 v88 v90 v92 v99 (ix2 p q) = (∑ k : Fin 448, x k * W (ix2 q k)) + bias (ix1 q) := by
  unfold k0_pay14
  simp only [shapeCast_self]
  refine congrArg₂ (· + ·) ?_ ?_
  · refine Eq.trans (congrArg₂ (· + ·) (congrArg₂ (· + ·) ?_ ?_) ?_)
      (three_pass x (fun k : Fin 448 => W (ix2 q k)) hx (fun k => hW _))
    · refine (matmul_plain_zero_apply 512 448 256 (φ₁ := .bf16) (φ₂ := .bf16) none _ _ p q).trans ?_
      exact Finset.sum_congr rfl fun k _ => congrArg₂ (· * ·) (h86 k) (h90 k)
    · refine (matmul_plain_zero_apply 512 448 256 (φ₁ := .bf16) (φ₂ := .bf16) none _ _ p q).trans ?_
      exact Finset.sum_congr rfl fun k _ => congrArg₂ (· * ·) (h86 k) (h92 k)
    · refine (matmul_plain_zero_apply 512 448 256 (φ₁ := .bf16) (φ₂ := .bf16) none _ _ p q).trans ?_
      exact Finset.sum_congr rfl fun k _ => congrArg₂ (· * ·) (h88 k) (h90 k)
  · refine (broadcastTo_1b_ab_apply _ _ p q).trans ?_
    exact (shapeCast_a_1a_apply v99 _ 0 q).trans h99

/-- The fine half's second layer at (p, q), in the same form. -/
theorem pay1_apply (W : Arr ⟨2, ![256, 448]⟩) (bias : Arr ⟨1, ![256]⟩) (hW : ∀ i, IsReal (W i))
    (x : Fin 448 → EReal) (hx : ∀ k, IsReal (x k))
    (v122 v125 : FVec Ideal S512x448 .bf16) (v127 : FVec Ideal S448x256 .bf16) (v128 : Vec Ideal S448x256 .bf16) (v135 : Vec Ideal S256 .f32)
    (p : Fin 512) (q : Fin 256)
    (h122 : ∀ k : Fin 448, v122 (ix2 p k) = x k)
    (h125 : ∀ k : Fin 448, v125 (ix2 p k) = x k - x k)
    (h127 : ∀ k : Fin 448, v127 (ix2 k q) = W (ix2 q k))
    (h128 : ∀ k : Fin 448, v128 (ix2 k q) = W (ix2 q k) - W (ix2 q k))
    (h135 : v135 (ix1 q) = bias (ix1 q)) :
    k0_pay1 (F := Ideal) v122 v125 v127 v128 v135 (ix2 p q) = (∑ k : Fin 448, x k * W (ix2 q k)) + bias (ix1 q) := by
  unfold k0_pay1
  simp only [shapeCast_self]
  refine congrArg₂ (· + ·) ?_ ?_
  · refine Eq.trans (congrArg₂ (· + ·) (congrArg₂ (· + ·) ?_ ?_) ?_)
      (three_pass x (fun k : Fin 448 => W (ix2 q k)) hx (fun k => hW _))
    · refine (matmul_plain_zero_apply 512 448 256 (φ₁ := .bf16) (φ₂ := .bf16) none _ _ p q).trans ?_
      exact Finset.sum_congr rfl fun k _ => congrArg₂ (· * ·) (h122 k) (h127 k)
    · refine (matmul_plain_zero_apply 512 448 256 (φ₁ := .bf16) (φ₂ := .bf16) none _ _ p q).trans ?_
      exact Finset.sum_congr rfl fun k _ => congrArg₂ (· * ·) (h122 k) (h128 k)
    · refine (matmul_plain_zero_apply 512 448 256 (φ₁ := .bf16) (φ₂ := .bf16) none _ _ p q).trans ?_
      exact Finset.sum_congr rfl fun k _ => congrArg₂ (· * ·) (h125 k) (h127 k)
  · refine (broadcastTo_1b_ab_apply _ _ p q).trans ?_
    exact (shapeCast_a_1a_apply v135 _ 0 q).trans h135

/-- The coarse network of the body, on a block whose hidden rows are the specification's, gives its coarse logits. -/
theorem coarse_block (a : Cert.Cell.Args) (ha : a.Real) (ρ : Fin 512 → Fin 8192)
    (v0 : Vec Ideal S512x896 .f32) (v36 v37 v39 v40 v41 : FVec Ideal S512x896 .f32) (v42 v48 v55 : Vec Ideal S896 .f32)
    (hH : ∀ (p : Fin 512) (j : Fin 896), k0_pay9 (F := Ideal) v0 v36 v37 v39 v40 v41 v42 v48 v55 (ix2 p j) = Cert.Cell.hid a (ρ p) j)
    (v71 v73 : Vec Ideal S448x448 .bf16) (v80 : Vec Ideal S448 .f32) (v90 v92 : Vec Ideal S448x256 .bf16) (v99 : Vec Ideal S256 .f32)
    (h71 : ∀ k n : Fin 448, v71 (ix2 k n) = a.O1 (ix2 n k))
    (h73 : ∀ k n : Fin 448, v73 (ix2 k n) = a.O1 (ix2 n k) - a.O1 (ix2 n k))
    (h80 : ∀ n : Fin 448, v80 (ix1 n) = a.b1 (ix1 n))
    (h90 : ∀ (k : Fin 448) (q : Fin 256), v90 (ix2 k q) = a.O2 (ix2 q k))
    (h92 : ∀ (k : Fin 448) (q : Fin 256), v92 (ix2 k q) = a.O2 (ix2 q k) - a.O2 (ix2 q k))
    (h99 : ∀ q : Fin 256, v99 (ix1 q) = a.b2 (ix1 q))
    (p : Fin 512) (q : Fin 256) :
    k0_pay14 (F := Ideal) (k0_pay12 v0 v36 v37 v39 v40 v41 v42 v48 v55 v71 v73 v80) (k0_pay13 v0 v36 v37 v39 v40 v41 v42 v48 v55 v71 v73 v80) v90 v92 v99 (ix2 p q)
      = Cert.Cell.outC a (ρ p) q := by
  have h11 : ∀ k : Fin 448, k0_pay11 (F := Ideal) v0 v36 v37 v39 v40 v41 v42 v48 v55 v71 v73 v80 (ix2 p k) = Cert.Cell.act1 a (ρ p) k :=
    fun k => pay11_act1 a ha ρ v0 v36 v37 v39 v40 v41 v42 v48 v55 hH v71 v73 v80 h71 h73 h80 p k
  refine pay14_apply a.O2 a.b2 ha.O2 (fun k : Fin 448 => Cert.Cell.act1 a (ρ p) k) (fun k => RealArgs.real_act1 ha (ρ p) k)
    _ _ v90 v92 v99 p q ?_ ?_ (fun k => h90 k q) (fun k => h92 k q) (h99 q)
  · intro k
    unfold k0_pay12
    exact h11 k
  · intro k
    unfold k0_pay13
    exact congrArg₂ (· - ·) (h11 k) (h11 k)

/-- The fine network of the body, on the same block, gives the specification's fine logits. -/
theorem fine_block (a : Cert.Cell.Args) (ha : a.Real) (ρ : Fin 512 → Fin 8192)
    (v0 : Vec Ideal S512x896 .f32) (v36 v37 v39 v40 v41 : FVec Ideal S512x896 .f32) (v42 v48 v55 : Vec Ideal S896 .f32)
    (hH : ∀ (p : Fin 512) (j : Fin 896), k0_pay9 (F := Ideal) v0 v36 v37 v39 v40 v41 v42 v48 v55 (ix2 p j) = Cert.Cell.hid a (ρ p) j)
    (v107 v109 : Vec Ideal S448x448 .bf16) (v116 : Vec Ideal S448 .f32) (v126 v128 : Vec Ideal S448x256 .bf16) (v135 : Vec Ideal S256 .f32)
    (h107 : ∀ k n : Fin 448, v107 (ix2 k n) = a.O3 (ix2 n k))
    (h109 : ∀ k n : Fin 448, v109 (ix2 k n) = a.O3 (ix2 n k) - a.O3 (ix2 n k))
    (h116 : ∀ n : Fin 448, v116 (ix1 n) = a.b3 (ix1 n))
    (h126 : ∀ (k : Fin 448) (q : Fin 256), v126 (ix2 k q) = a.O4 (ix2 q k))
    (h128 : ∀ (k : Fin 448) (q : Fin 256), v128 (ix2 k q) = a.O4 (ix2 q k) - a.O4 (ix2 q k))
    (h135 : ∀ q : Fin 256, v135 (ix1 q) = a.b4 (ix1 q))
    (p : Fin 512) (q : Fin 256) :
    k0_pay1 (F := Ideal) (k0_pay16 (k0_pay10 v0 v36 v37 v39 v40 v41 v42 v48 v55) v107 v109 v116) (k0_pay17 (k0_pay10 v0 v36 v37 v39 v40 v41 v42 v48 v55) v107 v109 v116)
        (k0_pay18 v126) v128 v135 (ix2 p q)
      = Cert.Cell.outF a (ρ p) q := by
  have h15 : ∀ k : Fin 448, k0_pay15 (F := Ideal) (k0_pay10 v0 v36 v37 v39 v40 v41 v42 v48 v55) v107 v109 v116 (ix2 p k) = Cert.Cell.act3 a (ρ p) k :=
    fun k => pay15_apply a.O3 a.b3 ha.O3
      (fun j : Fin 448 => Cert.Cell.hid a (ρ p) ⟨448 + j.val, by have := j.isLt; omega⟩) (fun j => RealArgs.real_hid ha (ρ p) _)
      _ v107 v109 v116 p k (fun j => pay10_apply a ρ v0 v36 v37 v39 v40 v41 v42 v48 v55 hH p j) (fun j => h107 j k) (fun j => h109 j k) (h116 k)
  refine pay1_apply a.O4 a.b4 ha.O4 (fun k : Fin 448 => Cert.Cell.act3 a (ρ p) k) (fun k => RealArgs.real_act3 ha (ρ p) k)
    _ _ _ v128 v135 p q ?_ ?_ ?_ (fun k => h128 k q) (h135 q)
  · intro k
    unfold k0_pay16
    exact h15 k
  · intro k
    unfold k0_pay17
    exact congrArg₂ (· - ·) (h15 k) (h15 k)
  · intro k
    unfold k0_pay18
    exact (congrFun (shapeCast_self v126 _) (ix2 k q)).trans (h126 k q)

end Cert.Cell.Block

end
-- ==== Proof.LibFinitePre.lean ====
/-
  Reading a printed precondition's tests "every entry is finite" and "every entry is nonnegative", at the ideal values.

  A precondition that says `jnp.all(|x| < inf)` of an array prints as a reduction by `and`, over all axes, of the
  comparison of |x| with the +∞ constant spread over the array's shape; it holds when the reduction's one result is 1.
  A reduction by `and` that is 1 had a 1 at every entry, so at every entry |x| = max(x, −x) is below the top of the
  extended reals, which excludes both infinities: the entry is a real number. The test `jnp.all(x >= 0)` reads the same
  way, through the order's comparison with the zero constant. Each lemma takes the test in the form it is printed in,
  for any shape and any reduced axes, so a precondition's conjunction is read one test at a time.
-/
import Idealize.ShloMosaic.Lib.ReduceAll
import Idealize.ShloMosaic.Lib.Pipeline.Value
import Idealize.ShloMosaic.Lib.ValueIdx
import Idealize.ShloMosaic.PureOps.Ideal.Laws
import proofs.«145113_j80083960201384_2_alg».proof.Proof.LibRealEntries

noncomputable section

namespace Cert.LibFinitePre

open Idealize.ShloMosaic Idealize.ShloMosaic.ValueIdx Cert.LibRealEntries

/-- The rank-0 shape has one index. -/
instance : Subsingleton (⟨0, ![]⟩ : Shape).Idx := ⟨fun a b => funext fun d => d.elim0⟩

/-- The f32 +∞ pattern is the top of the extended reals. -/
theorem inf_word : Ideal.ofBits .f32 0x7F800000#32 = ⊤ := by
  simp [Ideal.ofBits, Ideal.ieee]

theorem ofBool_eq_one (b : Bool) : BitVec.ofBool b = 1#1 ↔ b = true := by cases b <;> decide

/-- |x| < +∞ on the extended reals: x is a real. -/
theorem isReal_of_abs_lt_top (x : EReal) (h : Ideal.cmp .olt (max x (-x)) ⊤ = 1#1) : IsReal x := by
  have h' : max x (-x) < ⊤ := of_decide_eq_true ((ofBool_eq_one _).1 h)
  induction x using EReal.rec with
  | bot => exact absurd h' (by simp)
  | coe r => exact ⟨r, rfl⟩
  | top => exact absurd h' (by simp)

/-- x ≥ 0 on the extended reals is the order's. -/
theorem nonneg_of_cmp (x : EReal) (h : Ideal.cmp .oge x 0 = 1#1) : 0 ≤ x :=
  of_decide_eq_true ((ofBool_eq_one _).1 h)

/-- A test "every |entry| < +∞" that holds says every entry is a real. -/
theorem all_real {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) (i : s.Idx) : IsReal (a i) := by
  have h := Host.reduce_andi_all _ _ hr hu ix0 e i
  have hb' : broadcastInDim s ![] hb (constant (F := Ideal) ⟨0, ![]⟩ .f32 0x7F800000#32) i = ⊤ :=
    (broadcastInDim_apply ![] hb _ i ix0 (fun a => a.elim0)).trans inf_word
  refine isReal_of_abs_lt_top (a i) ?_
  have h2 : Ideal.cmp .olt (max (a i) (-(a i))) (broadcastInDim s ![] hb (constant (F := Ideal) ⟨0, ![]⟩ .f32 0x7F800000#32) i) = 1#1 := h
  rwa [hb'] at h2

/-- A test "every entry ≥ 0" that holds says every entry is nonnegative. -/
theorem all_nonneg {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .oge a (broadcastInDim s ![] hb (constant (F := Ideal) ⟨0, ![]⟩ .f32 0x00000000#32)))
      (constantI ⟨0, ![]⟩ 1 1#1) hr hu ix0 = 1#1) (i : s.Idx) : 0 ≤ a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine nonneg_of_cmp (a i) ?_
  have h2 : Ideal.cmp .oge (a i) (broadcastInDim s ![] hb (constant (F := Ideal) ⟨0, ![]⟩ .f32 0x00000000#32) i) = 1#1 := h
  rwa [hb'] at h2

end Cert.LibFinitePre

end
-- ==== Proof.RealArgs.lean ====
/-
  From the printed finiteness precondition to real argument entries.

  The precondition is the conjunction, over the nineteen argument arrays x, of the test "every entry of |x| is below
  +∞". It is printed as a chain of reductions by `and`: each test compares |x| = max(x, −x) entry by entry with the +∞
  constant spread over x's shape and reduces the comparison's bits by `and` over all axes to one bit; the nineteen bits
  are joined by `and`, and the precondition says that the one resulting bit is 1. A conjunction of bits is 1 exactly
  when both bits are 1, so each of the nineteen reductions is 1; a reduction by `and` that is 1 met a 1 at every
  entry; and max(x, −x) < ⊤ among the extended reals excludes x = ⊤ and x = ⊥, so x is a real number. Hence every entry
  of every argument is real.
-/
import proofs.«145113_j80083960201384_2_alg».proof.Pre_finite_inputs
import proofs.«145113_j80083960201384_2_alg».proof.Proof.Spec
import proofs.«145113_j80083960201384_2_alg».proof.Proof.LibFinitePre

noncomputable section

namespace Cert.Cell.RealArgs

open Idealize.ShloMosaic Idealize.ShloMosaic.ValueIdx Cert.LibRealEntries Cert.LibFinitePre Cert.Pre_finite_inputs
open Cert.Pre_finite_inputs.Facts

variable [Cert.Pre_finite_inputs.Facts]

/-- If the finiteness precondition of the nineteen argument arrays evaluates to the bit 1, every entry of every
    argument is a real number. -/
theorem real_of_pre
    (x0 : (⟨S8192x2, .f32⟩ : BufTy).Contents (Elt Ideal))
    (x1 : (⟨S8192x896, .f32⟩ : BufTy).Contents (Elt Ideal))
    (x2 : (⟨S8192x1, .f32⟩ : BufTy).Contents (Elt Ideal))
    (x3 : (⟨S896x896, .f32⟩ : BufTy).Contents (Elt Ideal))
    (x4 : (⟨S896x896, .f32⟩ : BufTy).Contents (Elt Ideal))
    (x5 : (⟨S896x896, .f32⟩ : BufTy).Contents (Elt Ideal))
    (x6 : (⟨S1344x2, .f32⟩ : BufTy).Contents (Elt Ideal))
    (x7 : (⟨S1344x3, .f32⟩ : BufTy).Contents (Elt Ideal))
    (x8 : (⟨S448x448, .f32⟩ : BufTy).Contents (Elt Ideal))
    (x9 : (⟨S448, .f32⟩ : BufTy).Contents (Elt Ideal))
    (x10 : (⟨S256x448, .f32⟩ : BufTy).Contents (Elt Ideal))
    (x11 : (⟨S256, .f32⟩ : BufTy).Contents (Elt Ideal))
    (x12 : (⟨S448x448, .f32⟩ : BufTy).Contents (Elt Ideal))
    (x13 : (⟨S448, .f32⟩ : BufTy).Contents (Elt Ideal))
    (x14 : (⟨S256x448, .f32⟩ : BufTy).Contents (Elt Ideal))
    (x15 : (⟨S256, .f32⟩ : BufTy).Contents (Elt Ideal))
    (x16 : (⟨S896, .f32⟩ : BufTy).Contents (Elt Ideal))
    (x17 : (⟨S896, .f32⟩ : BufTy).Contents (Elt Ideal))
    (x18 : (⟨S896, .f32⟩ : BufTy).Contents (Elt Ideal))
    (h : Cert.Pre_finite_inputs.fn (F := Ideal) x0 x1 x2 x3 x4 x5 x6 x7 x8 x9 x10 x11 x12 x13 x14 x15 x16 x17 x18 = (fun _ => 1#1)) :
    Cert.Cell.Args.Real ⟨x0, x1, x2, x3, x4, x5, x6, x7, x8, x9, x10, x11, x12, x13, x14, x15, x16, x17, x18⟩ := by
  -- the one bit of the result, with the chain of operations spelt out: a left-nested conjunction of nineteen tests
  have h0 := congrFun h ValueIdx.ix0
  dsimp only [fn, fn_part1, fn_part2, fn_part3, fn_part4, fn_part5, andi] at h0
  -- a conjunction of bits is 1 only if both are: peel the tests off from the last to the first
  obtain ⟨h0, e18⟩ := IntOp.andi_eq_one.1 h0
  obtain ⟨h0, e17⟩ := IntOp.andi_eq_one.1 h0
  obtain ⟨h0, e16⟩ := IntOp.andi_eq_one.1 h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  -- each test that holds says every entry of its array is real
  exact ⟨
    all_real x0 bcast_S_S8192x2 reducesTo_S8192x2_S_d0_1 h_S_ e0,
    all_real x1 bcast_S_S8192x896 reducesTo_S8192x896_S_d0_1 h_S_ e1,
    all_real x2 bcast_S_S8192x1 reducesTo_S8192x1_S_d0_1 h_S_ e2,
    all_real x3 bcast_S_S896x896 reducesTo_S896x896_S_d0_1 h_S_ e3,
    all_real x4 bcast_S_S896x896 reducesTo_S896x896_S_d0_1 h_S_ e4,
    all_real x5 bcast_S_S896x896 reducesTo_S896x896_S_d0_1 h_S_ e5,
    all_real x6 bcast_S_S1344x2 reducesTo_S1344x2_S_d0_1 h_S_ e6,
    all_real x7 bcast_S_S1344x3 reducesTo_S1344x3_S_d0_1 h_S_ e7,
    all_real x8 bcast_S_S448x448 reducesTo_S448x448_S_d0_1 h_S_ e8,
    all_real x9 bcast_S_S448 reducesTo_S448_S_d0 h_S_ e9,
    all_real x10 bcast_S_S256x448 reducesTo_S256x448_S_d0_1 h_S_ e10,
    all_real x11 bcast_S_S256 reducesTo_S256_S_d0 h_S_ e11,
    all_real x12 bcast_S_S448x448 reducesTo_S448x448_S_d0_1 h_S_ e12,
    all_real x13 bcast_S_S448 reducesTo_S448_S_d0 h_S_ e13,
    all_real x14 bcast_S_S256x448 reducesTo_S256x448_S_d0_1 h_S_ e14,
    all_real x15 bcast_S_S256 reducesTo_S256_S_d0 h_S_ e15,
    all_real x16 bcast_S_S896 reducesTo_S896_S_d0 h_S_ e16,
    all_real x17 bcast_S_S896 reducesTo_S896_S_d0 h_S_ e17,
    all_real x18 bcast_S_S896 reducesTo_S896_S_d0 h_S_ e18⟩

end Cert.Cell.RealArgs

end
-- ==== Proof.IdealFinal.lean ====
/-
  The three result arrays after the run, and the run re-posted at them.

  At point t each result window writes back its whole block, which the body stored as a function of the input blocks
  at t; read at (p, q) and with every input block read in terms of the arguments, that is the specification's value at
  row 512 t + p — the hidden state by the block lemma for the gates, the two logit arrays by the block lemmas for the
  output networks (which use that the hidden state, the rectified layers and the weights are real, so that each split
  product is the plain one). Every row lies in exactly one point's block (point ⌊row / 512⌋), so the sixteen blocks
  cover each result array and the array ends holding the specification's array.
-/
import proofs.«145113_j80083960201384_2_alg».proof.Proof.IdealBlocks
import proofs.«145113_j80083960201384_2_alg».proof.Proof.BlockHidden
import proofs.«145113_j80083960201384_2_alg».proof.Proof.BlockOut
import proofs.«145113_j80083960201384_2_alg».proof.Proof.RealArgs
import proofs.«145113_j80083960201384_2_alg».proof.Defs
import proofs.«145113_j80083960201384_2_alg».proof.Proof.Gen.Pre_finite_inputs

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Cell.Placed

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The row of the arrays that row p of point t's blocks is. -/
def rowAt (t : Fin cfg0.N) (p : Fin 512) : Fin 8192 :=
  ⟨512 * t.val + p.val, by have h : t.val < grid0.N := t.isLt; rw [N_0] at h; have := p.isLt; omega⟩

/-- Under the precondition every entry of every argument is real. -/
theorem args_real (hpre : Cert.Pre_KernelIdeal m) (c : Dev nD) : (argsOf m c).Real :=
  Cert.Cell.RealArgs.real_of_pre _ _ _ _ _ _ _ _ _ _ _ _ _ _ _ _ _ _ _ (hpre c)

/-- The kernel's hidden state at a point, read at (p, j), is the specification's at row 512 t + p. -/
theorem hidden_at (c : Dev nD) (ha : (argsOf m c).Real) (t : Fin cfg0.N) (p : Fin 512) (j : Fin 896) :
    k0_pay9 (F := Ideal) (iblk m c 1 t) (k0_pay4 (iblk m c 1 t) (iblk m c 3 t) (iblk m c 4 t)) (k0_pay5 (iblk m c 1 t) (iblk m c 3 t) (iblk m c 4 t)) (k0_pay6 (iblk m c 0 t) (iblk m c 2 t) (iblk m c 5 t) (iblk m c 6 t)) (k0_pay7 (iblk m c 0 t) (iblk m c 2 t) (iblk m c 5 t) (iblk m c 6 t)) (k0_pay8 (iblk m c 1 t) (iblk m c 0 t) (iblk m c 2 t) (iblk m c 3 t) (iblk m c 4 t) (iblk m c 5 t) (iblk m c 6 t)) (iblk m c 7 t) (iblk m c 8 t) (iblk m c 9 t) (ix2 p j) = Cert.Cell.hid (argsOf m c) (rowAt t p) j :=
  Cert.Cell.Block.hidden_block (argsOf m c) ha (rowAt t) (iblk m c 1 t) (iblk m c 0 t) (iblk m c 2 t) (iblk m c 3 t) (iblk m c 4 t) (iblk m c 5 t) (iblk m c 6 t) (iblk m c 7 t) (iblk m c 8 t) (iblk m c 9 t)
    (fun p k => blk1 m c t p k _ rfl) (fun p k => blk0 m c t p k _ rfl) (fun p => blk2 m c t p 0 _ rfl) (blk3 m c t) (blk4 m c t) (blk5 m c t) (blk6 m c t) (blk7 m c t) (blk8 m c t) (blk9 m c t) p j

/-! ## Result window 22 -/

/-- What point t writes back is block t of the specification's array. -/
theorem flushed22_eq (c : Dev nD) (ha : (argsOf m c).Real) (t : Fin cfg0.N) :
    (dats m 0 c).flushed 22 t = ((cfg0.win 22).blk t).view.read (Elt Ideal) (Cert.Cell.resC (argsOf m c)) := by
  show (cfg0.win 22).cut (grid0.coords t) ((dats m 0 c).after 22 t) = _
  rw [after0_22]
  unfold out0_22
  rw [View.canon_unit_zero hz2]
  unfold coarse0
  simp only [View.ld_unit_zero (S := S512x896) hz2, View.ld_unit_zero (S := S512x2) hz2, View.ld_unit_zero (S := S512x1) hz2, View.ld_unit_zero (S := S896x2688) hz2, View.ld_unit_zero (S := S2x2688) hz2, View.ld_unit_zero (S := S1x2688) hz2, View.ld_unit_zero (S := S448x448) hz2, View.ld_unit_zero (S := S448x256) hz2, View.ld_unit_zero (S := S896) hz1, View.ld_unit_zero (S := S448) hz1, View.ld_unit_zero (S := S256) hz1]
  funext y
  obtain ⟨p, q, rfl⟩ : ∃ (p : Fin 512) (q : Fin 256), y = ix2 p q := ⟨y 0, y 1, eq_ix2 y⟩
  obtain ⟨-, -, -, -, -, -, e0, e1, -⟩ := idx_rows t
  have h0 : (((cfg0.win 22).blk t).view.emb (ix2 p q)) 0 = rowAt t p :=
    Fin.ext (by show win0_22.index t (0 : Fin 2) * 512 + 1 * p.val = 512 * t.val + p.val; omega)
  have h1 : (((cfg0.win 22).blk t).view.emb (ix2 p q)) 1 = q :=
    Fin.ext (by show win0_22.index t (1 : Fin 2) * 256 + 1 * q.val = q.val; omega)
  show _ = Cert.Cell.outC (argsOf m c) ((((cfg0.win 22).blk t).view.emb (ix2 p q)) 0) ((((cfg0.win 22).blk t).view.emb (ix2 p q)) 1)
  rw [h0, h1]
  exact Cert.Cell.Block.coarse_block (argsOf m c) ha (rowAt t) (iblk m c 1 t) (k0_pay4 (iblk m c 1 t) (iblk m c 3 t) (iblk m c 4 t)) (k0_pay5 (iblk m c 1 t) (iblk m c 3 t) (iblk m c 4 t)) (k0_pay6 (iblk m c 0 t) (iblk m c 2 t) (iblk m c 5 t) (iblk m c 6 t)) (k0_pay7 (iblk m c 0 t) (iblk m c 2 t) (iblk m c 5 t) (iblk m c 6 t)) (k0_pay8 (iblk m c 1 t) (iblk m c 0 t) (iblk m c 2 t) (iblk m c 3 t) (iblk m c 4 t) (iblk m c 5 t) (iblk m c 6 t)) (iblk m c 7 t) (iblk m c 8 t) (iblk m c 9 t) (fun p j => hidden_at m c ha t p j)
    (iblk m c 10 t) (iblk m c 11 t) (iblk m c 12 t) (iblk m c 13 t) (iblk m c 14 t) (iblk m c 15 t)
    (blk10 m c t) (blk11 m c t) (blk12 m c t) (blk13 m c t) (blk14 m c t) (blk15 m c t) p q

/-- An index of the array is in point t's block iff each coordinate is in the block's range on its axis. -/
theorem mem_blk22 (t : Fin cfg0.N) (i : S8192x256.Idx) :
    i ∈ ((cfg0.win 22).blk t).view.set ↔ ∀ a : Fin 2, win0_22.index t a * S512x256.size a ≤ (i a).val ∧ (i a).val < win0_22.index t a * S512x256.size a + S512x256.size a := by
  show i ∈ ((View.whole main_v50_0).slice (win0_22.rect t)).set ↔ _
  rw [View.set_slice_whole, Rect.mem_set_unit]
  exact Iff.rfl

/-- Every index lies in the block of the point its row belongs to. -/
theorem cover22 (i : S8192x256.Idx) : ∃ t : Fin cfg0.N, (cfg0.win 22).flush t = true ∧ i ∈ ((cfg0.win 22).blk t).view.set := by
  have hi0 : (i 0).val < 8192 := (i 0).isLt
  have hi1 : (i 1).val < 256 := (i 1).isLt
  have hN : (i 0).val / 512 < grid0.N := by rw [N_0]; omega
  obtain ⟨-, -, -, -, -, -, e0, e1, -⟩ := idx_rows ⟨(i 0).val / 512, hN⟩
  refine ⟨⟨(i 0).val / 512, hN⟩, flush0_22 _, ?_⟩
  rw [mem_blk22]
  intro a
  match a with
  | ⟨0, _⟩ =>
    show win0_22.index ⟨(i 0).val / 512, hN⟩ (0 : Fin 2) * 512 ≤ (i 0).val ∧ (i 0).val < win0_22.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_22.index ⟨(i 0).val / 512, hN⟩ (1 : Fin 2) * 256 ≤ (i 1).val ∧ (i 1).val < win0_22.index ⟨(i 0).val / 512, hN⟩ (1 : Fin 2) * 256 + 256
    rw [e1]; omega

/-- The array after the run is the specification's. -/
theorem final22 (c : Dev nD) (ha : (argsOf m c).Real) : (dats m 0 c).arrAt 22 cfg0.N = Cert.Cell.resC (argsOf m c) :=
  (dats m 0 c).arrAt_eq_of_cover 22 _ (fun t _ => flushed22_eq m c ha t) (cover22)

/-! ## Result window 23 -/

/-- What point t writes back is block t of the specification's array. -/
theorem flushed23_eq (c : Dev nD) (ha : (argsOf m c).Real) (t : Fin cfg0.N) :
    (dats m 0 c).flushed 23 t = ((cfg0.win 23).blk t).view.read (Elt Ideal) (Cert.Cell.resF (argsOf m c)) := by
  show (cfg0.win 23).cut (grid0.coords t) ((dats m 0 c).after 23 t) = _
  rw [after0_23]
  unfold out0_23
  rw [View.canon_unit_zero hz2]
  unfold fine0 fineHalf0
  simp only [View.ld_unit_zero (S := S512x896) hz2, View.ld_unit_zero (S := S512x2) hz2, View.ld_unit_zero (S := S512x1) hz2, View.ld_unit_zero (S := S896x2688) hz2, View.ld_unit_zero (S := S2x2688) hz2, View.ld_unit_zero (S := S1x2688) hz2, View.ld_unit_zero (S := S448x448) hz2, View.ld_unit_zero (S := S448x256) hz2, View.ld_unit_zero (S := S896) hz1, View.ld_unit_zero (S := S448) hz1, View.ld_unit_zero (S := S256) hz1]
  funext y
  obtain ⟨p, q, rfl⟩ : ∃ (p : Fin 512) (q : Fin 256), y = ix2 p q := ⟨y 0, y 1, eq_ix2 y⟩
  obtain ⟨-, -, -, -, -, -, -, -, e0, e1, -⟩ := idx_rows t
  have h0 : (((cfg0.win 23).blk t).view.emb (ix2 p q)) 0 = rowAt t p :=
    Fin.ext (by show win0_23.index t (0 : Fin 2) * 512 + 1 * p.val = 512 * t.val + p.val; omega)
  have h1 : (((cfg0.win 23).blk t).view.emb (ix2 p q)) 1 = q :=
    Fin.ext (by show win0_23.index t (1 : Fin 2) * 256 + 1 * q.val = q.val; omega)
  show _ = Cert.Cell.outF (argsOf m c) ((((cfg0.win 23).blk t).view.emb (ix2 p q)) 0) ((((cfg0.win 23).blk t).view.emb (ix2 p q)) 1)
  rw [h0, h1]
  exact Cert.Cell.Block.fine_block (argsOf m c) ha (rowAt t) (iblk m c 1 t) (k0_pay4 (iblk m c 1 t) (iblk m c 3 t) (iblk m c 4 t)) (k0_pay5 (iblk m c 1 t) (iblk m c 3 t) (iblk m c 4 t)) (k0_pay6 (iblk m c 0 t) (iblk m c 2 t) (iblk m c 5 t) (iblk m c 6 t)) (k0_pay7 (iblk m c 0 t) (iblk m c 2 t) (iblk m c 5 t) (iblk m c 6 t)) (k0_pay8 (iblk m c 1 t) (iblk m c 0 t) (iblk m c 2 t) (iblk m c 3 t) (iblk m c 4 t) (iblk m c 5 t) (iblk m c 6 t)) (iblk m c 7 t) (iblk m c 8 t) (iblk m c 9 t) (fun p j => hidden_at m c ha t p j)
    (iblk m c 16 t) (iblk m c 17 t) (iblk m c 18 t) (iblk m c 19 t) (iblk m c 20 t) (iblk m c 21 t)
    (blk16 m c t) (blk17 m c t) (blk18 m c t) (blk19 m c t) (blk20 m c t) (blk21 m c t) p q

/-- An index of the array is in point t's block iff each coordinate is in the block's range on its axis. -/
theorem mem_blk23 (t : Fin cfg0.N) (i : S8192x256.Idx) :
    i ∈ ((cfg0.win 23).blk t).view.set ↔ ∀ a : Fin 2, win0_23.index t a * S512x256.size a ≤ (i a).val ∧ (i a).val < win0_23.index t a * S512x256.size a + S512x256.size a := by
  show i ∈ ((View.whole main_v50_1).slice (win0_23.rect t)).set ↔ _
  rw [View.set_slice_whole, Rect.mem_set_unit]
  exact Iff.rfl

/-- Every index lies in the block of the point its row belongs to. -/
theorem cover23 (i : S8192x256.Idx) : ∃ t : Fin cfg0.N, (cfg0.win 23).flush t = true ∧ i ∈ ((cfg0.win 23).blk t).view.set := by
  have hi0 : (i 0).val < 8192 := (i 0).isLt
  have hi1 : (i 1).val < 256 := (i 1).isLt
  have hN : (i 0).val / 512 < grid0.N := by rw [N_0]; omega
  obtain ⟨-, -, -, -, -, -, -, -, e0, e1, -⟩ := idx_rows ⟨(i 0).val / 512, hN⟩
  refine ⟨⟨(i 0).val / 512, hN⟩, flush0_23 _, ?_⟩
  rw [mem_blk23]
  intro a
  match a with
  | ⟨0, _⟩ =>
    show win0_23.index ⟨(i 0).val / 512, hN⟩ (0 : Fin 2) * 512 ≤ (i 0).val ∧ (i 0).val < win0_23.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_23.index ⟨(i 0).val / 512, hN⟩ (1 : Fin 2) * 256 ≤ (i 1).val ∧ (i 1).val < win0_23.index ⟨(i 0).val / 512, hN⟩ (1 : Fin 2) * 256 + 256
    rw [e1]; omega

/-- The array after the run is the specification's. -/
theorem final23 (c : Dev nD) (ha : (argsOf m c).Real) : (dats m 0 c).arrAt 23 cfg0.N = Cert.Cell.resF (argsOf m c) :=
  (dats m 0 c).arrAt_eq_of_cover 23 _ (fun t _ => flushed23_eq m c ha t) (cover23)

/-! ## Result window 24 -/

/-- What point t writes back is block t of the specification's array. -/
theorem flushed24_eq (c : Dev nD) (ha : (argsOf m c).Real) (t : Fin cfg0.N) :
    (dats m 0 c).flushed 24 t = ((cfg0.win 24).blk t).view.read (Elt Ideal) (Cert.Cell.resH (argsOf m c)) := by
  show (cfg0.win 24).cut (grid0.coords t) ((dats m 0 c).after 24 t) = _
  rw [after0_24]
  unfold out0_24
  rw [View.canon_unit_zero hz2]
  unfold hid0
  simp only [View.ld_unit_zero (S := S512x896) hz2, View.ld_unit_zero (S := S512x2) hz2, View.ld_unit_zero (S := S512x1) hz2, View.ld_unit_zero (S := S896x2688) hz2, View.ld_unit_zero (S := S2x2688) hz2, View.ld_unit_zero (S := S1x2688) hz2, View.ld_unit_zero (S := S448x448) hz2, View.ld_unit_zero (S := S448x256) hz2, View.ld_unit_zero (S := S896) hz1, View.ld_unit_zero (S := S448) hz1, View.ld_unit_zero (S := S256) hz1]
  funext y
  obtain ⟨p, q, rfl⟩ : ∃ (p : Fin 512) (q : Fin 896), y = ix2 p q := ⟨y 0, y 1, eq_ix2 y⟩
  obtain ⟨-, -, -, -, -, -, -, -, -, -, e0, e1⟩ := idx_rows t
  have h0 : (((cfg0.win 24).blk t).view.emb (ix2 p q)) 0 = rowAt t p :=
    Fin.ext (by show win0_24.index t (0 : Fin 2) * 512 + 1 * p.val = 512 * t.val + p.val; omega)
  have h1 : (((cfg0.win 24).blk t).view.emb (ix2 p q)) 1 = q :=
    Fin.ext (by show win0_24.index t (1 : Fin 2) * 896 + 1 * q.val = q.val; omega)
  show _ = Cert.Cell.hid (argsOf m c) ((((cfg0.win 24).blk t).view.emb (ix2 p q)) 0) ((((cfg0.win 24).blk t).view.emb (ix2 p q)) 1)
  rw [h0, h1]
  exact hidden_at m c ha t p q

/-- An index of the array is in point t's block iff each coordinate is in the block's range on its axis. -/
theorem mem_blk24 (t : Fin cfg0.N) (i : S8192x896.Idx) :
    i ∈ ((cfg0.win 24).blk t).view.set ↔ ∀ a : Fin 2, win0_24.index t a * S512x896.size a ≤ (i a).val ∧ (i a).val < win0_24.index t a * S512x896.size a + S512x896.size a := by
  show i ∈ ((View.whole main_v50_2).slice (win0_24.rect t)).set ↔ _
  rw [View.set_slice_whole, Rect.mem_set_unit]
  exact Iff.rfl

/-- Every index lies in the block of the point its row belongs to. -/
theorem cover24 (i : S8192x896.Idx) : ∃ t : Fin cfg0.N, (cfg0.win 24).flush t = true ∧ i ∈ ((cfg0.win 24).blk t).view.set := by
  have hi0 : (i 0).val < 8192 := (i 0).isLt
  have hi1 : (i 1).val < 896 := (i 1).isLt
  have hN : (i 0).val / 512 < grid0.N := by rw [N_0]; omega
  obtain ⟨-, -, -, -, -, -, -, -, -, -, e0, e1⟩ := idx_rows ⟨(i 0).val / 512, hN⟩
  refine ⟨⟨(i 0).val / 512, hN⟩, flush0_24 _, ?_⟩
  rw [mem_blk24]
  intro a
  match a with
  | ⟨0, _⟩ =>
    show win0_24.index ⟨(i 0).val / 512, hN⟩ (0 : Fin 2) * 512 ≤ (i 0).val ∧ (i 0).val < win0_24.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_24.index ⟨(i 0).val / 512, hN⟩ (1 : Fin 2) * 896 ≤ (i 1).val ∧ (i 1).val < win0_24.index ⟨(i 0).val / 512, hN⟩ (1 : Fin 2) * 896 + 896
    rw [e1]; omega

/-- The array after the run is the specification's. -/
theorem final24 (c : Dev nD) (ha : (argsOf m c).Real) : (dats m 0 c).arrAt 24 cfg0.N = Cert.Cell.resH (argsOf m c) :=
  (dats m 0 c).arrAt_eq_of_cover 24 _ (fun t _ => flushed24_eq m c ha t) (cover24)

/-! ## The run, read -/

/-- Under the precondition the kernel's run ends with its three results at the specification's arrays of the
    arguments, and the arguments unchanged. -/
theorem run (hpre : Cert.Pre_KernelIdeal m) :
    θ_run defs (onTc (τ := τ) (main (F := Ideal))) ⟨m, fun _ => 0, ρ⟩ fun r => ∀ c : Dev nD,
      r.2.mem ((c.tc : Thread nD τ).loc main_v50_0) = Cert.Cell.resC (argsOf m c)
      ∧ r.2.mem ((c.tc : Thread nD τ).loc main_v50_1) = Cert.Cell.resF (argsOf m c)
      ∧ r.2.mem ((c.tc : Thread nD τ).loc main_v50_2) = Cert.Cell.resH (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 22).trans (final22 m c (args_real m hpre c)),
      ((h c).1 23).trans (final23 m c (args_real m hpre c)),
      ((h c).1 24).trans (final24 m c (args_real m hpre c)),
      kept_arg0 m (dats m) (A_eq m) h c, kept_arg1 m (dats m) (A_eq m) h c, kept_arg2 m (dats m) (A_eq m) h c, kept_arg3 m (dats m) (A_eq m) h c, kept_arg4 m (dats m) (A_eq m) h c, kept_arg5 m (dats m) (A_eq m) h c, kept_arg6 m (dats m) (A_eq m) h c, kept_arg7 m (dats m) (A_eq m) h c, kept_arg8 m (dats m) (A_eq m) h c, kept_arg9 m (dats m) (A_eq m) h c, kept_arg10 m (dats m) (A_eq m) h c, kept_arg11 m (dats m) (A_eq m) h c, kept_arg12 m (dats m) (A_eq m) h c, kept_arg13 m (dats m) (A_eq m) h c, kept_arg14 m (dats m) (A_eq m) h c, kept_arg15 m (dats m) (A_eq m) h c, kept_arg16 m (dats m) (A_eq m) h c, kept_arg17 m (dats m) (A_eq m) h c, kept_arg18 m (dats m) (A_eq m) h c⟩)
    (run_main m ρ)

end Cert.KernelIdeal.Val

end
-- ==== Proof.RefSideHidden.lean ====
/-
  The reference program's new hidden state, read entry by entry.

  For a row b and a hidden unit j the reference computes, stage by stage,
    the three recurrent projections     Σ_k h(b, k) · W(j, k)         (a product with the transposed matrix),
    the coarse and fine input projections of [y] and [y, z], cut into three stretches of 448 columns and
      set side by side again, one coarse stretch followed by one fine stretch per gate,
    the two logistic gates, spelt as 1 / (1 + e^(−x)) with the float word of 1.0,
    the tanh candidate, and the blend  u · h + (1 − u) · e.
  Each stage is identified here, at explicit coordinates (b, j), with the index-by-index definition of the
  specification; the last theorem says the whole hidden-state array is the specification's.
-/
import proofs.«145113_j80083960201384_2_alg».proof.Proof.Gen.ReferenceIdeal.Read
import proofs.«145113_j80083960201384_2_alg».proof.Proof.Spec
import proofs.«145113_j80083960201384_2_alg».proof.Proof.LibLogistic

noncomputable section

namespace Cert.Cell.Ref

open Idealize.ShloMosaic Idealize.ShloMosaic.ValueIdx Cert.ReferenceIdeal Cert.ReferenceIdeal.Gen Cert.ReferenceIdeal.Read

/-- Two rank-two indices are equal when their coordinates are, each by unfolding. -/
local macro "coords2" : tactic =>
  `(tactic| exact funext fun d => Fin.ext (by match d with | ⟨0, _⟩ => rfl | ⟨1, _⟩ => rfl))

/-! ## Two arrays of 448 columns set side by side, and [y, z] -/

/-- Two [8192, 448] arrays side by side: column j comes from the first below 448 and from the second, moved down
    by 448, from there on. -/
theorem beside448 (x₁ x₂ : S8192x448.Idx → EReal) (b : Fin 8192) (j : Fin 896) :
    concatenate S8192x896 1 [⟨S8192x448, x₁⟩, ⟨S8192x448, x₂⟩] concatenates_S8192x448_S8192x448_S8192x896_d1 (ix2 b j)
      = if hj : j.val < 448 then x₁ (ix2 b ⟨j.val, hj⟩) else x₂ (ix2 b ⟨j.val - 448, by have := j.isLt; omega⟩) := by
  by_cases hj : j.val < 448
  · rw [dif_pos hj]
    exact concatenate_pair_apply_left 1 x₁ x₂ concatenates_S8192x448_S8192x448_S8192x896_d1 (ix2 b j) rfl (ix2 b ⟨j.val, hj⟩)
      (fun d => by
        match d with
        | ⟨0, _⟩ => rfl
        | ⟨1, _⟩ => rfl)
  · rw [dif_neg hj]
    exact concatenate_pair_apply_right 1 x₁ x₂ concatenates_S8192x448_S8192x448_S8192x896_d1 (ix2 b j) rfl rfl
      (ix2 b ⟨j.val - 448, by have := j.isLt; omega⟩)
      (fun d hd => by
        match d with
        | ⟨0, _⟩ => rfl
        | ⟨1, _⟩ => exact absurd rfl hd)
      (by show j.val - 448 + 448 = j.val; omega)

/-- Row b of y and z side by side is [y(b, 0), y(b, 1), z(b, 0)]. -/
theorem yz_eq (a : Args) (b : Fin 8192) (k : Fin 3) :
    val_main_v11 (F := Ideal) a.y a.z (ix2 b k) = yz a b k := by
  unfold val_main_v11 yz
  by_cases hk : k.val < 2
  · rw [dif_pos hk]
    exact concatenate_pair_apply_left 1 a.y a.z concatenates_S8192x2_S8192x1_S8192x3_d1 (ix2 b k) rfl (ix2 b ⟨k.val, hk⟩)
      (fun d => by
        match d with
        | ⟨0, _⟩ => rfl
        | ⟨1, _⟩ => rfl)
  · rw [dif_neg hk]
    exact concatenate_pair_apply_right 1 a.y a.z concatenates_S8192x2_S8192x1_S8192x3_d1 (ix2 b k) rfl rfl
      (ix2 b 0)
      (fun d hd => by
        match d with
        | ⟨0, _⟩ => rfl
        | ⟨1, _⟩ => exact absurd rfl hd)
      (by show 0 + 2 = k.val; have := k.isLt; omega)

/-! ## The projections -/

/-- A recurrent projection: the product of h with the transposed matrix, at (b, j). -/
theorem recU_eq (a : Args) (b : Fin 8192) (j : Fin 896) :
    val_main_v1 (F := Ideal) a.h a.Wu (ix2 b j) = rec a a.Wu b j := by
  rw [val_main_v1_apply]
  refine Finset.sum_congr rfl fun k _ => ?_
  rw [val_main_v0_apply]
  have e₁ : lidx_main_v1 (ix2 b j) k = ix2 b k := by coords2
  have e₂ : idx_main_v0 (ridx_main_v1 (ix2 b j) k) = ix2 j k := by coords2
  rw [e₁, e₂]

theorem recR_eq (a : Args) (b : Fin 8192) (j : Fin 896) :
    val_main_v3 (F := Ideal) a.h a.Wr (ix2 b j) = rec a a.Wr b j := by
  rw [val_main_v3_apply]
  refine Finset.sum_congr rfl fun k _ => ?_
  rw [val_main_v2_apply]
  have e₁ : lidx_main_v3 (ix2 b j) k = ix2 b k := by coords2
  have e₂ : idx_main_v2 (ridx_main_v3 (ix2 b j) k) = ix2 j k := by coords2
  rw [e₁, e₂]

theorem recE_eq (a : Args) (b : Fin 8192) (j : Fin 896) :
    val_main_v5 (F := Ideal) a.h a.We (ix2 b j) = rec a a.We b j := by
  rw [val_main_v5_apply]
  refine Finset.sum_congr rfl fun k _ => ?_
  rw [val_main_v4_apply]
  have e₁ : lidx_main_v5 (ix2 b j) k = ix2 b k := by coords2
  have e₂ : idx_main_v4 (ridx_main_v5 (ix2 b j) k) = ix2 j k := by coords2
  rw [e₁, e₂]

/-- The coarse input projection at (b, n). -/
theorem inC_eq (a : Args) (b : Fin 8192) (n : Fin 1344) :
    val_main_v7 (F := Ideal) a.y a.Ic (ix2 b n) = inC a b n := by
  rw [val_main_v7_apply]
  refine Finset.sum_congr rfl fun k _ => ?_
  rw [val_main_v6_apply]
  have e₁ : lidx_main_v7 (ix2 b n) k = ix2 b k := by coords2
  have e₂ : idx_main_v6 (ridx_main_v7 (ix2 b n) k) = ix2 n k := by coords2
  rw [e₁, e₂]

/-- The fine input projection at (b, n). -/
theorem inF_eq (a : Args) (b : Fin 8192) (n : Fin 1344) :
    val_main_v13 (F := Ideal) a.y a.z a.If (ix2 b n) = inF a b n := by
  rw [val_main_v13_apply]
  refine Finset.sum_congr rfl fun k _ => ?_
  rw [val_main_v12_apply]
  have e₁ : lidx_main_v13 (ix2 b n) k = ix2 b k := by coords2
  have e₂ : idx_main_v12 (ridx_main_v13 (ix2 b n) k) = ix2 n k := by coords2
  rw [e₁, e₂, yz_eq]

/-! ## The gates' input terms: a coarse stretch beside a fine stretch -/

/-- Stretch 0 of the coarse projection beside stretch 0 of the fine one is the update gate's input term. -/
theorem inpU_eq (a : Args) (b : Fin 8192) (j : Fin 896) :
    val_main_v17 (F := Ideal) a.y a.z a.Ic a.If (ix2 b j) = inp a 0 b j := by
  unfold val_main_v17 inp
  rw [beside448]
  by_cases hj : j.val < 448
  · rw [dif_pos hj, dif_pos hj, val_main_v8_apply]
    refine (congrArg (val_main_v7 (F := Ideal) a.y a.Ic) ?_).trans (inC_eq a b _)
    exact funext fun d => Fin.ext (by
      match d with
      | ⟨0, _⟩ => rfl
      | ⟨1, _⟩ => (show j.val = 448 * 0 + j.val; omega))
  · rw [dif_neg hj, dif_neg hj, val_main_v14_apply]
    refine (congrArg (val_main_v13 (F := Ideal) a.y a.z a.If) ?_).trans (inF_eq a b _)
    exact funext fun d => Fin.ext (by
      match d with
      | ⟨0, _⟩ => rfl
      | ⟨1, _⟩ => (show j.val - 448 = 448 * 0 + (j.val - 448); omega))

/-- Stretch 1 of each, for the reset gate. -/
theorem inpR_eq (a : Args) (b : Fin 8192) (j : Fin 896) :
    val_main_v18 (F := Ideal) a.y a.z a.Ic a.If (ix2 b j) = inp a 1 b j := by
  unfold val_main_v18 inp
  rw [beside448]
  by_cases hj : j.val < 448
  · rw [dif_pos hj, dif_pos hj, val_main_v9_apply]
    refine (congrArg (val_main_v7 (F := Ideal) a.y a.Ic) ?_).trans (inC_eq a b _)
    exact funext fun d => Fin.ext (by
      match d with
      | ⟨0, _⟩ => rfl
      | ⟨1, _⟩ => (show 448 + j.val = 448 * 1 + j.val; omega))
  · rw [dif_neg hj, dif_neg hj, val_main_v15_apply]
    refine (congrArg (val_main_v13 (F := Ideal) a.y a.z a.If) ?_).trans (inF_eq a b _)
    exact funext fun d => Fin.ext (by
      match d with
      | ⟨0, _⟩ => rfl
      | ⟨1, _⟩ => (show 448 + (j.val - 448) = 448 * 1 + (j.val - 448); omega))

/-- Stretch 2 of each, for the candidate. -/
theorem inpE_eq (a : Args) (b : Fin 8192) (j : Fin 896) :
    val_main_v19 (F := Ideal) a.y a.z a.Ic a.If (ix2 b j) = inp a 2 b j := by
  unfold val_main_v19 inp
  rw [beside448]
  by_cases hj : j.val < 448
  · rw [dif_pos hj, dif_pos hj, val_main_v10_apply]
    refine (congrArg (val_main_v7 (F := Ideal) a.y a.Ic) ?_).trans (inC_eq a b _)
    exact funext fun d => Fin.ext (by
      match d with
      | ⟨0, _⟩ => rfl
      | ⟨1, _⟩ => (show 896 + j.val = 448 * 2 + j.val; omega))
  · rw [dif_neg hj, dif_neg hj, val_main_v16_apply]
    refine (congrArg (val_main_v13 (F := Ideal) a.y a.z a.If) ?_).trans (inF_eq a b _)
    exact funext fun d => Fin.ext (by
      match d with
      | ⟨0, _⟩ => rfl
      | ⟨1, _⟩ => (show 896 + (j.val - 448) = 448 * 2 + (j.val - 448); omega))

/-! ## The biases, spread over the rows -/

theorem biasU_eq (a : Args) (b : Fin 8192) (j : Fin 896) :
    val_main_v22 (F := Ideal) a.bu (ix2 b j) = a.bu (ix1 j) := by
  rw [val_main_v22_apply, val_main_v21_apply]
  exact congrArg a.bu (funext fun d => by match d with | ⟨0, _⟩ => rfl)

theorem biasR_eq (a : Args) (b : Fin 8192) (j : Fin 896) :
    val_main_v32 (F := Ideal) a.br (ix2 b j) = a.br (ix1 j) := by
  rw [val_main_v32_apply, val_main_v31_apply]
  exact congrArg a.br (funext fun d => by match d with | ⟨0, _⟩ => rfl)

theorem biasE_eq (a : Args) (b : Fin 8192) (j : Fin 896) :
    val_main_v43 (F := Ideal) a.be (ix2 b j) = a.be (ix1 j) := by
  rw [val_main_v43_apply, val_main_v42_apply]
  exact congrArg a.be (funext fun d => by match d with | ⟨0, _⟩ => rfl)

/-! ## Gates, candidate, hidden state -/

/-- The update gate: 1 / (1 + e^(−x)) of the pre-activation, both ones the float word of 1.0. -/
theorem gateU_eq (a : Args) (b : Fin 8192) (j : Fin 896) :
    val_main_v29 (F := Ideal) a.y a.h a.z a.Wu a.Ic a.If a.bu (ix2 b j) = gateU a b j := by
  rw [val_main_v29_apply, val_main_v28_apply, val_main_cst_0_apply, val_main_v27_apply, val_main_v26_apply,
    val_main_cst_apply, val_main_v25_apply, val_main_v24_apply, val_main_v23_apply, val_main_v20_apply,
    recU_eq, inpU_eq, biasU_eq]
  exact LibLogistic.sigmoid_spelt _

/-- The reset gate, spelt the same way. -/
theorem gateR_eq (a : Args) (b : Fin 8192) (j : Fin 896) :
    val_main_v39 (F := Ideal) a.y a.h a.z a.Wr a.Ic a.If a.br (ix2 b j) = gateR a b j := by
  rw [val_main_v39_apply, val_main_v38_apply, val_main_cst_2_apply, val_main_v37_apply, val_main_v36_apply,
    val_main_cst_1_apply, val_main_v35_apply, val_main_v34_apply, val_main_v33_apply, val_main_v30_apply,
    recR_eq, inpR_eq, biasR_eq]
  exact LibLogistic.sigmoid_spelt _

/-- The candidate: tanh of the reset gate times its recurrent projection, plus input term and bias. -/
theorem cand_eq (a : Args) (b : Fin 8192) (j : Fin 896) :
    val_main_v45 (F := Ideal) a.y a.h a.z a.Wr a.We a.Ic a.If a.br a.be (ix2 b j) = cand a b j := by
  rw [val_main_v45_apply, val_main_v44_apply, val_main_v41_apply, val_main_v40_apply,
    gateR_eq, recE_eq, inpE_eq, biasE_eq]
  rfl

/-- The new hidden state u · h + (1 − u) · e at (b, j). -/
theorem hid_eq (a : Args) (b : Fin 8192) (j : Fin 896) :
    val_main_v50 (F := Ideal) a.y a.h a.z a.Wu a.Wr a.We a.Ic a.If a.bu a.br a.be (ix2 b j) = hid a b j := by
  rw [val_main_v50_apply, val_main_v46_apply, val_main_v49_apply, val_main_v48_apply, val_main_v47_apply,
    val_main_cst_3_apply, gateU_eq, cand_eq]
  rfl

/-- The reference's hidden-state result is the specification's array. -/
theorem hidden_eq
    (x0 : (⟨S8192x2, .f32⟩ : BufTy).Contents (Elt Ideal)) (x1 : (⟨S8192x896, .f32⟩ : BufTy).Contents (Elt Ideal)) (x2 : (⟨S8192x1, .f32⟩ : BufTy).Contents (Elt Ideal))
    (x3 : (⟨S896x896, .f32⟩ : BufTy).Contents (Elt Ideal)) (x4 : (⟨S896x896, .f32⟩ : BufTy).Contents (Elt Ideal)) (x5 : (⟨S896x896, .f32⟩ : BufTy).Contents (Elt Ideal))
    (x6 : (⟨S1344x2, .f32⟩ : BufTy).Contents (Elt Ideal)) (x7 : (⟨S1344x3, .f32⟩ : BufTy).Contents (Elt Ideal))
    (x8 : (⟨S448x448, .f32⟩ : BufTy).Contents (Elt Ideal)) (x9 : (⟨S448, .f32⟩ : BufTy).Contents (Elt Ideal)) (x10 : (⟨S256x448, .f32⟩ : BufTy).Contents (Elt Ideal)) (x11 : (⟨S256, .f32⟩ : BufTy).Contents (Elt Ideal))
    (x12 : (⟨S448x448, .f32⟩ : BufTy).Contents (Elt Ideal)) (x13 : (⟨S448, .f32⟩ : BufTy).Contents (Elt Ideal)) (x14 : (⟨S256x448, .f32⟩ : BufTy).Contents (Elt Ideal)) (x15 : (⟨S256, .f32⟩ : BufTy).Contents (Elt Ideal))
    (x16 : (⟨S896, .f32⟩ : BufTy).Contents (Elt Ideal)) (x17 : (⟨S896, .f32⟩ : BufTy).Contents (Elt Ideal)) (x18 : (⟨S896, .f32⟩ : BufTy).Contents (Elt Ideal)) :
    val_main_v50 (F := Ideal) x0 x1 x2 x3 x4 x5 x6 x7 x16 x17 x18
      = resH ⟨x0, x1, x2, x3, x4, x5, x6, x7, x8, x9, x10, x11, x12, x13, x14, x15, x16, x17, x18⟩ := by
  funext i
  obtain ⟨b, j, rfl⟩ : ∃ (b : Fin 8192) (j : Fin 896), i = ix2 b j := ⟨i 0, i 1, eq_ix2 i⟩
  exact hid_eq ⟨x0, x1, x2, x3, x4, x5, x6, x7, x8, x9, x10, x11, x12, x13, x14, x15, x16, x17, x18⟩ b j

end Cert.Cell.Ref

end
-- ==== Proof.RefSideOut.lean ====
/-
  The reference program's two output networks, read entry by entry.

  The new hidden state's row b is cut at column 448. Each half goes through a two-layer network:
    first layer    max(Σ_k half(b, k) · O(n, k) + bias(n), 0)     (a product with the transposed matrix, a bias
                                                                   spread over the rows, a maximum with a zero array),
    second layer   Σ_k act(b, k) · O'(q, k) + bias'(q).
  Each stage is identified, at explicit coordinates, with the specification's index-by-index definition; the two
  closing theorems say the coarse and the fine logit arrays are the specification's.
-/
import proofs.«145113_j80083960201384_2_alg».proof.Proof.RefSideHidden

noncomputable section

namespace Cert.Cell.Ref

open Idealize.ShloMosaic Idealize.ShloMosaic.ValueIdx Cert.ReferenceIdeal Cert.ReferenceIdeal.Gen Cert.ReferenceIdeal.Read

/-- Two rank-two indices are equal when their coordinates are, each by unfolding. -/
local macro "coords2" : tactic =>
  `(tactic| exact funext fun d => Fin.ext (by match d with | ⟨0, _⟩ => rfl | ⟨1, _⟩ => rfl))

/-! ## The coarse output network -/

/-- The zero word spread over [8192, 448] is zero everywhere. -/
theorem zeroC_eq (i : S8192x448.Idx) : val_main_call0_v0 (F := Ideal) i = 0 := by
  rw [val_main_call0_v0_apply, val_main_call0_cst_apply]
  exact Ideal.ofBits_zero_f32

theorem biasC1_eq (a : Args) (b : Fin 8192) (n : Fin 448) :
    val_main_v56 (F := Ideal) a.b1 (ix2 b n) = a.b1 (ix1 n) := by
  rw [val_main_v56_apply, val_main_v55_apply]
  exact congrArg a.b1 (funext fun d => by match d with | ⟨0, _⟩ => rfl)

theorem biasC2_eq (a : Args) (b : Fin 8192) (q : Fin 256) :
    val_main_v62 (F := Ideal) a.b2 (ix2 b q) = a.b2 (ix1 q) := by
  rw [val_main_v62_apply, val_main_v61_apply]
  exact congrArg a.b2 (funext fun d => by match d with | ⟨0, _⟩ => rfl)

/-- The first layer's product: the coarse half of the hidden state's row b against row n of the matrix. -/
theorem linC1_eq (a : Args) (b : Fin 8192) (n : Fin 448) :
    val_main_v54 (F := Ideal) a.y a.h a.z a.Wu a.Wr a.We a.Ic a.If a.O1 a.bu a.br a.be (ix2 b n)
      = ∑ k : Fin 448, hid a b ⟨k.val, by have := k.isLt; omega⟩ * a.O1 (ix2 n k) := by
  rw [val_main_v54_apply]
  refine Finset.sum_congr rfl fun k _ => ?_
  rw [val_main_v53_apply, val_main_v51_apply]
  have e₁ : idx_main_v51 (lidx_main_v54 (ix2 b n) k) = ix2 b ⟨k.val, by have := k.isLt; omega⟩ := by coords2
  have e₂ : idx_main_v53 (ridx_main_v54 (ix2 b n) k) = ix2 n k := by coords2
  rw [e₁, e₂, hid_eq]

/-- The first layer, rectified: the maximum with the zero array. -/
theorem act1_eq (a : Args) (b : Fin 8192) (n : Fin 448) :
    val_main_v58 (F := Ideal) a.y a.h a.z a.Wu a.Wr a.We a.Ic a.If a.O1 a.b1 a.bu a.br a.be (ix2 b n) = act1 a b n := by
  rw [val_main_v58_apply, val_main_v57_apply, linC1_eq, biasC1_eq, zeroC_eq]
  rfl

/-- The second layer's product. -/
theorem linC2_eq (a : Args) (b : Fin 8192) (q : Fin 256) :
    val_main_v60 (F := Ideal) a.y a.h a.z a.Wu a.Wr a.We a.Ic a.If a.O1 a.b1 a.O2 a.bu a.br a.be (ix2 b q)
      = ∑ k : Fin 448, act1 a b k * a.O2 (ix2 q k) := by
  rw [val_main_v60_apply]
  refine Finset.sum_congr rfl fun k _ => ?_
  rw [val_main_v59_apply]
  have e₁ : lidx_main_v60 (ix2 b q) k = ix2 b k := by coords2
  have e₂ : idx_main_v59 (ridx_main_v60 (ix2 b q) k) = ix2 q k := by coords2
  rw [e₁, e₂, act1_eq]

/-- The coarse logits at (b, q). -/
theorem outC_eq (a : Args) (b : Fin 8192) (q : Fin 256) :
    val_main_v63 (F := Ideal) a.y a.h a.z a.Wu a.Wr a.We a.Ic a.If a.O1 a.b1 a.O2 a.b2 a.bu a.br a.be (ix2 b q) = outC a b q := by
  rw [val_main_v63_apply, linC2_eq, biasC2_eq]
  rfl

/-- The reference's coarse logits are the specification's array. -/
theorem coarse_eq
    (x0 : (⟨S8192x2, .f32⟩ : BufTy).Contents (Elt Ideal)) (x1 : (⟨S8192x896, .f32⟩ : BufTy).Contents (Elt Ideal)) (x2 : (⟨S8192x1, .f32⟩ : BufTy).Contents (Elt Ideal))
    (x3 : (⟨S896x896, .f32⟩ : BufTy).Contents (Elt Ideal)) (x4 : (⟨S896x896, .f32⟩ : BufTy).Contents (Elt Ideal)) (x5 : (⟨S896x896, .f32⟩ : BufTy).Contents (Elt Ideal))
    (x6 : (⟨S1344x2, .f32⟩ : BufTy).Contents (Elt Ideal)) (x7 : (⟨S1344x3, .f32⟩ : BufTy).Contents (Elt Ideal))
    (x8 : (⟨S448x448, .f32⟩ : BufTy).Contents (Elt Ideal)) (x9 : (⟨S448, .f32⟩ : BufTy).Contents (Elt Ideal)) (x10 : (⟨S256x448, .f32⟩ : BufTy).Contents (Elt Ideal)) (x11 : (⟨S256, .f32⟩ : BufTy).Contents (Elt Ideal))
    (x12 : (⟨S448x448, .f32⟩ : BufTy).Contents (Elt Ideal)) (x13 : (⟨S448, .f32⟩ : BufTy).Contents (Elt Ideal)) (x14 : (⟨S256x448, .f32⟩ : BufTy).Contents (Elt Ideal)) (x15 : (⟨S256, .f32⟩ : BufTy).Contents (Elt Ideal))
    (x16 : (⟨S896, .f32⟩ : BufTy).Contents (Elt Ideal)) (x17 : (⟨S896, .f32⟩ : BufTy).Contents (Elt Ideal)) (x18 : (⟨S896, .f32⟩ : BufTy).Contents (Elt Ideal)) :
    val_main_v63 (F := Ideal) x0 x1 x2 x3 x4 x5 x6 x7 x8 x9 x10 x11 x16 x17 x18
      = resC ⟨x0, x1, x2, x3, x4, x5, x6, x7, x8, x9, x10, x11, x12, x13, x14, x15, x16, x17, x18⟩ := by
  funext i
  obtain ⟨b, q, rfl⟩ : ∃ (b : Fin 8192) (q : Fin 256), i = ix2 b q := ⟨i 0, i 1, eq_ix2 i⟩
  exact outC_eq ⟨x0, x1, x2, x3, x4, x5, x6, x7, x8, x9, x10, x11, x12, x13, x14, x15, x16, x17, x18⟩ b q

/-! ## The fine output network -/

/-- The zero word spread over [8192, 448] is zero everywhere. -/
theorem zeroF_eq (i : S8192x448.Idx) : val_main_call1_v0 (F := Ideal) i = 0 := by
  rw [val_main_call1_v0_apply, val_main_call1_cst_apply]
  exact Ideal.ofBits_zero_f32

theorem biasF1_eq (a : Args) (b : Fin 8192) (n : Fin 448) :
    val_main_v67 (F := Ideal) a.b3 (ix2 b n) = a.b3 (ix1 n) := by
  rw [val_main_v67_apply, val_main_v66_apply]
  exact congrArg a.b3 (funext fun d => by match d with | ⟨0, _⟩ => rfl)

theorem biasF2_eq (a : Args) (b : Fin 8192) (q : Fin 256) :
    val_main_v73 (F := Ideal) a.b4 (ix2 b q) = a.b4 (ix1 q) := by
  rw [val_main_v73_apply, val_main_v72_apply]
  exact congrArg a.b4 (funext fun d => by match d with | ⟨0, _⟩ => rfl)

/-- The first layer's product: the fine half of the hidden state's row b against row n of the matrix. -/
theorem linF1_eq (a : Args) (b : Fin 8192) (n : Fin 448) :
    val_main_v65 (F := Ideal) a.y a.h a.z a.Wu a.Wr a.We a.Ic a.If a.O3 a.bu a.br a.be (ix2 b n)
      = ∑ k : Fin 448, hid a b ⟨448 + k.val, by have := k.isLt; omega⟩ * a.O3 (ix2 n k) := by
  rw [val_main_v65_apply]
  refine Finset.sum_congr rfl fun k _ => ?_
  rw [val_main_v64_apply, val_main_v52_apply]
  have e₁ : idx_main_v52 (lidx_main_v65 (ix2 b n) k) = ix2 b ⟨448 + k.val, by have := k.isLt; omega⟩ := by coords2
  have e₂ : idx_main_v64 (ridx_main_v65 (ix2 b n) k) = ix2 n k := by coords2
  rw [e₁, e₂, hid_eq]

/-- The first layer, rectified: the maximum with the zero array. -/
theorem act3_eq (a : Args) (b : Fin 8192) (n : Fin 448) :
    val_main_v69 (F := Ideal) a.y a.h a.z a.Wu a.Wr a.We a.Ic a.If a.O3 a.b3 a.bu a.br a.be (ix2 b n) = act3 a b n := by
  rw [val_main_v69_apply, val_main_v68_apply, linF1_eq, biasF1_eq, zeroF_eq]
  rfl

/-- The second layer's product. -/
theorem linF2_eq (a : Args) (b : Fin 8192) (q : Fin 256) :
    val_main_v71 (F := Ideal) a.y a.h a.z a.Wu a.Wr a.We a.Ic a.If a.O3 a.b3 a.O4 a.bu a.br a.be (ix2 b q)
      = ∑ k : Fin 448, act3 a b k * a.O4 (ix2 q k) := by
  rw [val_main_v71_apply]
  refine Finset.sum_congr rfl fun k _ => ?_
  rw [val_main_v70_apply]
  have e₁ : lidx_main_v71 (ix2 b q) k = ix2 b k := by coords2
  have e₂ : idx_main_v70 (ridx_main_v71 (ix2 b q) k) = ix2 q k := by coords2
  rw [e₁, e₂, act3_eq]

/-- The fine logits at (b, q). -/
theorem outF_eq (a : Args) (b : Fin 8192) (q : Fin 256) :
    val_main_v74 (F := Ideal) a.y a.h a.z a.Wu a.Wr a.We a.Ic a.If a.O3 a.b3 a.O4 a.b4 a.bu a.br a.be (ix2 b q) = outF a b q := by
  rw [val_main_v74_apply, linF2_eq, biasF2_eq]
  rfl

/-- The reference's fine logits are the specification's array. -/
theorem fine_eq
    (x0 : (⟨S8192x2, .f32⟩ : BufTy).Contents (Elt Ideal)) (x1 : (⟨S8192x896, .f32⟩ : BufTy).Contents (Elt Ideal)) (x2 : (⟨S8192x1, .f32⟩ : BufTy).Contents (Elt Ideal))
    (x3 : (⟨S896x896, .f32⟩ : BufTy).Contents (Elt Ideal)) (x4 : (⟨S896x896, .f32⟩ : BufTy).Contents (Elt Ideal)) (x5 : (⟨S896x896, .f32⟩ : BufTy).Contents (Elt Ideal))
    (x6 : (⟨S1344x2, .f32⟩ : BufTy).Contents (Elt Ideal)) (x7 : (⟨S1344x3, .f32⟩ : BufTy).Contents (Elt Ideal))
    (x8 : (⟨S448x448, .f32⟩ : BufTy).Contents (Elt Ideal)) (x9 : (⟨S448, .f32⟩ : BufTy).Contents (Elt Ideal)) (x10 : (⟨S256x448, .f32⟩ : BufTy).Contents (Elt Ideal)) (x11 : (⟨S256, .f32⟩ : BufTy).Contents (Elt Ideal))
    (x12 : (⟨S448x448, .f32⟩ : BufTy).Contents (Elt Ideal)) (x13 : (⟨S448, .f32⟩ : BufTy).Contents (Elt Ideal)) (x14 : (⟨S256x448, .f32⟩ : BufTy).Contents (Elt Ideal)) (x15 : (⟨S256, .f32⟩ : BufTy).Contents (Elt Ideal))
    (x16 : (⟨S896, .f32⟩ : BufTy).Contents (Elt Ideal)) (x17 : (⟨S896, .f32⟩ : BufTy).Contents (Elt Ideal)) (x18 : (⟨S896, .f32⟩ : BufTy).Contents (Elt Ideal)) :
    val_main_v74 (F := Ideal) x0 x1 x2 x3 x4 x5 x6 x7 x12 x13 x14 x15 x16 x17 x18
      = resF ⟨x0, x1, x2, x3, x4, x5, x6, x7, x8, x9, x10, x11, x12, x13, x14, x15, x16, x17, x18⟩ := by
  funext i
  obtain ⟨b, q, rfl⟩ : ∃ (b : Fin 8192) (q : Fin 256), i = ix2 b q := ⟨i 0, i 1, eq_ix2 i⟩
  exact outF_eq ⟨x0, x1, x2, x3, x4, x5, x6, x7, x8, x9, x10, x11, x12, x13, x14, x15, x16, x17, x18⟩ b q

end Cert.Cell.Ref

end
-- ==== Proof.Algebraic.lean ====
/-
  The two programs agree at the ideal values.

  From memories that hold the same nineteen argument arrays, the kernel's run ends with its three results at the
  specification's coarse logits, fine logits and hidden state of those arrays, and the reference's run ends with its
  three results at the stages' terms of its own arguments. Those terms are the specification's arrays of the
  reference's arguments; the reference's arguments are, one by one, the kernel's; so both runs end at the same three
  arrays, and each leaves its arguments as they were.
-/
import proofs.«145113_j80083960201384_2_alg».proof.Proof.IdealFinal
import proofs.«145113_j80083960201384_2_alg».proof.Proof.RefSideOut

noncomputable section

namespace Cert.Proof.Parts

open Idealize.ShloMosaic Idealize.ShloMosaic.TcCoe Idealize.SL.Sem

/-- The reference's coarse logits, computed from arrays equal one by one to given ones, are the specification's of the given ones. -/
theorem coarse_of_agree
    {x0 y0 : (⟨Cert.ReferenceIdeal.S8192x2, .f32⟩ : BufTy).Contents (Elt Ideal)}
    {x1 y1 : (⟨Cert.ReferenceIdeal.S8192x896, .f32⟩ : BufTy).Contents (Elt Ideal)}
    {x2 y2 : (⟨Cert.ReferenceIdeal.S8192x1, .f32⟩ : BufTy).Contents (Elt Ideal)}
    {x3 y3 : (⟨Cert.ReferenceIdeal.S896x896, .f32⟩ : BufTy).Contents (Elt Ideal)}
    {x4 y4 : (⟨Cert.ReferenceIdeal.S896x896, .f32⟩ : BufTy).Contents (Elt Ideal)}
    {x5 y5 : (⟨Cert.ReferenceIdeal.S896x896, .f32⟩ : BufTy).Contents (Elt Ideal)}
    {x6 y6 : (⟨Cert.ReferenceIdeal.S1344x2, .f32⟩ : BufTy).Contents (Elt Ideal)}
    {x7 y7 : (⟨Cert.ReferenceIdeal.S1344x3, .f32⟩ : BufTy).Contents (Elt Ideal)}
    {x8 y8 : (⟨Cert.ReferenceIdeal.S448x448, .f32⟩ : BufTy).Contents (Elt Ideal)}
    {x9 y9 : (⟨Cert.ReferenceIdeal.S448, .f32⟩ : BufTy).Contents (Elt Ideal)}
    {x10 y10 : (⟨Cert.ReferenceIdeal.S256x448, .f32⟩ : BufTy).Contents (Elt Ideal)}
    {x11 y11 : (⟨Cert.ReferenceIdeal.S256, .f32⟩ : BufTy).Contents (Elt Ideal)}
    {x12 y12 : (⟨Cert.ReferenceIdeal.S448x448, .f32⟩ : BufTy).Contents (Elt Ideal)}
    {x13 y13 : (⟨Cert.ReferenceIdeal.S448, .f32⟩ : BufTy).Contents (Elt Ideal)}
    {x14 y14 : (⟨Cert.ReferenceIdeal.S256x448, .f32⟩ : BufTy).Contents (Elt Ideal)}
    {x15 y15 : (⟨Cert.ReferenceIdeal.S256, .f32⟩ : BufTy).Contents (Elt Ideal)}
    {x16 y16 : (⟨Cert.ReferenceIdeal.S896, .f32⟩ : BufTy).Contents (Elt Ideal)}
    {x17 y17 : (⟨Cert.ReferenceIdeal.S896, .f32⟩ : BufTy).Contents (Elt Ideal)}
    {x18 y18 : (⟨Cert.ReferenceIdeal.S896, .f32⟩ : BufTy).Contents (Elt Ideal)}
    (e0 : y0 = x0) (e1 : y1 = x1) (e2 : y2 = x2) (e3 : y3 = x3) (e4 : y4 = x4) (e5 : y5 = x5) (e6 : y6 = x6) (e7 : y7 = x7) (e8 : y8 = x8) (e9 : y9 = x9) (e10 : y10 = x10) (e11 : y11 = x11) (e12 : y12 = x12) (e13 : y13 = x13) (e14 : y14 = x14) (e15 : y15 = x15) (e16 : y16 = x16) (e17 : y17 = x17) (e18 : y18 = x18) :
    Cert.ReferenceIdeal.Read.val_main_v63 (F := Ideal) y0 y1 y2 y3 y4 y5 y6 y7 y8 y9 y10 y11 y16 y17 y18
      = Cert.Cell.resC ⟨x0, x1, x2, x3, x4, x5, x6, x7, x8, x9, x10, x11, x12, x13, x14, x15, x16, x17, x18⟩ := by
  subst e0 e1 e2 e3 e4 e5 e6 e7 e8 e9 e10 e11 e12 e13 e14 e15 e16 e17 e18
  exact Cert.Cell.Ref.coarse_eq _ _ _ _ _ _ _ _ _ _ _ _ _ _ _ _ _ _ _

/-- The reference's fine logits, computed from arrays equal one by one to given ones, are the specification's of the given ones. -/
theorem fine_of_agree
    {x0 y0 : (⟨Cert.ReferenceIdeal.S8192x2, .f32⟩ : BufTy).Contents (Elt Ideal)}
    {x1 y1 : (⟨Cert.ReferenceIdeal.S8192x896, .f32⟩ : BufTy).Contents (Elt Ideal)}
    {x2 y2 : (⟨Cert.ReferenceIdeal.S8192x1, .f32⟩ : BufTy).Contents (Elt Ideal)}
    {x3 y3 : (⟨Cert.ReferenceIdeal.S896x896, .f32⟩ : BufTy).Contents (Elt Ideal)}
    {x4 y4 : (⟨Cert.ReferenceIdeal.S896x896, .f32⟩ : BufTy).Contents (Elt Ideal)}
    {x5 y5 : (⟨Cert.ReferenceIdeal.S896x896, .f32⟩ : BufTy).Contents (Elt Ideal)}
    {x6 y6 : (⟨Cert.ReferenceIdeal.S1344x2, .f32⟩ : BufTy).Contents (Elt Ideal)}
    {x7 y7 : (⟨Cert.ReferenceIdeal.S1344x3, .f32⟩ : BufTy).Contents (Elt Ideal)}
    {x8 y8 : (⟨Cert.ReferenceIdeal.S448x448, .f32⟩ : BufTy).Contents (Elt Ideal)}
    {x9 y9 : (⟨Cert.ReferenceIdeal.S448, .f32⟩ : BufTy).Contents (Elt Ideal)}
    {x10 y10 : (⟨Cert.ReferenceIdeal.S256x448, .f32⟩ : BufTy).Contents (Elt Ideal)}
    {x11 y11 : (⟨Cert.ReferenceIdeal.S256, .f32⟩ : BufTy).Contents (Elt Ideal)}
    {x12 y12 : (⟨Cert.ReferenceIdeal.S448x448, .f32⟩ : BufTy).Contents (Elt Ideal)}
    {x13 y13 : (⟨Cert.ReferenceIdeal.S448, .f32⟩ : BufTy).Contents (Elt Ideal)}
    {x14 y14 : (⟨Cert.ReferenceIdeal.S256x448, .f32⟩ : BufTy).Contents (Elt Ideal)}
    {x15 y15 : (⟨Cert.ReferenceIdeal.S256, .f32⟩ : BufTy).Contents (Elt Ideal)}
    {x16 y16 : (⟨Cert.ReferenceIdeal.S896, .f32⟩ : BufTy).Contents (Elt Ideal)}
    {x17 y17 : (⟨Cert.ReferenceIdeal.S896, .f32⟩ : BufTy).Contents (Elt Ideal)}
    {x18 y18 : (⟨Cert.ReferenceIdeal.S896, .f32⟩ : BufTy).Contents (Elt Ideal)}
    (e0 : y0 = x0) (e1 : y1 = x1) (e2 : y2 = x2) (e3 : y3 = x3) (e4 : y4 = x4) (e5 : y5 = x5) (e6 : y6 = x6) (e7 : y7 = x7) (e8 : y8 = x8) (e9 : y9 = x9) (e10 : y10 = x10) (e11 : y11 = x11) (e12 : y12 = x12) (e13 : y13 = x13) (e14 : y14 = x14) (e15 : y15 = x15) (e16 : y16 = x16) (e17 : y17 = x17) (e18 : y18 = x18) :
    Cert.ReferenceIdeal.Read.val_main_v74 (F := Ideal) y0 y1 y2 y3 y4 y5 y6 y7 y12 y13 y14 y15 y16 y17 y18
      = Cert.Cell.resF ⟨x0, x1, x2, x3, x4, x5, x6, x7, x8, x9, x10, x11, x12, x13, x14, x15, x16, x17, x18⟩ := by
  subst e0 e1 e2 e3 e4 e5 e6 e7 e8 e9 e10 e11 e12 e13 e14 e15 e16 e17 e18
  exact Cert.Cell.Ref.fine_eq _ _ _ _ _ _ _ _ _ _ _ _ _ _ _ _ _ _ _

/-- The reference's hidden state, computed from arrays equal one by one to given ones, are the specification's of the given ones. -/
theorem hidden_of_agree
    {x0 y0 : (⟨Cert.ReferenceIdeal.S8192x2, .f32⟩ : BufTy).Contents (Elt Ideal)}
    {x1 y1 : (⟨Cert.ReferenceIdeal.S8192x896, .f32⟩ : BufTy).Contents (Elt Ideal)}
    {x2 y2 : (⟨Cert.ReferenceIdeal.S8192x1, .f32⟩ : BufTy).Contents (Elt Ideal)}
    {x3 y3 : (⟨Cert.ReferenceIdeal.S896x896, .f32⟩ : BufTy).Contents (Elt Ideal)}
    {x4 y4 : (⟨Cert.ReferenceIdeal.S896x896, .f32⟩ : BufTy).Contents (Elt Ideal)}
    {x5 y5 : (⟨Cert.ReferenceIdeal.S896x896, .f32⟩ : BufTy).Contents (Elt Ideal)}
    {x6 y6 : (⟨Cert.ReferenceIdeal.S1344x2, .f32⟩ : BufTy).Contents (Elt Ideal)}
    {x7 y7 : (⟨Cert.ReferenceIdeal.S1344x3, .f32⟩ : BufTy).Contents (Elt Ideal)}
    {x8 y8 : (⟨Cert.ReferenceIdeal.S448x448, .f32⟩ : BufTy).Contents (Elt Ideal)}
    {x9 y9 : (⟨Cert.ReferenceIdeal.S448, .f32⟩ : BufTy).Contents (Elt Ideal)}
    {x10 y10 : (⟨Cert.ReferenceIdeal.S256x448, .f32⟩ : BufTy).Contents (Elt Ideal)}
    {x11 y11 : (⟨Cert.ReferenceIdeal.S256, .f32⟩ : BufTy).Contents (Elt Ideal)}
    {x12 y12 : (⟨Cert.ReferenceIdeal.S448x448, .f32⟩ : BufTy).Contents (Elt Ideal)}
    {x13 y13 : (⟨Cert.ReferenceIdeal.S448, .f32⟩ : BufTy).Contents (Elt Ideal)}
    {x14 y14 : (⟨Cert.ReferenceIdeal.S256x448, .f32⟩ : BufTy).Contents (Elt Ideal)}
    {x15 y15 : (⟨Cert.ReferenceIdeal.S256, .f32⟩ : BufTy).Contents (Elt Ideal)}
    {x16 y16 : (⟨Cert.ReferenceIdeal.S896, .f32⟩ : BufTy).Contents (Elt Ideal)}
    {x17 y17 : (⟨Cert.ReferenceIdeal.S896, .f32⟩ : BufTy).Contents (Elt Ideal)}
    {x18 y18 : (⟨Cert.ReferenceIdeal.S896, .f32⟩ : BufTy).Contents (Elt Ideal)}
    (e0 : y0 = x0) (e1 : y1 = x1) (e2 : y2 = x2) (e3 : y3 = x3) (e4 : y4 = x4) (e5 : y5 = x5) (e6 : y6 = x6) (e7 : y7 = x7) (e8 : y8 = x8) (e9 : y9 = x9) (e10 : y10 = x10) (e11 : y11 = x11) (e12 : y12 = x12) (e13 : y13 = x13) (e14 : y14 = x14) (e15 : y15 = x15) (e16 : y16 = x16) (e17 : y17 = x17) (e18 : y18 = x18) :
    Cert.ReferenceIdeal.Read.val_main_v50 (F := Ideal) y0 y1 y2 y3 y4 y5 y6 y7 y16 y17 y18
      = Cert.Cell.resH ⟨x0, x1, x2, x3, x4, x5, x6, x7, x8, x9, x10, x11, x12, x13, x14, x15, x16, x17, x18⟩ := by
  subst e0 e1 e2 e3 e4 e5 e6 e7 e8 e9 e10 e11 e12 e13 e14 e15 e16 e17 e18
  exact Cert.Cell.Ref.hidden_eq _ _ _ _ _ _ _ _ _ _ _ _ _ _ _ _ _ _ _

/-- Both runs end with equal results — the specification's three arrays of the kernel's arguments — and unchanged
    arguments. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.Cell.resC (Cert.Cell.Placed.argsOf m c), fun c => Cert.Cell.resF (Cert.Cell.Placed.argsOf m c),
    fun c => Cert.Cell.resH (Cert.Cell.Placed.argsOf m c), Cert.KernelIdeal.Val.run m ρ hpre, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12, a13, a14, a15, a16, a17, a18⟩ := hagree c
  exact ⟨((h c).1.trans (Cert.ReferenceIdeal.Read.val_main_v63_eq m' c)).trans (coarse_of_agree a0 a1 a2 a3 a4 a5 a6 a7 a8 a9 a10 a11 a12 a13 a14 a15 a16 a17 a18),
    ((h c).2.1.trans (Cert.ReferenceIdeal.Read.val_main_v74_eq m' c)).trans (fine_of_agree a0 a1 a2 a3 a4 a5 a6 a7 a8 a9 a10 a11 a12 a13 a14 a15 a16 a17 a18),
    ((h c).2.2.1.trans (Cert.ReferenceIdeal.Read.val_main_v50_eq m' c)).trans (hidden_of_agree a0 a1 a2 a3 a4 a5 a6 a7 a8 a9 a10 a11 a12 a13 a14 a15 a16 a17 a18),
    (h c).2.2.2⟩

end Cert.Proof.Parts

end
-- ==== Proof.SmallClaims.lean ====
/-
  The two small claims of the certificate.

  The reference program's frame: its generated run says that the program terminates with its three results at the
  operations' composed terms AND its nineteen argument arrays unchanged; the frame claim is the second half, so it
  follows by weakening the run's post to its argument part.

  The idealization's rewrites: each of the five replaced windows widens back a value just narrowed to a shorter float
  format. At the ideal instance a change of format is the identity, so the window is its operand, and at the word-level
  instance it is by definition the rounding through the shorter format; both hold by unfolding, at each of the two
  shapes the windows occur at.
-/
import proofs.«145113_j80083960201384_2_alg».proof.Defs
import proofs.«145113_j80083960201384_2_alg».proof.Proof.Gen.ReferenceIdeal.Run
import proofs.«145113_j80083960201384_2_alg».proof.Proof.Gen.KernelIdeal
import proofs.«145113_j80083960201384_2_alg».proof.Proof.Gen.Kernel
import proofs.«145113_j80083960201384_2_alg».proof.Proof.Gen.ReferenceIdeal
import proofs.«145113_j80083960201384_2_alg».proof.Proof.Gen.Pre_finite_inputs

noncomputable section

namespace Cert.Proof.Small

open Idealize.ShloMosaic Idealize.SL.Sem

/-- The reference terminates without fault and leaves its arguments unchanged: its run, with the results dropped. -/
theorem frame_ri : Cert.frame_ReferenceIdeal :=
  fun m ρ _ => (θ_run Cert.ReferenceIdeal.defs _ _).mono (fun _ h c => (h c).2.2.2)
    (Cert.ReferenceIdeal.Value.run (F := Ideal) m ρ)

/-- Each replaced window, widening back what was just narrowed, is the identity on the extended reals and the
    rounding through the shorter format on words. -/
theorem preserves : Cert.preserves_Kernel_KernelIdeal :=
  ⟨IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16⟩

end Cert.Proof.Small

end
-- ==== Proof.lean ====
/-
  A single step of a gated recurrent cell with two small output networks, as one tiled kernel, against its plain
  array program: both frames, the kernel's idealization, and equality of the three results on the extended reals.

  The kernel tiles the 8192 rows into sixteen blocks of 512 and, for each block, forms three recurrent projections by
  one product against the three weight matrices laid side by side, the input projections by broadcast products
  against placed weight rows, the two logistic gates, the tanh candidate and the new hidden state, then two two-layer
  networks on the halves of the hidden state. Every matrix product is computed in three passes from a split of each
  operand into a value and the rest left by a change of format. At the ideal instance a change of format is the
  identity, the rest is x − x, and under the precondition (every input finite, so every intermediate value real) it is
  zero; the three passes are then the one product, the placed weights are the given ones transposed, and block by
  block, index by index, the kernel's results are the reference's.

  Frames: each kernel program runs its host prefix and then its one region, whose body reads every window whole and
  stores every result whole; the argument arrays are read only. The reference is a straight line of array operations.
  The idealization replaces five round trips through the narrow format by the identity.
-/
import proofs.«145113_j80083960201384_2_alg».proof.Defs
import proofs.«145113_j80083960201384_2_alg».proof.Proof.BitsRun
import proofs.«145113_j80083960201384_2_alg».proof.Proof.Algebraic
import proofs.«145113_j80083960201384_2_alg».proof.Proof.SmallClaims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Cert.Proof.Small.frame_ri,
    Cert.Proof.Small.preserves,
    Cert.Proof.Parts.algebraic⟩

end Cert.Proof

end
